-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v81)) (v2 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v81) = v1 c
          ∧ r.2.mem ((c.tc : Thread Cert.KernelIdeal.nD Cert.KernelIdeal.τ).loc Cert.KernelIdeal.main_v83) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x32 : Shape := ⟨2, ![8192, 32]⟩
abbrev S262144 : Shape := ⟨1, ![262144]⟩
abbrev S256x256 : Shape := ⟨2, ![256, 256]⟩
abbrev S256 : Shape := ⟨1, ![256]⟩
abbrev S256x32 : Shape := ⟨2, ![256, 32]⟩
abbrev S32 : Shape := ⟨1, ![32]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S32 .f32) (main_arg10 : FVec F S256x32 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S256x32 .f32 := Host.absf main_arg10
  let main_cst_14 : FVec F S_ .f32 := constant S_ .f32 0x7F800000#32
  let main_v40 : FVec F S256x32 .f32 := broadcastInDim S256x32 ![] bcast_S_S256x32 main_cst_14
  let main_v41 : IVec S256x32 1 := cmpf .olt main_v39 main_v40
  let main_c_15 : IVec S_ 1 := constantI S_ 1 1#1
  let main_v42 : IVec S_ 1 := (fun x v => Host.reduce IntOp.andi x v reducesTo_S256x32_S_d0_1 h_S_) main_v41 main_c_15
  let main_v43 : IVec S_ 1 := andi main_v38 main_v42
  main_v43

def fn_part1 {F : FTy → Type} [FloatOps F] (main_arg6 : FVec F S256x256 .f32) (main_arg7 : FVec F S256 .f32) (main_arg8 : FVec F S256x32 .f32) (main_arg9 : FVec F S32 .f32) (main_arg10 : FVec F S256x32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x32 .f32 := Host.absf main_arg8
  let main_cst_10 : FVec F S_ .f32 := constant S_ .f32 0x7F800000#32
  let main_v30 : FVec F S256x32 .f32 := broadcastInDim S256x32 ![] bcast_S_S256x32 main_cst_10
  let main_v31 : IVec S256x32 1 := cmpf .olt main_v29 main_v30
  let main_c_11 : IVec S_ 1 := constantI S_ 1 1#1
  let main_v32 : IVec S_ 1 := (fun x v => Host.reduce IntOp.andi x v reducesTo_S256x32_S_d0_1 h_S_) main_v31 main_c_11
  let main_v33 : IVec S_ 1 := andi main_v28 main_v32
  fn_part2 (F := F) main_arg9 main_arg10 main_v33

def fn {F : FTy → Type} [FloatOps F] (main_arg0 : FVec F S8192x256 .f32) (main_arg1 : FVec F S8192x32 .f32) (main_arg2 : IVec S262144 32) (main_arg3 : IVec S262144 32) (main_arg4 : FVec F S256x256 .f32) (main_arg5 : FVec F S256 .f32) (main_arg6 : FVec F S256x256 .f32) (main_arg7 : FVec F S256 .f32) (main_arg8 : FVec F S256x32 .f32) (main_arg9 : FVec F S32 .f32) (main_arg10 : FVec F S256x32 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_v13 main_v16
-- ==== Kernel.lean ====
abbrev S8192x256 : Shape := ⟨2, ![8192, 256]⟩
abbrev S8192x32 : Shape := ⟨2, ![8192, 32]⟩
abbrev S262144 : Shape := ⟨1, ![262144]⟩
abbrev S256x256 : Shape := ⟨2, ![256, 256]⟩
abbrev S256 : Shape := ⟨1, ![256]⟩
abbrev S256x32 : Shape := ⟨2, ![256, 32]⟩
abbrev S32 : Shape := ⟨1, ![32]⟩
abbrev S_ : Shape := ⟨0, ![]⟩
abbrev S8192 : Shape := ⟨1, ![8192]⟩
abbrev S262144x1 : Shape := ⟨2, ![262144, 1]⟩
abbrev S1024x256 : Shape := ⟨2, ![1024, 256]⟩
abbrev S8192x1 : Shape := ⟨2, ![8192, 1]⟩
abbrev S262144x256 : Shape := ⟨2, ![262144, 256]⟩
abbrev S1x256 : Shape := ⟨2, ![1, 256]⟩
abbrev S1024x32 : Shape := ⟨2, ![1024, 32]⟩
abbrev S262144x32 : Shape := ⟨2, ![262144, 32]⟩
abbrev S1x32 : Shape := ⟨2, ![1, 32]⟩
abbrev S8192x8192 : Shape := ⟨2, ![8192, 8192]⟩
abbrev S1024x1024 : Shape := ⟨2, ![1024, 1024]⟩
abbrev S32x1024 : Shape := ⟨2, ![32, 1024]⟩

abbrev nBuf : Space → Nat
  | .hbm => 117
  | .vmem => 26
  | .smem => 0
  | _ => 0

abbrev bufTy : (tb : Table) → Fin (tcTables nBuf tb) → BufTy
  | .hbm, ⟨0, _⟩ => ⟨S8192x256, .f32⟩
  | .hbm, ⟨1, _⟩ => ⟨S8192x32, .f32⟩
  | .hbm, ⟨2, _⟩ => ⟨S262144, .i32⟩
  | .hbm, ⟨3, _⟩ => ⟨S262144, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x32, .f32⟩
  | .hbm, ⟨9, _⟩ => ⟨S32, .f32⟩
  | .hbm, ⟨10, _⟩ => ⟨S256x32, .f32⟩
  | .hbm, ⟨11, _⟩ => ⟨S_, .f32⟩
  | .hbm, ⟨12, _⟩ => ⟨S262144, .f32⟩
  | .hbm, ⟨13, _⟩ => ⟨S_, .f32⟩
  | .hbm, ⟨14, _⟩ => ⟨S8192, .f32⟩
  | .hbm, ⟨15, _⟩ => ⟨S262144x1, .i32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S262144x1, .i32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x256, .f32⟩
  | .hbm, ⟨34, _⟩ => ⟨S8192x1, .f32⟩
  | .hbm, ⟨35, _⟩ => ⟨S8192x256, .f32⟩
  | .hbm, ⟨36, _⟩ => ⟨S8192x256, .f32⟩
  | .hbm, ⟨37, _⟩ => ⟨S_, .i32⟩
  | .hbm, ⟨38, _⟩ => ⟨S262144, .i32⟩
  | .hbm, ⟨39, _⟩ => ⟨S262144, .i1⟩
  | .hbm, ⟨40, _⟩ => ⟨S_, .i32⟩
  | .hbm, ⟨41, _⟩ => ⟨S262144, .i32⟩
  | .hbm, ⟨42, _⟩ => ⟨S262144, .i32⟩
  | .hbm, ⟨43, _⟩ => ⟨S262144, .i32⟩
  | .hbm, ⟨44, _⟩ => ⟨S262144x1, .i32⟩
  | .hbm, ⟨45, _⟩ => ⟨S262144x256, .f32⟩
  | .hbm, ⟨46, _⟩ => ⟨S_, .f32⟩
  | .hbm, ⟨47, _⟩ => ⟨S8192x256, .f32⟩
  | .hbm, ⟨48, _⟩ => ⟨S262144x1, .i32⟩
  | .hbm, ⟨49, _⟩ => ⟨S8192x256, .f32⟩
  | .hbm, ⟨50, _⟩ => ⟨S8192x1, .f32⟩
  | .hbm, ⟨51, _⟩ => ⟨S8192x256, .f32⟩
  | .hbm, ⟨52, _⟩ => ⟨S8192x256, .f32⟩
  | .hbm, ⟨53, _⟩ => ⟨S1x256, .f32⟩
  | .hbm, ⟨54, _⟩ => ⟨S8192x256, .f32⟩
  | .hbm, ⟨55, _⟩ => ⟨S8192x256, .f32⟩
  | .hbm, ⟨56, _⟩ => ⟨S_, .f32⟩
  | .hbm, ⟨57, _⟩ => ⟨S8192x256, .f32⟩
  | .hbm, ⟨58, _⟩ => ⟨S8192x256, .f32⟩
  | .hbm, ⟨59, _⟩ => ⟨S8192x256, .f32⟩
  | .hbm, ⟨60, _⟩ => ⟨S8192x1, .f32⟩
  | .hbm, ⟨61, _⟩ => ⟨S8192x256, .f32⟩
  | .hbm, ⟨62, _⟩ => ⟨S8192x256, .f32⟩
  | .hbm, ⟨63, _⟩ => ⟨S_, .i32⟩
  | .hbm, ⟨64, _⟩ => ⟨S262144, .i32⟩
  | .hbm, ⟨65, _⟩ => ⟨S262144, .i1⟩
  | .hbm, ⟨66, _⟩ => ⟨S_, .i32⟩
  | .hbm, ⟨67, _⟩ => ⟨S262144, .i32⟩
  | .hbm, ⟨68, _⟩ => ⟨S262144, .i32⟩
  | .hbm, ⟨69, _⟩ => ⟨S262144, .i32⟩
  | .hbm, ⟨70, _⟩ => ⟨S262144x1, .i32⟩
  | .hbm, ⟨71, _⟩ => ⟨S262144x256, .f32⟩
  | .hbm, ⟨72, _⟩ => ⟨S_, .f32⟩
  | .hbm, ⟨73, _⟩ => ⟨S8192x256, .f32⟩
  | .hbm, ⟨74, _⟩ => ⟨S262144x1, .i32⟩
  | .hbm, ⟨75, _⟩ => ⟨S8192x256, .f32⟩
  | .hbm, ⟨76, _⟩ => ⟨S8192x1, .f32⟩
  | .hbm, ⟨77, _⟩ => ⟨S8192x256, .f32⟩
  | .hbm, ⟨78, _⟩ => ⟨S8192x256, .f32⟩
  | .hbm, ⟨79, _⟩ => ⟨S1x256, .f32⟩
  | .hbm, ⟨80, _⟩ => ⟨S8192x256, .f32⟩
  | .hbm, ⟨81, _⟩ => ⟨S8192x256, .f32⟩
  | .hbm, ⟨82, _⟩ => ⟨S_, .f32⟩
  | .hbm, ⟨83, _⟩ => ⟨S8192x256, .f32⟩
  | .hbm, ⟨84, _⟩ => ⟨S8192x256, .f32⟩
  | .hbm, ⟨85, _⟩ => ⟨S8192x32, .f32⟩
  | .hbm, ⟨86, _⟩ => ⟨S8192x1, .f32⟩
  | .hbm, ⟨87, _⟩ => ⟨S8192x32, .f32⟩
  | .hbm, ⟨88, _⟩ => ⟨S8192x32, .f32⟩
  | .hbm, ⟨89, _⟩ => ⟨S_, .i32⟩
  | .hbm, ⟨90, _⟩ => ⟨S262144, .i32⟩
  | .hbm, ⟨91, _⟩ => ⟨S262144, .i1⟩
  | .hbm, ⟨92, _⟩ => ⟨S_, .i32⟩
  | .hbm, ⟨93, _⟩ => ⟨S262144, .i32⟩
  | .hbm, ⟨94, _⟩ => ⟨S262144, .i32⟩
  | .hbm, ⟨95, _⟩ => ⟨S262144, .i32⟩
  | .hbm, ⟨96, _⟩ => ⟨S262144x1, .i32⟩
  | .hbm, ⟨97, _⟩ => ⟨S262144x32, .f32⟩
  | .hbm, ⟨98, _⟩ => ⟨S_, .f32⟩
  | .hbm, ⟨99, _⟩ => ⟨S8192x32, .f32⟩
  | .hbm, ⟨100, _⟩ => ⟨S262144x1, .i32⟩
  | .hbm, ⟨101, _⟩ => ⟨S8192x32, .f32⟩
  | .hbm, ⟨102, _⟩ => ⟨S8192x1, .f32⟩
  | .hbm, ⟨103, _⟩ => ⟨S8192x32, .f32⟩
  | .hbm, ⟨104, _⟩ => ⟨S8192x32, .f32⟩
  | .hbm, ⟨105, _⟩ => ⟨S1x32, .f32⟩
  | .hbm, ⟨106, _⟩ => ⟨S8192x32, .f32⟩
  | .hbm, ⟨107, _⟩ => ⟨S8192x32, .f32⟩
  | .hbm, ⟨108, _⟩ => ⟨S_, .f32⟩
  | .hbm, ⟨109, _⟩ => ⟨S8192x32, .f32⟩
  | .hbm, ⟨110, _⟩ => ⟨S8192x32, .f32⟩
  | .hbm, ⟨111, _⟩ => ⟨S8192x32, .f32⟩
  | .hbm, ⟨112, _⟩ => ⟨S8192x32, .f32⟩
  | .hbm, ⟨113, _⟩ => ⟨S8192x32, .f32⟩
  | .hbm, ⟨114, _⟩ => ⟨S8192x32, .f32⟩
  | .hbm, ⟨115, _⟩ => ⟨S8192x8192, .f32⟩
  | .hbm, ⟨116, _⟩ => ⟨S8192x32, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S256x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S256x32, .f32⟩
  | .local _ .vmem, ⟨13, _⟩ => ⟨S1024x32, .f32⟩
  | .local _ .vmem, ⟨14, _⟩ => ⟨S1024x32, .f32⟩
  | .local _ .vmem, ⟨15, _⟩ => ⟨S1024x32, .f32⟩
  | .local _ .vmem, ⟨16, _⟩ => ⟨S1024x32, .f32⟩
  | .local _ .vmem, ⟨17, _⟩ => ⟨S1024x32, .f32⟩
  | .local _ .vmem, ⟨18, _⟩ => ⟨S1024x32, .f32⟩
  | .local _ .vmem, ⟨19, _⟩ => ⟨S1024x1024, .f32⟩
  | .local _ .vmem, ⟨20, _⟩ => ⟨S1024x1024, .f32⟩
  | .local _ .vmem, ⟨21, _⟩ => ⟨S1024x256, .f32⟩
  | .local _ .vmem, ⟨22, _⟩ => ⟨S1024x256, .f32⟩
  | .local _ .vmem, ⟨23, _⟩ => ⟨S256x32, .f32⟩
  | .local _ .vmem, ⟨24, _⟩ => ⟨S1024x32, .f32⟩
  | .local _ .vmem, ⟨25, _⟩ => ⟨S1024x32, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call0_cst : Ref sig .tc := ⟨.hbm, 56, rfl⟩
abbrev main_call0_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call1_cst : Ref sig .tc := ⟨.hbm, 82, rfl⟩
abbrev main_call1_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call2_cst : Ref sig .tc := ⟨.hbm, 108, rfl⟩
abbrev main_call2_v0 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  shapeCasts_S1024x256_S1024x256 : S1024x256.ShapeCasts S1024x256
  inb_S256x32_S256x32_0_0 : ∀ a, (![0, 0] : Fin 2 → Nat) a + S256x32.size a ≤ S256x32.size a
  h_S256x32 : 0 < S256x32.numel
  inb_S1024x32_S1024x32_0_0 : ∀ a, (![0, 0] : Fin 2 → Nat) a + S1024x32.size a ≤ S1024x32.size a
  h_S1024x32 : 0 < S1024x32.numel
  bcast_S8192x1_S8192x32_0_1 : S8192x1.BroadcastsInDim S8192x32 (![0, 1] : Fin 2 → Fin S8192x32.rank)
  bcast_S_S8192x32 : S_.BroadcastsInDim S8192x32 (![] : Fin 0 → Fin S8192x32.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  slices_S8192x256_S8192x32_0_0 : S8192x256.Slices ![0, 0] S8192x32
  shapeCasts_S1024x32_S1024x32 : S1024x32.ShapeCasts S1024x32
  transposes_S1024x32_p1_0_S32x1024 : S1024x32.Transposes [1, 0] S32x1024
  inb_S1024x1024_S1024x1024_0_0 : ∀ a, (![0, 0] : Fin 2 → Nat) a + S1024x1024.size a ≤ S1024x1024.size a
  h_S1024x1024 : 0 < S1024x1024.numel
  scatter_S8192_S262144x1_S262144_n_0_0_1_wf : ScatterDims.WF S8192 S262144x1 S262144 [] [0] [0] 1
  dot_S1024x256_S256x256_S1024x256_1_0_0_1_n_n_wf : DotDims.WF S1024x256 S256x256 S1024x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S1024x256_S256x32_S1024x32_1_0_0_1_n_n_wf : DotDims.WF S1024x256 S256x32 S1024x32 [1] [0] [0] [1] [] []
  gather_S8192x32_S262144x1_S262144x32_1_0_n_n_0_1_132_wf : GatherDims.WF S8192x32 S262144x1 S262144x32 [1] [0] [] [0] [] 1 ![1, 32]
  scatter_S8192x32_S262144x1_S262144x32_1_0_0_1_wf : ScatterDims.WF S8192x32 S262144x1 S262144x32 [1] [0] [0] 1
  dot_S1024x32_S32x1024_S1024x1024_1_0_0_1_n_n_wf : DotDims.WF S1024x32 S32x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x32.size a ≤ S256x32.size a
  hwx2_1 : ∀ i : grid2.Coords, EltTy.bits .f32 = 32 ∨ (Rect.block (s := S256x32) S256x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x32.size a ≤ S8192x32.size a
  hwx2_2 : ∀ i : grid2.Coords, EltTy.bits .f32 = 32 ∨ (Rect.block (s := S8192x32) S1024x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x32.size a ≤ S8192x32.size a
  hwx3_0 : ∀ i : grid3.Coords, EltTy.bits .f32 = 32 ∨ (Rect.block (s := S8192x32) S1024x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x32.size a ≤ S8192x32.size a
  hwx3_1 : ∀ i : grid3.Coords, EltTy.bits .f32 = 32 ∨ (Rect.block (s := S8192x32) S1024x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S8192x8192.size a
  hwx3_2 : ∀ i : grid3.Coords, EltTy.bits .f32 = 32 ∨ (Rect.block (s := S8192x8192) S1024x1024.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S8192x256.size a
  hwx4_0 : ∀ i : grid4.Coords, EltTy.bits .f32 = 32 ∨ (Rect.block (s := S8192x256) S1024x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x32.size a ≤ S256x32.size a
  hwx4_1 : ∀ i : grid4.Coords, EltTy.bits .f32 = 32 ∨ (Rect.block (s := S256x32) S256x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x32.size a ≤ S8192x32.size a
  hwx4_2 : ∀ i : grid4.Coords, EltTy.bits .f32 = 32 ∨ (Rect.block (s := S8192x32) S1024x32.size (cc4_transform_2 i) (hinb4_2 i)).WholeWords (EltTy.packing .f32)

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def gather_S8192x32_S262144x1_S262144x32_1_0_n_n_0_1_132 : GatherDims S8192x32 S262144x1 S262144x32 where
  offsetDims := [1]
  collapsedSliceDims := [0]
  operandBatchingDims := []
  startIndicesBatchingDims := []
  startIndexMap := [0]
  indexVectorDim := 1
  sliceSizes := ![1, 32]
  wf := gather_S8192x32_S262144x1_S262144x32_1_0_n_n_0_1_132_wf
def scatter_S8192x32_S262144x1_S262144x32_1_0_0_1 : ScatterDims S8192x32 S262144x1 S262144x32 where
  updateWindowDims := [1]
  insertedWindowDims := [0]
  scatterDimsToOperandDims := [0]
  indexVectorDim := 1
  wf := scatter_S8192x32_S262144x1_S262144x32_1_0_0_1_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v35) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1024x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v81) S1024x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S1024x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg0) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S256x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S1024x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S8192x256 : Shape := ⟨2, ![8192, 256]⟩
abbrev S8192x32 : Shape := ⟨2, ![8192, 32]⟩
abbrev S262144 : Shape := ⟨1, ![262144]⟩
abbrev S256x256 : Shape := ⟨2, ![256, 256]⟩
abbrev S256 : Shape := ⟨1, ![256]⟩
abbrev S256x32 : Shape := ⟨2, ![256, 32]⟩
abbrev S32 : Shape := ⟨1, ![32]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S262144x256 : Shape := ⟨2, ![262144, 256]⟩
abbrev S1x256 : Shape := ⟨2, ![1, 256]⟩
abbrev S262144x32 : Shape := ⟨2, ![262144, 32]⟩
abbrev S1x32 : Shape := ⟨2, ![1, 32]⟩
abbrev S32x8192 : Shape := ⟨2, ![32, 8192]⟩
abbrev S8192x8192 : Shape := ⟨2, ![8192, 8192]⟩

abbrev nBuf : Space → Nat
  | .hbm => 126
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x32, .f32⟩
  | .hbm, ⟨2, _⟩ => ⟨S262144, .i32⟩
  | .hbm, ⟨3, _⟩ => ⟨S262144, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x32, .f32⟩
  | .hbm, ⟨9, _⟩ => ⟨S32, .f32⟩
  | .hbm, ⟨10, _⟩ => ⟨S256x32, .f32⟩
  | .hbm, ⟨11, _⟩ => ⟨S_, .f32⟩
  | .hbm, ⟨12, _⟩ => ⟨S262144, .f32⟩
  | .hbm, ⟨13, _⟩ => ⟨S_, .f32⟩
  | .hbm, ⟨14, _⟩ => ⟨S8192, .f32⟩
  | .hbm, ⟨15, _⟩ => ⟨S262144x1, .i32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S262144x1, .i32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x256, .f32⟩
  | .hbm, ⟨34, _⟩ => ⟨S8192x1, .f32⟩
  | .hbm, ⟨35, _⟩ => ⟨S8192x256, .f32⟩
  | .hbm, ⟨36, _⟩ => ⟨S8192x256, .f32⟩
  | .hbm, ⟨37, _⟩ => ⟨S_, .i32⟩
  | .hbm, ⟨38, _⟩ => ⟨S262144, .i32⟩
  | .hbm, ⟨39, _⟩ => ⟨S262144, .i1⟩
  | .hbm, ⟨40, _⟩ => ⟨S_, .i32⟩
  | .hbm, ⟨41, _⟩ => ⟨S262144, .i32⟩
  | .hbm, ⟨42, _⟩ => ⟨S262144, .i32⟩
  | .hbm, ⟨43, _⟩ => ⟨S262144, .i32⟩
  | .hbm, ⟨44, _⟩ => ⟨S262144x1, .i32⟩
  | .hbm, ⟨45, _⟩ => ⟨S262144x256, .f32⟩
  | .hbm, ⟨46, _⟩ => ⟨S_, .f32⟩
  | .hbm, ⟨47, _⟩ => ⟨S8192x256, .f32⟩
  | .hbm, ⟨48, _⟩ => ⟨S262144x1, .i32⟩
  | .hbm, ⟨49, _⟩ => ⟨S8192x256, .f32⟩
  | .hbm, ⟨50, _⟩ => ⟨S8192x1, .f32⟩
  | .hbm, ⟨51, _⟩ => ⟨S8192x256, .f32⟩
  | .hbm, ⟨52, _⟩ => ⟨S8192x256, .f32⟩
  | .hbm, ⟨53, _⟩ => ⟨S1x256, .f32⟩
  | .hbm, ⟨54, _⟩ => ⟨S8192x256, .f32⟩
  | .hbm, ⟨55, _⟩ => ⟨S8192x256, .f32⟩
  | .hbm, ⟨56, _⟩ => ⟨S_, .f32⟩
  | .hbm, ⟨57, _⟩ => ⟨S8192x256, .f32⟩
  | .hbm, ⟨58, _⟩ => ⟨S8192x256, .f32⟩
  | .hbm, ⟨59, _⟩ => ⟨S8192x256, .f32⟩
  | .hbm, ⟨60, _⟩ => ⟨S8192x1, .f32⟩
  | .hbm, ⟨61, _⟩ => ⟨S8192x256, .f32⟩
  | .hbm, ⟨62, _⟩ => ⟨S8192x256, .f32⟩
  | .hbm, ⟨63, _⟩ => ⟨S_, .i32⟩
  | .hbm, ⟨64, _⟩ => ⟨S262144, .i32⟩
  | .hbm, ⟨65, _⟩ => ⟨S262144, .i1⟩
  | .hbm, ⟨66, _⟩ => ⟨S_, .i32⟩
  | .hbm, ⟨67, _⟩ => ⟨S262144, .i32⟩
  | .hbm, ⟨68, _⟩ => ⟨S262144, .i32⟩
  | .hbm, ⟨69, _⟩ => ⟨S262144, .i32⟩
  | .hbm, ⟨70, _⟩ => ⟨S262144x1, .i32⟩
  | .hbm, ⟨71, _⟩ => ⟨S262144x256, .f32⟩
  | .hbm, ⟨72, _⟩ => ⟨S_, .f32⟩
  | .hbm, ⟨73, _⟩ => ⟨S8192x256, .f32⟩
  | .hbm, ⟨74, _⟩ => ⟨S262144x1, .i32⟩
  | .hbm, ⟨75, _⟩ => ⟨S8192x256, .f32⟩
  | .hbm, ⟨76, _⟩ => ⟨S8192x1, .f32⟩
  | .hbm, ⟨77, _⟩ => ⟨S8192x256, .f32⟩
  | .hbm, ⟨78, _⟩ => ⟨S8192x256, .f32⟩
  | .hbm, ⟨79, _⟩ => ⟨S1x256, .f32⟩
  | .hbm, ⟨80, _⟩ => ⟨S8192x256, .f32⟩
  | .hbm, ⟨81, _⟩ => ⟨S8192x256, .f32⟩
  | .hbm, ⟨82, _⟩ => ⟨S_, .f32⟩
  | .hbm, ⟨83, _⟩ => ⟨S8192x256, .f32⟩
  | .hbm, ⟨84, _⟩ => ⟨S8192x256, .f32⟩
  | .hbm, ⟨85, _⟩ => ⟨S8192x32, .f32⟩
  | .hbm, ⟨86, _⟩ => ⟨S8192x1, .f32⟩
  | .hbm, ⟨87, _⟩ => ⟨S8192x32, .f32⟩
  | .hbm, ⟨88, _⟩ => ⟨S8192x32, .f32⟩
  | .hbm, ⟨89, _⟩ => ⟨S_, .i32⟩
  | .hbm, ⟨90, _⟩ => ⟨S262144, .i32⟩
  | .hbm, ⟨91, _⟩ => ⟨S262144, .i1⟩
  | .hbm, ⟨92, _⟩ => ⟨S_, .i32⟩
  | .hbm, ⟨93, _⟩ => ⟨S262144, .i32⟩
  | .hbm, ⟨94, _⟩ => ⟨S262144, .i32⟩
  | .hbm, ⟨95, _⟩ => ⟨S262144, .i32⟩
  | .hbm, ⟨96, _⟩ => ⟨S262144x1, .i32⟩
  | .hbm, ⟨97, _⟩ => ⟨S262144x32, .f32⟩
  | .hbm, ⟨98, _⟩ => ⟨S_, .f32⟩
  | .hbm, ⟨99, _⟩ => ⟨S8192x32, .f32⟩
  | .hbm, ⟨100, _⟩ => ⟨S262144x1, .i32⟩
  | .hbm, ⟨101, _⟩ => ⟨S8192x32, .f32⟩
  | .hbm, ⟨102, _⟩ => ⟨S8192x1, .f32⟩
  | .hbm, ⟨103, _⟩ => ⟨S8192x32, .f32⟩
  | .hbm, ⟨104, _⟩ => ⟨S8192x32, .f32⟩
  | .hbm, ⟨105, _⟩ => ⟨S1x32, .f32⟩
  | .hbm, ⟨106, _⟩ => ⟨S8192x32, .f32⟩
  | .hbm, ⟨107, _⟩ => ⟨S8192x32, .f32⟩
  | .hbm, ⟨108, _⟩ => ⟨S_, .f32⟩
  | .hbm, ⟨109, _⟩ => ⟨S8192x32, .f32⟩
  | .hbm, ⟨110, _⟩ => ⟨S8192x32, .f32⟩
  | .hbm, ⟨111, _⟩ => ⟨S8192x32, .f32⟩
  | .hbm, ⟨112, _⟩ => ⟨S8192x32, .f32⟩
  | .hbm, ⟨113, _⟩ => ⟨S8192x32, .f32⟩
  | .hbm, ⟨114, _⟩ => ⟨S8192x32, .f32⟩
  | .hbm, ⟨115, _⟩ => ⟨S32x8192, .f32⟩
  | .hbm, ⟨116, _⟩ => ⟨S8192x8192, .f32⟩
  | .hbm, ⟨117, _⟩ => ⟨S8192x8192, .f32⟩
  | .hbm, ⟨118, _⟩ => ⟨S8192x8192, .f32⟩
  | .hbm, ⟨119, _⟩ => ⟨S_, .f32⟩
  | .hbm, ⟨120, _⟩ => ⟨S8192x8192, .f32⟩
  | .hbm, ⟨121, _⟩ => ⟨S8192x8192, .f32⟩
  | .hbm, ⟨122, _⟩ => ⟨S_, .f32⟩
  | .hbm, ⟨123, _⟩ => ⟨S8192x8192, .f32⟩
  | .hbm, ⟨124, _⟩ => ⟨S8192x8192, .f32⟩
  | .hbm, ⟨125, _⟩ => ⟨S8192x32, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call0_cst : Ref sig .tc := ⟨.hbm, 56, rfl⟩
abbrev main_call0_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call1_cst : Ref sig .tc := ⟨.hbm, 82, rfl⟩
abbrev main_call1_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call2_cst : Ref sig .tc := ⟨.hbm, 108, rfl⟩
abbrev main_call2_v0 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_14 : Ref sig .tc := ⟨.hbm, 119, rfl⟩
abbrev main_v86 : Ref sig .tc := ⟨.hbm, 120, rfl⟩
abbrev main_v87 : Ref sig .tc := ⟨.hbm, 121, rfl⟩
abbrev main_cst_15 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S8192x1_S8192x32_0_1 : S8192x1.BroadcastsInDim S8192x32 (![0, 1] : Fin 2 → Fin S8192x32.rank)
  bcast_S_S8192x32 : S_.BroadcastsInDim S8192x32 (![] : Fin 0 → Fin S8192x32.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  slices_S8192x256_S8192x32_0_0 : S8192x256.Slices ![0, 0] S8192x32
  transposes_S8192x32_S32x8192_1_0 : S8192x32.Transposes [1, 0] S32x8192
  bcast_S_S8192x8192 : S_.BroadcastsInDim S8192x8192 (![] : Fin 0 → Fin S8192x8192.rank)
  scatter_S8192_S262144x1_S262144_n_0_0_1_wf : ScatterDims.WF S8192 S262144x1 S262144 [] [0] [0] 1
  dot_S8192x256_S256x256_S8192x256_1_0_0_1_n_n_wf : DotDims.WF S8192x256 S256x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x32_S8192x32_1_0_0_1_n_n_wf : DotDims.WF S8192x256 S256x32 S8192x32 [1] [0] [0] [1] [] []
  gather_S8192x32_S262144x1_S262144x32_1_0_n_n_0_1_132_wf : GatherDims.WF S8192x32 S262144x1 S262144x32 [1] [0] [] [0] [] 1 ![1, 32]
  scatter_S8192x32_S262144x1_S262144x32_1_0_0_1_wf : ScatterDims.WF S8192x32 S262144x1 S262144x32 [1] [0] [0] 1
  dot_S8192x32_S32x8192_S8192x8192_1_0_0_1_n_n_wf : DotDims.WF S8192x32 S32x8192 S8192x8192 [1] [0] [0] [1] [] []

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x32_S8192x32_1_0_0_1_n_n : DotDims S8192x256 S256x32 S8192x32 where
  lhsContracting := [1]
  rhsContracting := [0]
  lhsNonContracting := [0]
  rhsNonContracting := [1]
  lhsBatch := []
  rhsBatch := []
  wf := dot_S8192x256_S256x32_S8192x32_1_0_0_1_n_n_wf
def gather_S8192x32_S262144x1_S262144x32_1_0_n_n_0_1_132 : GatherDims S8192x32 S262144x1 S262144x32 where
  offsetDims := [1]
  collapsedSliceDims := [0]
  operandBatchingDims := []
  startIndicesBatchingDims := []
  startIndexMap := [0]
  indexVectorDim := 1
  sliceSizes := ![1, 32]
  wf := gather_S8192x32_S262144x1_S262144x32_1_0_n_n_0_1_132_wf
def scatter_S8192x32_S262144x1_S262144x32_1_0_0_1 : ScatterDims S8192x32 S262144x1 S262144x32 where
  updateWindowDims := [1]
  insertedWindowDims := [0]
  scatterDimsToOperandDims := [0]
  indexVectorDim := 1
  wf := scatter_S8192x32_S262144x1_S262144x32_1_0_0_1_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf

class Facts : Prop extends Facts₀ where

variable [Facts]
-- ==== Proof.KRegion0.lean ====
/-
  Region 0 of @main (custom_call 0, `cc0__matmul_kernel`), at the contents `V` the region finds in the core's buffers.
  A point of the grid is handed one S1024x256 block and one S256x256 block in its two input staging buffers and writes one
  S1024x256 block: the body loads both inputs whole, computes the single payload `k0_pay1` of them, and stores it over
  the whole output block. So after the body the two input buffers hold what they held and the output buffer holds
  that payload of the two blocks, whatever it held before. This is stated once, for every float instance.
-/
import proofs.«121875_j23536420782575_1_alg».proof.Proof.Gen.Kernel.Launch
import proofs.«121875_j23536420782575_1_alg».proof.Proof.Gen.Kernel.Skeleton
import proofs.«121875_j23536420782575_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: that rectangle of the window's array, read off `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, whether or not the point fetched it: where it
    was not fetched the block index has not moved, and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-block rectangles the body reads and writes through. -/
abbrev r0_a : Rect S1024x256 := Rect.unit (s := S1024x256) ![0, 0] S1024x256.size inb_S1024x256_S1024x256_0_0
abbrev r0_b : Rect S256x256 := Rect.unit (s := S256x256) ![0, 0] S256x256.size inb_S256x256_S256x256_0_0
abbrev r0_o : Rect S1024x256 := Rect.unit (s := S1024x256) ![0, 0] S1024x256.size inb_S1024x256_S1024x256_0_0

/-- What the body leaves in the output buffer, from the two input blocks: its one store, of the payload of the
    two loads, over the whole block. -/
def out0_2 (x0 : Vec F S1024x256 .f32) (x1 : Vec F S256x256 .f32) : Vec F S1024x256 .f32 :=
  View.canon [⟨r0_o, k0_pay1 (View.ld x0 r0_a) (View.ld x1 r0_b)⟩]

/-- That one store covers the output block. -/
theorem cover0_2 (p0 : Vec F S1024x256 .f32) (y : S1024x256.Idx) :
    ∃ pc ∈ ([⟨r0_o, p0⟩] : List (View.Piece (Elt F) S1024x256 .f32)), y ∈ pc.1.set :=
  View.cover_of_tiled [⟨r0_o, p0⟩] S1024x256.size (by rfl) y

set_option maxHeartbeats 1000000 in
/-- The body on three whole staging memrefs, the inputs at `x0`, `x1` and the output at anything, runs to a state
    with the inputs as they were and the output at `out0_2 x0 x1`. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input buffer at its block and the output buffer at `out0_2` of the two blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Regions

end
-- ==== Proof.KRegion1.lean ====
/-
  Region 1 of @main (custom_call 1, `cc1__matmul_kernel`), at the contents `V` the region finds in the core's buffers.
  A point of the grid is handed one S1024x256 block and one S256x256 block in its two input staging buffers and writes one
  S1024x256 block: the body loads both inputs whole, computes the single payload `k1_pay1` of them, and stores it over
  the whole output block. So after the body the two input buffers hold what they held and the output buffer holds
  that payload of the two blocks, whatever it held before. This is stated once, for every float instance.
-/
import proofs.«121875_j23536420782575_1_alg».proof.Proof.Gen.Kernel.Launch
import proofs.«121875_j23536420782575_1_alg».proof.Proof.Gen.Kernel.Skeleton
import proofs.«121875_j23536420782575_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: that rectangle of the window's array, read off `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, whether or not the point fetched it: where it
    was not fetched the block index has not moved, and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the second input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The three whole-block rectangles the body reads and writes through. -/
abbrev r1_a : Rect S1024x256 := Rect.unit (s := S1024x256) ![0, 0] S1024x256.size inb_S1024x256_S1024x256_0_0
abbrev r1_b : Rect S256x256 := Rect.unit (s := S256x256) ![0, 0] S256x256.size inb_S256x256_S256x256_0_0
abbrev r1_o : Rect S1024x256 := Rect.unit (s := S1024x256) ![0, 0] S1024x256.size inb_S1024x256_S1024x256_0_0

/-- What the body leaves in the output buffer, from the two input blocks: its one store, of the payload of the
    two loads, over the whole block. -/
def out1_2 (x0 : Vec F S1024x256 .f32) (x1 : Vec F S256x256 .f32) : Vec F S1024x256 .f32 :=
  View.canon [⟨r1_o, k1_pay1 (View.ld x0 r1_a) (View.ld x1 r1_b)⟩]

/-- That one store covers the output block. -/
theorem cover1_2 (p0 : Vec F S1024x256 .f32) (y : S1024x256.Idx) :
    ∃ pc ∈ ([⟨r1_o, p0⟩] : List (View.Piece (Elt F) S1024x256 .f32)), y ∈ pc.1.set :=
  View.cover_of_tiled [⟨r1_o, p0⟩] S1024x256.size (by rfl) y

set_option maxHeartbeats 1000000 in
/-- The body on three whole staging memrefs, the inputs at `x0`, `x1` and the output at anything, runs to a state
    with the inputs as they were and the output at `out1_2 x0 x1`. -/
theorem sound_kernel1 (c : Dev nD) (E : Set ℕ) (i : grid1.Coords)
    (arg1 : Memref sig .tc .vmem S1024x256 .f32) (harg1 : arg1.IsWhole) (arg2 : Memref sig .tc .vmem S256x256 .f32) (harg2 : arg2.IsWhole)
    (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` each
    input buffer at its block and the output buffer at `out1_2` of the two blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Regions

end
-- ==== Proof.KRegion2.lean ====
/-
  Region 2 of @main (custom_call 2, `cc2__matmul_kernel`), at the contents `V` the region finds in the core's buffers.
  A point of the grid is handed one S1024x256 block and one S256x32 block in its two input staging buffers and writes one
  S1024x32 block: the body loads both inputs whole, computes the single payload `k2_pay1` of them, and stores it over
  the whole output block. So after the body the two input buffers hold what they held and the output buffer holds
  that payload of the two blocks, whatever it held before. This is stated once, for every float instance.
-/
import proofs.«121875_j23536420782575_1_alg».proof.Proof.Gen.Kernel.Launch
import proofs.«121875_j23536420782575_1_alg».proof.Proof.Gen.Kernel.Skeleton
import proofs.«121875_j23536420782575_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: that rectangle of the window's array, read off `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point, whether or not the point fetched it: where it
    was not fetched the block index has not moved, and the body left the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the second input. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The three whole-block rectangles the body reads and writes through. -/
abbrev r2_a : Rect S1024x256 := Rect.unit (s := S1024x256) ![0, 0] S1024x256.size inb_S1024x256_S1024x256_0_0
abbrev r2_b : Rect S256x32 := Rect.unit (s := S256x32) ![0, 0] S256x32.size inb_S256x32_S256x32_0_0
abbrev r2_o : Rect S1024x32 := Rect.unit (s := S1024x32) ![0, 0] S1024x32.size inb_S1024x32_S1024x32_0_0

/-- What the body leaves in the output buffer, from the two input blocks: its one store, of the payload of the
    two loads, over the whole block. -/
def out2_2 (x0 : Vec F S1024x256 .f32) (x1 : Vec F S256x32 .f32) : Vec F S1024x32 .f32 :=
  View.canon [⟨r2_o, k2_pay1 (View.ld x0 r2_a) (View.ld x1 r2_b)⟩]

/-- That one store covers the output block. -/
theorem cover2_2 (p0 : Vec F S1024x32 .f32) (y : S1024x32.Idx) :
    ∃ pc ∈ ([⟨r2_o, p0⟩] : List (View.Piece (Elt F) S1024x32 .f32)), y ∈ pc.1.set :=
  View.cover_of_tiled [⟨r2_o, p0⟩] S1024x32.size (by rfl) y

set_option maxHeartbeats 1000000 in
/-- The body on three whole staging memrefs, the inputs at `x0`, `x1` and the output at anything, runs to a state
    with the inputs as they were and the output at `out2_2 x0 x1`. -/
theorem sound_kernel2 (c : Dev nD) (E : Set ℕ) (i : grid2.Coords)
    (arg1 : Memref sig .tc .vmem S1024x256 .f32) (harg1 : arg1.IsWhole) (arg2 : Memref sig .tc .vmem S256x32 .f32) (harg2 : arg2.IsWhole)
    (arg3 : Memref sig .tc .vmem S1024x32 .f32) (harg3 : arg3.IsWhole)
    (x0 : Vec F S1024x256 .f32) (x1 : Vec F S256x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each
    input buffer at its block and the output buffer at `out2_2` of the two blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Regions

end
-- ==== Proof.KRegion4.lean ====
/-
  Region 4 of @main (custom_call 4, `cc4__matmul_kernel`), at the contents `V` the region finds in the core's buffers.
  A point of the grid is handed one S1024x256 block and one S256x32 block in its two input staging buffers and writes one
  S1024x32 block: the body loads both inputs whole, computes the single payload `k4_pay1` of them, and stores it over
  the whole output block. So after the body the two input buffers hold what they held and the output buffer holds
  that payload of the two blocks, whatever it held before. This is stated once, for every float instance.
-/
import proofs.«121875_j23536420782575_1_alg».proof.Proof.Gen.Kernel.Launch
import proofs.«121875_j23536420782575_1_alg».proof.Proof.Gen.Kernel.Skeleton
import proofs.«121875_j23536420782575_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: that rectangle of the window's array, read off `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The first input's staging buffer holds its block at every point, whether or not the point fetched it: where it
    was not fetched the block index has not moved, and the body left the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the second input. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The three whole-block rectangles the body reads and writes through. -/
abbrev r4_a : Rect S1024x256 := Rect.unit (s := S1024x256) ![0, 0] S1024x256.size inb_S1024x256_S1024x256_0_0
abbrev r4_b : Rect S256x32 := Rect.unit (s := S256x32) ![0, 0] S256x32.size inb_S256x32_S256x32_0_0
abbrev r4_o : Rect S1024x32 := Rect.unit (s := S1024x32) ![0, 0] S1024x32.size inb_S1024x32_S1024x32_0_0

/-- What the body leaves in the output buffer, from the two input blocks: its one store, of the payload of the
    two loads, over the whole block. -/
def out4_2 (x0 : Vec F S1024x256 .f32) (x1 : Vec F S256x32 .f32) : Vec F S1024x32 .f32 :=
  View.canon [⟨r4_o, k4_pay1 (View.ld x0 r4_a) (View.ld x1 r4_b)⟩]

/-- That one store covers the output block. -/
theorem cover4_2 (p0 : Vec F S1024x32 .f32) (y : S1024x32.Idx) :
    ∃ pc ∈ ([⟨r4_o, p0⟩] : List (View.Piece (Elt F) S1024x32 .f32)), y ∈ pc.1.set :=
  View.cover_of_tiled [⟨r4_o, p0⟩] S1024x32.size (by rfl) y

set_option maxHeartbeats 1000000 in
/-- The body on three whole staging memrefs, the inputs at `x0`, `x1` and the output at anything, runs to a state
    with the inputs as they were and the output at `out4_2 x0 x1`. -/
theorem sound_kernel4 (c : Dev nD) (E : Set ℕ) (i : grid4.Coords)
    (arg1 : Memref sig .tc .vmem S1024x256 .f32) (harg1 : arg1.IsWhole) (arg2 : Memref sig .tc .vmem S256x32 .f32) (harg2 : arg2.IsWhole)
    (arg3 : Memref sig .tc .vmem S1024x32 .f32) (harg3 : arg3.IsWhole)
    (x0 : Vec F S1024x256 .f32) (x1 : Vec F S256x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The pipeline's proof data on core `c`: the arrays as the region finds them; after the body at point `t` each
    input buffer at its block and the output buffer at `out4_2` of the two blocks; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation4 (c : Dev nD) : BodyObligation (dat4 (F := F) V c) (defs₀ (F := F)) Variants.none () Set.univ := fun t => by
  rw [bigSep_W4, bigSep_W4]
  exact sound_body4 V c t

end Cert.Kernel.Regions

end
-- ==== Proof.KRegion3.lean ====
/-
  Region 3 of @main (custom_call 3, `cc3__decode_kernel`), at the contents `V` the region finds in the core's buffers.
  A point of the grid is handed one S1024x32 block and one S1024x32 block in its two input staging buffers and writes one
  S1024x1024 block: the body loads both inputs whole, computes the single payload `k3_pay1` of them, and stores it over
  the whole output block. So after the body the two input buffers hold what they held and the output buffer holds
  that payload of the two blocks, whatever it held before. This is stated once, for every float instance.
-/
import proofs.«121875_j23536420782575_1_alg».proof.Proof.Gen.Kernel.Launch
import proofs.«121875_j23536420782575_1_alg».proof.Proof.Gen.Kernel.Skeleton
import proofs.«121875_j23536420782575_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: that rectangle of the window's array, read off `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first input's staging buffer holds its block at every point, whether or not the point fetched it: where it
    was not fetched the block index has not moved, and the body left the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the second input. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The three whole-block rectangles the body reads and writes through. -/
abbrev r3_a : Rect S1024x32 := Rect.unit (s := S1024x32) ![0, 0] S1024x32.size inb_S1024x32_S1024x32_0_0
abbrev r3_b : Rect S1024x32 := Rect.unit (s := S1024x32) ![0, 0] S1024x32.size inb_S1024x32_S1024x32_0_0
abbrev r3_o : Rect S1024x1024 := Rect.unit (s := S1024x1024) ![0, 0] S1024x1024.size inb_S1024x1024_S1024x1024_0_0

/-- What the body leaves in the output buffer, from the two input blocks: its one store, of the payload of the
    two loads, over the whole block. -/
def out3_2 (x0 : Vec F S1024x32 .f32) (x1 : Vec F S1024x32 .f32) : Vec F S1024x1024 .f32 :=
  View.canon [⟨r3_o, k3_pay1 (View.ld x0 r3_a) (View.ld x1 r3_b)⟩]

/-- That one store covers the output block. -/
theorem cover3_2 (p0 : Vec F S1024x1024 .f32) (y : S1024x1024.Idx) :
    ∃ pc ∈ ([⟨r3_o, p0⟩] : List (View.Piece (Elt F) S1024x1024 .f32)), y ∈ pc.1.set :=
  View.cover_of_tiled [⟨r3_o, p0⟩] S1024x1024.size (by rfl) y

set_option maxHeartbeats 1000000 in
/-- The body on three whole staging memrefs, the inputs at `x0`, `x1` and the output at anything, runs to a state
    with the inputs as they were and the output at `out3_2 x0 x1`. -/
theorem sound_kernel3 (c : Dev nD) (E : Set ℕ) (i : grid3.Coords)
    (arg1 : Memref sig .tc .vmem S1024x32 .f32) (harg1 : arg1.IsWhole) (arg2 : Memref sig .tc .vmem S1024x32 .f32) (harg2 : arg2.IsWhole)
    (arg3 : Memref sig .tc .vmem S1024x1024 .f32) (harg3 : arg3.IsWhole)
    (x0 : Vec F S1024x32 .f32) (x1 : Vec F S1024x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__decode_kernel i arg1 harg1 arg2 harg2 arg3 harg3) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t` each
    input buffer at its block and the output buffer at `out3_2` of the two blocks; nothing owed.
    Both input windows read the same array, so each holds it at one half of the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => PosShare.left fullShare
    | ⟨1, _⟩ => PosShare.right fullShare
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation3 (c : Dev nD) : BodyObligation (dat3 (F := F) V c) (defs₀ (F := F)) Variants.none () Set.univ := fun t => by
  rw [bigSep_W3, bigSep_W3]
  exact sound_body3 V c t

end Cert.Kernel.Regions

end
-- ==== Proof.KShared3.lean ====
/-
  Region 3 reads ONE array through both of its input windows: the rows of z at the first grid coordinate through window
  0, the rows of z at the second through window 1. A core holds that array whole, at the full share, beside the output
  array. The pipeline's windows each hold their own array at their own share, so at the region's entry the full share of
  z is dealt in two halves, one per input window, and at its exit the two halves — still at the contents they were dealt
  at, since an input array is never written — are joined back into the full share.
-/
import proofs.«121875_j23536420782575_1_alg».proof.Proof.KRegion3

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 3's three windows: z, z again, and the output. -/
theorem arrRef3_0 : Pipeline.arrRef spec3 0 = main_v81 := rfl
theorem arrRef3_1 : Pipeline.arrRef spec3 1 = main_v81 := rfl
theorem arrRef3_2 : Pipeline.arrRef spec3 2 = main_v82 := rfl

/-- So the distinct buffers behind them are two. -/
theorem arrImage3 : Finset.univ.image (Pipeline.arrRef spec3) = {main_v81, main_v82} := by decide

/-- The shares the windows hold their arrays at: the two halves for the inputs, all of it for the output. -/
theorem share3_0 (c : Dev nD) : (dat3 V c).share 0 = PosShare.left fullShare := rfl
theorem share3_1 (c : Dev nD) : (dat3 V c).share 1 = PosShare.right fullShare := rfl
theorem share3_2 (c : Dev nD) : (dat3 V c).share 2 = fullShare := rfl

/-- Region 3's windowed arrays at contents `G`, window by window. -/
theorem arrays3_eq (c : Dev nD) (G : (w : Fin cfg3.W) → Buf (Elt F) ((cfg3.win w).arr.view.loc (c : Thread nD τ))) :
    ((dat3 V c).arrays G : sProp 𝕄)
      = iprop((((c : Thread nD τ).loc main_v81) ↦{PosShare.left fullShare} G 0)
          ∗ (((c : Thread nD τ).loc main_v81) ↦{PosShare.right fullShare} G 1)
          ∗ (((c : Thread nD τ).loc main_v82) ↦{fullShare} G 2)) := by
  unfold Dat.arrays
  rw [bigSep_W3, share3_0, share3_1, share3_2]
  simp only [(arr_whole3 0).set_eq_univ, (arr_whole3 1).set_eq_univ, (arr_whole3 2).set_eq_univ]

/-- ENTRY: a core's unscoped buffers at contents `Vc` are region 3's arrays at the proof data's entry contents — z's
    full share dealt in two — and the unscoped rest. -/
theorem arrays3_of_unscopedBufs (c : Dev nD) (Vc : (b : Ref sig .tc) → Buf (Elt F) ((c : Thread nD τ).loc b))
    (hA : ∀ w, (dat3 V c).A w = Vc (Pipeline.arrRef spec3 w)) :
    (unscopedBufs c Vc : sProp 𝕄) ⊢ iprop((dat3 V c).arrays ((dat3 V c).arrAt · 0) ∗ Pipeline.unscopedRest spec3 c Vc) := by
  rw [Pipeline.unscopedBufs_split₀ cfgs 3 winFacts₀3.arr_unscoped c Vc, arrays3_eq]
  refine sep_mono ?_ .rfl
  unfold Pipeline.arrBufs
  rw [show Finset.univ.image (Pipeline.arrRef (cfgs 3).spec) = {main_v81, main_v82} from arrImage3,
    bigSep_insert (by decide), bigSep_singleton,
    show (dat3 V c).arrAt 0 0 = (dat3 V c).A 0 from rfl, show (dat3 V c).arrAt 1 0 = (dat3 V c).A 1 from rfl,
    show (dat3 V c).arrAt 2 0 = (dat3 V c).A 2 from rfl, hA 0, hA 1, hA 2]
  show iprop((((c : Thread nD τ).loc main_v81) ↦{fullShare} Vc main_v81) ∗ (((c : Thread nD τ).loc main_v82) ↦{fullShare} Vc main_v82)) ⊢ _
  iintro ⟨Hz, Ho⟩
  ihave H := (pointsTo_share (PosShare.mem_left_op_right fullShare)).1 $$ Hz
  icases H with ⟨Hl, Hr⟩
  isplitl [Hl]; · iexact Hl
  isplitl [Hr]; · iexact Hr
  iexact Ho

/-- EXIT: region 3's arrays at contents `G` and the unscoped rest at `Vc` are the core's unscoped buffers at any
    valuation `Vc'` that has the arrays at `G` and agrees with `Vc` off them: the two halves of z, at one contents,
    join. -/
theorem unscopedBufs_of_arrays3 (c : Dev nD) (Vc Vc' : (b : Ref sig .tc) → Buf (Elt F) ((c : Thread nD τ).loc b))
    (G : (w : Fin cfg3.W) → Buf (Elt F) ((cfg3.win w).arr.view.loc (c : Thread nD τ)))
    (hG : ∀ w, G w = Vc' (Pipeline.arrRef spec3 w))
    (hrest : ∀ b, b ∉ Finset.univ.image (Pipeline.arrRef spec3) → Vc' b = Vc b) :
    iprop((dat3 V c).arrays G ∗ Pipeline.unscopedRest spec3 c Vc) ⊢ (unscopedBufs c Vc' : sProp 𝕄) := by
  rw [Pipeline.unscopedBufs_split₀ cfgs 3 winFacts₀3.arr_unscoped c Vc', arrays3_eq, hG 0, hG 1, hG 2]
  refine sep_mono ?_ (Entails.of_eq ?_)
  · unfold Pipeline.arrBufs
    rw [show Finset.univ.image (Pipeline.arrRef (cfgs 3).spec) = {main_v81, main_v82} from arrImage3,
      bigSep_insert (by decide), bigSep_singleton]
    show _ ⊢ iprop((((c : Thread nD τ).loc main_v81) ↦{fullShare} Vc' main_v81) ∗ (((c : Thread nD τ).loc main_v82) ↦{fullShare} Vc' main_v82))
    iintro ⟨Hl, Hr, Ho⟩
    isplitl [Hl Hr]
    · iapply (pointsTo_share (PosShare.mem_left_op_right fullShare)).2
      isplitl [Hl]; · iexact Hl
      iexact Hr
    iexact Ho
  · unfold Pipeline.unscopedRest
    exact bigSep_congr fun b hb => by rw [hrest b (Finset.mem_sdiff.mp hb).2]

end Cert.Kernel.Regions

end
-- ==== Proof.KRun.lean ====
/-
  @main from the launch to the return. @main is thirteen items in a row: stretches of host operations and the five
  kernel regions. Between two items a core holds every unscoped buffer at a known valuation: the launch memory, then
  what each host stretch computes from the valuation before it, then, after a region, the same valuation with the
  region's output array replaced by what the pipeline's write-backs leave there. The run composes the items in order
  and ends with every unscoped buffer at the last valuation `W13` — the arguments among them, untouched by any item, and
  the three results. Stated once, for every float instance.
-/
import proofs.«121875_j23536420782575_1_alg».proof.Proof.KRegion0
import proofs.«121875_j23536420782575_1_alg».proof.Proof.KRegion1
import proofs.«121875_j23536420782575_1_alg».proof.Proof.KRegion2
import proofs.«121875_j23536420782575_1_alg».proof.Proof.KRegion4
import proofs.«121875_j23536420782575_1_alg».proof.Proof.KShared3

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = W2 m c (Proc.devRef .tc (Pipeline.arrRef spec0 w)) :=
  (W2_arr m c w).symm
theorem hrest0 (c : Dev nD) : ∀ b, b ∉ Finset.univ.image (Pipeline.arrRef spec0) → W2 m c (Proc.devRef .tc b) = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b

/-- At region 1's exit: its arrays at what the pipeline leaves, every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
theorem hF1 (c : Dev nD) (w : Fin cfg1.W) : (dat1 (V4 m) c).arrAt w cfg1.N = W5 m c (Proc.devRef .tc (Pipeline.arrRef spec1 w)) :=
  (W5_arr m c w).symm
theorem hrest1 (c : Dev nD) : ∀ b, b ∉ Finset.univ.image (Pipeline.arrRef spec1) → W5 m c (Proc.devRef .tc b) = V4 m c b :=
  fun b hb => W5_of_ne m c b fun w e => hb (Finset.mem_image.mpr ⟨w, Finset.mem_univ _, e⟩)

abbrev W6 : Dev nD → Valuation τ sig (Elt F) := fun c => StableHlo.after hostOps2 (W5 m c)
abbrev W7 : Dev nD → Valuation τ sig (Elt F) := fun c => StableHlo.after hostOps2_1 (W6 m c)
abbrev V7 : (c : Dev nD) → (b : Ref sig .tc) → Buf (Elt F) ((c : Thread nD τ).loc b) := fun c b => W7 m c b

/-- At region 2's exit: its arrays at what the pipeline leaves, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem hF2 (c : Dev nD) (w : Fin cfg2.W) : (dat2 (V7 m) c).arrAt w cfg2.N = W8 m c (Proc.devRef .tc (Pipeline.arrRef spec2 w)) :=
  (W8_arr m c w).symm
theorem hrest2 (c : Dev nD) : ∀ b, b ∉ Finset.univ.image (Pipeline.arrRef spec2) → W8 m c (Proc.devRef .tc b) = V7 m c b :=
  fun b hb => W8_of_ne m c b fun w e => hb (Finset.mem_image.mpr ⟨w, Finset.mem_univ _, e⟩)

abbrev W9 : Dev nD → Valuation τ sig (Elt F) := fun c => StableHlo.after hostOps3 (W8 m c)
abbrev W10 : Dev nD → Valuation τ sig (Elt F) := fun c => StableHlo.after hostOps3_1 (W9 m c)
abbrev W11 : Dev nD → Valuation τ sig (Elt F) := fun c => StableHlo.after hostOps3_2 (W10 m c)
abbrev V11 : (c : Dev nD) → (b : Ref sig .tc) → Buf (Elt F) ((c : Thread nD τ).loc b) := fun c b => W11 m c b

/-- At region 3's exit: the output array at what the pipeline leaves, every other buffer — z among them, which the
    region only reads — as entered. -/
def W12 (c : Dev nD) : Valuation τ sig (Elt F) :=
  Function.update (W11 m c) (Proc.devRef .tc main_v82) ((dat3 (V11 m) c).arrAt 2 cfg3.N)
theorem W12_out (c : Dev nD) : W12 m c (Proc.devRef .tc main_v82) = (dat3 (V11 m) c).arrAt 2 cfg3.N := by
  unfold W12; exact Function.update_self _ _ _
theorem W12_of_ne (c : Dev nD) (b : Ref sig .tc) (hb : b ≠ main_v82) : W12 m c (Proc.devRef .tc b) = W11 m c (Proc.devRef .tc b) := by
  unfold W12; exact Function.update_of_ne (StableHlo.devRef_ne_of_ne hb) _ _
abbrev V12 : (c : Dev nD) → (b : Ref sig .tc) → Buf (Elt F) ((c : Thread nD τ).loc b) := fun c b => W12 m c b
/-- Each of region 3's arrays ends at what the pipeline leaves in it: an input array is never written. -/
theorem hF3 (c : Dev nD) (w : Fin cfg3.W) : (dat3 (V11 m) c).arrAt w cfg3.N = V12 m c (Pipeline.arrRef spec3 w) := by
  match w with
  | ⟨0, _⟩ => exact (((dat3 (V11 m) c).arrAt_in 0 rfl _).trans (A_eq3 (V11 m) c 0)).trans (W12_of_ne m c main_v81 (by decide)).symm
  | ⟨1, _⟩ => exact (((dat3 (V11 m) c).arrAt_in 1 rfl _).trans (A_eq3 (V11 m) c 1)).trans (W12_of_ne m c main_v81 (by decide)).symm
  | ⟨2, _⟩ => exact (W12_out m c).symm
theorem hrest3 (c : Dev nD) : ∀ b, b ∉ Finset.univ.image (Pipeline.arrRef spec3) → V12 m c b = V11 m c b :=
  fun b hb => W12_of_ne m c b fun e => hb (Finset.mem_image.mpr ⟨2, Finset.mem_univ _, e.symm⟩)

/-- At region 4's exit: its arrays at what the pipeline leaves, every other buffer as entered. -/
def W13 (c : Dev nD) : Valuation τ sig (Elt F) :=
  Pipeline.withArrays spec4 c (W12 m c) fun w => (dat4 (V12 m) c).arrAt w cfg4.N
theorem W13_arr (c : Dev nD) (w : Fin cfg4.W) :
    W13 m c (Proc.devRef .tc (Pipeline.arrRef spec4 w)) = (dat4 (V12 m) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) := by
  unfold W13; exact Pipeline.withArrays_of_ne spec4 c _ _ b hb
theorem hF4 (c : Dev nD) (w : Fin cfg4.W) : (dat4 (V12 m) c).arrAt w cfg4.N = W13 m c (Proc.devRef .tc (Pipeline.arrRef spec4 w)) :=
  (W13_arr m c w).symm
theorem hrest4 (c : Dev nD) : ∀ b, b ∉ Finset.univ.image (Pipeline.arrRef spec4) → W13 m c (Proc.devRef .tc b) = V12 m c b :=
  fun b hb => W13_of_ne m c b fun w e => hb (Finset.mem_image.mpr ⟨w, Finset.mem_univ _, e⟩)

/-! ## The proof data family and the thread state -/

abbrev admK : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) admK p) c
  | ⟨0, _⟩ => fun c => dat0 (V1 m) c
  | ⟨1, _⟩ => fun c => dat1 (V4 m) c
  | ⟨2, _⟩ => fun c => dat2 (V7 m) c
  | ⟨3, _⟩ => fun c => dat3 (V11 m) c
  | ⟨4, _⟩ => fun c => dat4 (V12 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of @main allocates a buffer. -/
theorem fresh0 : (hostOps0 : List (HloOp τ sig (Elt F))).Forall fun op => op.fresh = ∅ := by simp only [List.Forall]; repeat' constructor
theorem fresh1 : (hostOps1 : List (HloOp τ sig (Elt F))).Forall fun op => op.fresh = ∅ := by simp only [List.Forall]; repeat' constructor
theorem fresh1_1 : (hostOps1_1 : List (HloOp τ sig (Elt F))).Forall fun op => op.fresh = ∅ := by simp only [List.Forall]; repeat' constructor
theorem fresh2 : (hostOps2 : List (HloOp τ sig (Elt F))).Forall fun op => op.fresh = ∅ := by simp only [List.Forall]; repeat' constructor
theorem fresh2_1 : (hostOps2_1 : List (HloOp τ sig (Elt F))).Forall fun op => op.fresh = ∅ := by simp only [List.Forall]; repeat' constructor
theorem fresh3 : (hostOps3 : List (HloOp τ sig (Elt F))).Forall fun op => op.fresh = ∅ := by simp only [List.Forall]; repeat' constructor
theorem fresh3_1 : (hostOps3_1 : List (HloOp τ sig (Elt F))).Forall fun op => op.fresh = ∅ := by simp only [List.Forall]; repeat' constructor
theorem fresh3_2 : (hostOps3_2 : List (HloOp τ sig (Elt F))).Forall fun op => op.fresh = ∅ := by simp only [List.Forall]; repeat' constructor

/-- The last thread state without what the core owes: every unscoped buffer at `W13`, the generator register at some state. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the invariant
    and comes out; nothing is owed; the kernel has no semaphore of its own. -/
def reg0 : Pipeline.RegionSeg (pcfgs (F := F)) admK (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (V1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. Its arrays are
    split out of the unscoped buffers and put back at the exit contents; the generator register goes into the invariant
    and comes out; nothing is owed; the kernel has no semaphore of its own. -/
def reg1 : Pipeline.RegionSeg (pcfgs (F := F)) admK (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) admK (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (V4 m c) (fun b => W5 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are
    split out of the unscoped buffers and put back at the exit contents; the generator register goes into the invariant
    and comes out; nothing is owed; the kernel has no semaphore of its own. -/
def reg2 : Pipeline.RegionSeg (pcfgs (F := F)) admK (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) admK (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m) ((pdats m 2 c).share_full fun _ => rfl)
      (V7 m c) (fun b => W8 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W11`, left at `W12`. Both input windows read
    z, so its full share is dealt in two at entry and joined at exit; otherwise as the other regions. -/
def reg3 : Pipeline.RegionSeg (pcfgs (F := F)) admK (pdats m) () defs₀ 𝒱₀ L lv 3 where
  win := winFacts₀3
  block_pos := block_pos3
  stage_whole := stage_whole3
  K := PEmpty
  osem k := k.elim
  ho := Pipeline.OwnSemFacts.none _
  hbody c := (body_obligation3 (V11 m) c).loose
  hwaits := Pipeline.hwaits_of_owed_zero _ _ _ _ L lv 3 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec3 c (V11 m c)
  hentry c := by
    rw [Pipeline.ownSems0_none]
    have hsplit := arrays3_of_unscopedBufs (V11 m) c (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := unscopedBufs_of_arrays3 (V11 m) c (V11 m c) (V12 m c) ((dat3 (V11 m) c).arrAt · cfg3.N) (hF3 m c) (hrest3 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W12`, left at `W13`. Its arrays are
    split out of the unscoped buffers and put back at the exit contents; the generator register goes into the invariant
    and comes out; nothing is owed; the kernel has no semaphore of its own. -/
def reg4 : Pipeline.RegionSeg (pcfgs (F := F)) admK (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m) c).loose
  hwaits := Pipeline.hwaits_of_owed_zero _ _ _ _ L lv 4 fun _ _ => rfl
  pre c := iprop(StableHlo.held (c : Thread nD τ) (Pipeline.ucRefs τ sig) (W12 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V12 m c)
  hentry c := by
    rw [Pipeline.ownSems0_none]
    have hsplit := Pipeline.arrays_of_unscopedBufs (p := 4) (pcfgs (F := F)) admK (pdats m) launch4.win launch4.arr_whole c
      ((pdats m 4 c).share_full fun _ => rfl) (V12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admK (Ix := Unit) (Name := ℕ) (U := UR sig nD τ) (Lvl := ℕ)
      launch4.win launch4.arr_whole c (pdats m) ((pdats m 4 c).share_full fun _ => rfl)
      (V12 m c) (fun b => W13 m c b) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's thirteen items in order. -/
abbrev segs : List (Pipeline.Seg (pcfgs (F := F)) admK (pdats m) () defs₀ 𝒱₀ L lv) :=
  [ .host (hseg hostOps0 hostOps0_sub fresh0 (W0 m)),
    .region (reg0 m),
    .host (hseg hostOps1 hostOps1_sub fresh1 (W2 m)),
    .host (hseg hostOps1_1 hostOps1_1_sub fresh1_1 (W3 m)),
    .region (reg1 m),
    .host (hseg hostOps2 hostOps2_sub fresh2 (W5 m)),
    .host (hseg hostOps2_1 hostOps2_1_sub fresh2_1 (W6 m)),
    .region (reg2 m),
    .host (hseg hostOps3 hostOps3_sub fresh3 (W8 m)),
    .host (hseg hostOps3_1 hostOps3_1_sub fresh3_1 (W9 m)),
    .host (hseg hostOps3_2 hostOps3_2_sub fresh3_2 (W10 m)),
    .region (reg3 m),
    .region (reg4 m) ]
/-- @main is the run of those items. -/
theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    every final state has each unscoped buffer of each core at `W13`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) admK (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

end Cert.Kernel.Regions

end
-- ==== Proof.KKeep.lean ====
/-
  What no item of @main writes. A host stretch leaves every buffer it does not write as it was; a region leaves every
  buffer but its output array as it was. An argument is written by no stretch and is no region's output, so at the last
  valuation it still holds its launch contents.
-/
import proofs.«121875_j23536420782575_1_alg».proof.Proof.KRun
import proofs.«121875_j23536420782575_1_alg».proof.Proof.Gen.Kernel.Regions

set_option maxRecDepth 16384

noncomputable section

namespace Cert.Kernel.Regions

open Cert.Kernel
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Region 0 changes only its output array: any other buffer reads after it as before it — an input array because
    an input is never written, any other buffer because the region does not hold it. -/
theorem W2_keep (c : Dev nD) (r : Ref sig .tc) (hr : r ≠ main_v15) : W2 m c (Proc.devRef .tc r) = W1 m c (Proc.devRef .tc r) := by
  by_cases h0 : Pipeline.arrRef spec0 0 = r
  · subst h0; exact (W2_arr m c 0).trans (((dat0 (V1 m) c).arrAt_in 0 rfl _).trans (A_eq0 (V1 m) c 0))
  by_cases h1 : Pipeline.arrRef spec0 1 = r
  · subst h1; exact (W2_arr m c 1).trans (((dat0 (V1 m) c).arrAt_in 1 rfl _).trans (A_eq0 (V1 m) c 1))
  exact W2_of_ne m c r fun w => by
    match w with
    | ⟨0, _⟩ => exact h0
    | ⟨1, _⟩ => exact h1
    | ⟨2, _⟩ => exact fun e => hr e.symm

/-- Region 1 changes only its output array: any other buffer reads after it as before it — an input array because
    an input is never written, any other buffer because the region does not hold it. -/
theorem W5_keep (c : Dev nD) (r : Ref sig .tc) (hr : r ≠ main_v36) : W5 m c (Proc.devRef .tc r) = W4 m c (Proc.devRef .tc r) := by
  by_cases h0 : Pipeline.arrRef spec1 0 = r
  · subst h0; exact (W5_arr m c 0).trans (((dat1 (V4 m) c).arrAt_in 0 rfl _).trans (A_eq1 (V4 m) c 0))
  by_cases h1 : Pipeline.arrRef spec1 1 = r
  · subst h1; exact (W5_arr m c 1).trans (((dat1 (V4 m) c).arrAt_in 1 rfl _).trans (A_eq1 (V4 m) c 1))
  exact W5_of_ne m c r fun w => by
    match w with
    | ⟨0, _⟩ => exact h0
    | ⟨1, _⟩ => exact h1
    | ⟨2, _⟩ => exact fun e => hr e.symm

/-- Region 2 changes only its output array: any other buffer reads after it as before it — an input array because
    an input is never written, any other buffer because the region does not hold it. -/
theorem W8_keep (c : Dev nD) (r : Ref sig .tc) (hr : r ≠ main_v57) : W8 m c (Proc.devRef .tc r) = W7 m c (Proc.devRef .tc r) := by
  by_cases h0 : Pipeline.arrRef spec2 0 = r
  · subst h0; exact (W8_arr m c 0).trans (((dat2 (V7 m) c).arrAt_in 0 rfl _).trans (A_eq2 (V7 m) c 0))
  by_cases h1 : Pipeline.arrRef spec2 1 = r
  · subst h1; exact (W8_arr m c 1).trans (((dat2 (V7 m) c).arrAt_in 1 rfl _).trans (A_eq2 (V7 m) c 1))
  exact W8_of_ne m c r fun w => by
    match w with
    | ⟨0, _⟩ => exact h0
    | ⟨1, _⟩ => exact h1
    | ⟨2, _⟩ => exact fun e => hr e.symm

/-- Region 4 changes only its output array: any other buffer reads after it as before it — an input array because
    an input is never written, any other buffer because the region does not hold it. -/
theorem W13_keep (c : Dev nD) (r : Ref sig .tc) (hr : r ≠ main_v83) : W13 m c (Proc.devRef .tc r) = W12 m c (Proc.devRef .tc r) := by
  by_cases h0 : Pipeline.arrRef spec4 0 = r
  · subst h0; exact (W13_arr m c 0).trans (((dat4 (V12 m) c).arrAt_in 0 rfl _).trans (A_eq4 (V12 m) c 0))
  by_cases h1 : Pipeline.arrRef spec4 1 = r
  · subst h1; exact (W13_arr m c 1).trans (((dat4 (V12 m) c).arrAt_in 1 rfl _).trans (A_eq4 (V12 m) c 1))
  exact W13_of_ne m c r fun w => by
    match w with
    | ⟨0, _⟩ => exact h0
    | ⟨1, _⟩ => exact h1
    | ⟨2, _⟩ => exact fun e => hr e.symm

/-- A buffer that no host stretch writes and that is no region's output ends as launched. -/
theorem W13_unwritten (c : Dev nD) (r : Ref sig .tc)
    (h0 : r ∉ Gen.hostOps0_W) (h1 : r ∉ Gen.hostOps1_W) (h11 : r ∉ Gen.hostOps1_1_W) (h2 : r ∉ Gen.hostOps2_W) (h21 : r ∉ Gen.hostOps2_1_W)
    (h3 : r ∉ Gen.hostOps3_W) (h31 : r ∉ Gen.hostOps3_1_W) (h32 : r ∉ Gen.hostOps3_2_W)
    (hr : r ∉ ([main_v15, main_v36, main_v57, main_v82, main_v83] : List (Ref sig .tc))) :
    W13 m c (Proc.devRef .tc r) = m ((c : Thread nD τ).loc r) := by
  have e15 : r ≠ main_v15 := fun e => hr (by rw [e]; decide)
  have e36 : r ≠ main_v36 := fun e => hr (by rw [e]; decide)
  have e57 : r ≠ main_v57 := fun e => hr (by rw [e]; decide)
  have e82 : r ≠ main_v82 := fun e => hr (by rw [e]; decide)
  have e83 : r ≠ main_v83 := fun e => hr (by rw [e]; decide)
  calc W13 m c (Proc.devRef .tc r)
    _ = W12 m c (Proc.devRef .tc r) := W13_keep m c r e83
    _ = W11 m c (Proc.devRef .tc r) := W12_of_ne m c r e82
    _ = W10 m c (Proc.devRef .tc r) := StableHlo.after_of_writes_sub Gen.hostOps3_2 _ Gen.hostOps3_2_writes h32
    _ = W9 m c (Proc.devRef .tc r) := StableHlo.after_of_writes_sub Gen.hostOps3_1 _ Gen.hostOps3_1_writes h31
    _ = W8 m c (Proc.devRef .tc r) := StableHlo.after_of_writes_sub Gen.hostOps3 _ Gen.hostOps3_writes h3
    _ = W7 m c (Proc.devRef .tc r) := W8_keep m c r e57
    _ = W6 m c (Proc.devRef .tc r) := StableHlo.after_of_writes_sub Gen.hostOps2_1 _ Gen.hostOps2_1_writes h21
    _ = W5 m c (Proc.devRef .tc r) := StableHlo.after_of_writes_sub Gen.hostOps2 _ Gen.hostOps2_writes h2
    _ = W4 m c (Proc.devRef .tc r) := W5_keep m c r e36
    _ = W3 m c (Proc.devRef .tc r) := StableHlo.after_of_writes_sub Gen.hostOps1_1 _ Gen.hostOps1_1_writes h11
    _ = W2 m c (Proc.devRef .tc r) := StableHlo.after_of_writes_sub Gen.hostOps1 _ Gen.hostOps1_writes h1
    _ = W1 m c (Proc.devRef .tc r) := W2_keep m c r e15
    _ = W0 m c (Proc.devRef .tc r) := StableHlo.after_of_writes_sub Gen.hostOps0 _ Gen.hostOps0_writes h0
    _ = m ((c : Thread nD τ).loc r) := rfl

/-! The eleven arguments. -/
theorem W13_main_arg0 (c : Dev nD) : W13 m c (Proc.devRef .tc main_arg0) = m ((c : Thread nD τ).loc main_arg0) :=
  W13_unwritten m c main_arg0 (by decide) (by decide) (by decide) (by decide) (by decide) (by decide) (by decide) (by decide) (by decide)
theorem W13_main_arg1 (c : Dev nD) : W13 m c (Proc.devRef .tc main_arg1) = m ((c : Thread nD τ).loc main_arg1) :=
  W13_unwritten m c main_arg1 (by decide) (by decide) (by decide) (by decide) (by decide) (by decide) (by decide) (by decide) (by decide)
theorem W13_main_arg2 (c : Dev nD) : W13 m c (Proc.devRef .tc main_arg2) = m ((c : Thread nD τ).loc main_arg2) :=
  W13_unwritten m c main_arg2 (by decide) (by decide) (by decide) (by decide) (by decide) (by decide) (by decide) (by decide) (by decide)
theorem W13_main_arg3 (c : Dev nD) : W13 m c (Proc.devRef .tc main_arg3) = m ((c : Thread nD τ).loc main_arg3) :=
  W13_unwritten m c main_arg3 (by decide) (by decide) (by decide) (by decide) (by decide) (by decide) (by decide) (by decide) (by decide)
theorem W13_main_arg4 (c : Dev nD) : W13 m c (Proc.devRef .tc main_arg4) = m ((c : Thread nD τ).loc main_arg4) :=
  W13_unwritten m c main_arg4 (by decide) (by decide) (by decide) (by decide) (by decide) (by decide) (by decide) (by decide) (by decide)
theorem W13_main_arg5 (c : Dev nD) : W13 m c (Proc.devRef .tc main_arg5) = m ((c : Thread nD τ).loc main_arg5) :=
  W13_unwritten m c main_arg5 (by decide) (by decide) (by decide) (by decide) (by decide) (by decide) (by decide) (by decide) (by decide)
theorem W13_main_arg6 (c : Dev nD) : W13 m c (Proc.devRef .tc main_arg6) = m ((c : Thread nD τ).loc main_arg6) :=
  W13_unwritten m c main_arg6 (by decide) (by decide) (by decide) (by decide) (by decide) (by decide) (by decide) (by decide) (by decide)
theorem W13_main_arg7 (c : Dev nD) : W13 m c (Proc.devRef .tc main_arg7) = m ((c : Thread nD τ).loc main_arg7) :=
  W13_unwritten m c main_arg7 (by decide) (by decide) (by decide) (by decide) (by decide) (by decide) (by decide) (by decide) (by decide)
theorem W13_main_arg8 (c : Dev nD) : W13 m c (Proc.devRef .tc main_arg8) = m ((c : Thread nD τ).loc main_arg8) :=
  W13_unwritten m c main_arg8 (by decide) (by decide) (by decide) (by decide) (by decide) (by decide) (by decide) (by decide) (by decide)
theorem W13_main_arg9 (c : Dev nD) : W13 m c (Proc.devRef .tc main_arg9) = m ((c : Thread nD τ).loc main_arg9) :=
  W13_unwritten m c main_arg9 (by decide) (by decide) (by decide) (by decide) (by decide) (by decide) (by decide) (by decide) (by decide)
theorem W13_main_arg10 (c : Dev nD) : W13 m c (Proc.devRef .tc main_arg10) = m ((c : Thread nD τ).loc main_arg10) :=
  W13_unwritten m c main_arg10 (by decide) (by decide) (by decide) (by decide) (by decide) (by decide) (by decide) (by decide) (by decide)

end Cert.Kernel.Regions

end
-- ==== Proof.KIRegion0.lean ====
/-
  Region 0 of @main (custom_call 0, `cc0__matmul_kernel`), at the contents `V` the region finds in the core's buffers.
  A point of the grid is handed one S1024x256 block and one S256x256 block in its two input staging buffers and writes one
  S1024x256 block: the body loads both inputs whole, computes the single payload `k0_pay1` of them, and stores it over
  the whole output block. So after the body the two input buffers hold what they held and the output buffer holds
  that payload of the two blocks, whatever it held before. This is stated once, for every float instance.
-/
import proofs.«121875_j23536420782575_1_alg».proof.Proof.Gen.KernelIdeal.Launch
import proofs.«121875_j23536420782575_1_alg».proof.Proof.Gen.KernelIdeal.Skeleton
import proofs.«121875_j23536420782575_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: that rectangle of the window's array, read off `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, whether or not the point fetched it: where it
    was not fetched the block index has not moved, and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-block rectangles the body reads and writes through. -/
abbrev r0_a : Rect S1024x256 := Rect.unit (s := S1024x256) ![0, 0] S1024x256.size inb_S1024x256_S1024x256_0_0
abbrev r0_b : Rect S256x256 := Rect.unit (s := S256x256) ![0, 0] S256x256.size inb_S256x256_S256x256_0_0
abbrev r0_o : Rect S1024x256 := Rect.unit (s := S1024x256) ![0, 0] S1024x256.size inb_S1024x256_S1024x256_0_0

/-- What the body leaves in the output buffer, from the two input blocks: its one store, of the payload of the
    two loads, over the whole block. -/
def out0_2 (x0 : Vec F S1024x256 .f32) (x1 : Vec F S256x256 .f32) : Vec F S1024x256 .f32 :=
  View.canon [⟨r0_o, k0_pay1 (View.ld x0 r0_a) (View.ld x1 r0_b)⟩]

/-- That one store covers the output block. -/
theorem cover0_2 (p0 : Vec F S1024x256 .f32) (y : S1024x256.Idx) :
    ∃ pc ∈ ([⟨r0_o, p0⟩] : List (View.Piece (Elt F) S1024x256 .f32)), y ∈ pc.1.set :=
  View.cover_of_tiled [⟨r0_o, p0⟩] S1024x256.size (by rfl) y

set_option maxHeartbeats 1000000 in
/-- The body on three whole staging memrefs, the inputs at `x0`, `x1` and the output at anything, runs to a state
    with the inputs as they were and the output at `out0_2 x0 x1`. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input buffer at its block and the output buffer at `out0_2` of the two blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Regions

end
-- ==== Proof.KIRegion1.lean ====
/-
  Region 1 of @main (custom_call 1, `cc1__matmul_kernel`), at the contents `V` the region finds in the core's buffers.
  A point of the grid is handed one S1024x256 block and one S256x256 block in its two input staging buffers and writes one
  S1024x256 block: the body loads both inputs whole, computes the single payload `k1_pay1` of them, and stores it over
  the whole output block. So after the body the two input buffers hold what they held and the output buffer holds
  that payload of the two blocks, whatever it held before. This is stated once, for every float instance.
-/
import proofs.«121875_j23536420782575_1_alg».proof.Proof.Gen.KernelIdeal.Launch
import proofs.«121875_j23536420782575_1_alg».proof.Proof.Gen.KernelIdeal.Skeleton
import proofs.«121875_j23536420782575_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: that rectangle of the window's array, read off `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, whether or not the point fetched it: where it
    was not fetched the block index has not moved, and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the second input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The three whole-block rectangles the body reads and writes through. -/
abbrev r1_a : Rect S1024x256 := Rect.unit (s := S1024x256) ![0, 0] S1024x256.size inb_S1024x256_S1024x256_0_0
abbrev r1_b : Rect S256x256 := Rect.unit (s := S256x256) ![0, 0] S256x256.size inb_S256x256_S256x256_0_0
abbrev r1_o : Rect S1024x256 := Rect.unit (s := S1024x256) ![0, 0] S1024x256.size inb_S1024x256_S1024x256_0_0

/-- What the body leaves in the output buffer, from the two input blocks: its one store, of the payload of the
    two loads, over the whole block. -/
def out1_2 (x0 : Vec F S1024x256 .f32) (x1 : Vec F S256x256 .f32) : Vec F S1024x256 .f32 :=
  View.canon [⟨r1_o, k1_pay1 (View.ld x0 r1_a) (View.ld x1 r1_b)⟩]

/-- That one store covers the output block. -/
theorem cover1_2 (p0 : Vec F S1024x256 .f32) (y : S1024x256.Idx) :
    ∃ pc ∈ ([⟨r1_o, p0⟩] : List (View.Piece (Elt F) S1024x256 .f32)), y ∈ pc.1.set :=
  View.cover_of_tiled [⟨r1_o, p0⟩] S1024x256.size (by rfl) y

set_option maxHeartbeats 1000000 in
/-- The body on three whole staging memrefs, the inputs at `x0`, `x1` and the output at anything, runs to a state
    with the inputs as they were and the output at `out1_2 x0 x1`. -/
theorem sound_kernel1 (c : Dev nD) (E : Set ℕ) (i : grid1.Coords)
    (arg1 : Memref sig .tc .vmem S1024x256 .f32) (harg1 : arg1.IsWhole) (arg2 : Memref sig .tc .vmem S256x256 .f32) (harg2 : arg2.IsWhole)
    (arg3 : Memref sig .tc .vmem S1024x256 .f32) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` each
    input buffer at its block and the output buffer at `out1_2` of the two blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Regions

end
-- ==== Proof.KIRegion2.lean ====
/-
  Region 2 of @main (custom_call 2, `cc2__matmul_kernel`), at the contents `V` the region finds in the core's buffers.
  A point of the grid is handed one S1024x256 block and one S256x32 block in its two input staging buffers and writes one
  S1024x32 block: the body loads both inputs whole, computes the single payload `k2_pay1` of them, and stores it over
  the whole output block. So after the body the two input buffers hold what they held and the output buffer holds
  that payload of the two blocks, whatever it held before. This is stated once, for every float instance.
-/
import proofs.«121875_j23536420782575_1_alg».proof.Proof.Gen.KernelIdeal.Launch
import proofs.«121875_j23536420782575_1_alg».proof.Proof.Gen.KernelIdeal.Skeleton
import proofs.«121875_j23536420782575_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: that rectangle of the window's array, read off `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point, whether or not the point fetched it: where it
    was not fetched the block index has not moved, and the body left the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the second input. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The three whole-block rectangles the body reads and writes through. -/
abbrev r2_a : Rect S1024x256 := Rect.unit (s := S1024x256) ![0, 0] S1024x256.size inb_S1024x256_S1024x256_0_0
abbrev r2_b : Rect S256x32 := Rect.unit (s := S256x32) ![0, 0] S256x32.size inb_S256x32_S256x32_0_0
abbrev r2_o : Rect S1024x32 := Rect.unit (s := S1024x32) ![0, 0] S1024x32.size inb_S1024x32_S1024x32_0_0

/-- What the body leaves in the output buffer, from the two input blocks: its one store, of the payload of the
    two loads, over the whole block. -/
def out2_2 (x0 : Vec F S1024x256 .f32) (x1 : Vec F S256x32 .f32) : Vec F S1024x32 .f32 :=
  View.canon [⟨r2_o, k2_pay1 (View.ld x0 r2_a) (View.ld x1 r2_b)⟩]

/-- That one store covers the output block. -/
theorem cover2_2 (p0 : Vec F S1024x32 .f32) (y : S1024x32.Idx) :
    ∃ pc ∈ ([⟨r2_o, p0⟩] : List (View.Piece (Elt F) S1024x32 .f32)), y ∈ pc.1.set :=
  View.cover_of_tiled [⟨r2_o, p0⟩] S1024x32.size (by rfl) y

set_option maxHeartbeats 1000000 in
/-- The body on three whole staging memrefs, the inputs at `x0`, `x1` and the output at anything, runs to a state
    with the inputs as they were and the output at `out2_2 x0 x1`. -/
theorem sound_kernel2 (c : Dev nD) (E : Set ℕ) (i : grid2.Coords)
    (arg1 : Memref sig .tc .vmem S1024x256 .f32) (harg1 : arg1.IsWhole) (arg2 : Memref sig .tc .vmem S256x32 .f32) (harg2 : arg2.IsWhole)
    (arg3 : Memref sig .tc .vmem S1024x32 .f32) (harg3 : arg3.IsWhole)
    (x0 : Vec F S1024x256 .f32) (x1 : Vec F S256x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each
    input buffer at its block and the output buffer at `out2_2` of the two blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Regions

end
-- ==== Proof.KIRegion4.lean ====
/-
  Region 4 of @main (custom_call 4, `cc4__matmul_kernel`), at the contents `V` the region finds in the core's buffers.
  A point of the grid is handed one S1024x256 block and one S256x32 block in its two input staging buffers and writes one
  S1024x32 block: the body loads both inputs whole, computes the single payload `k4_pay1` of them, and stores it over
  the whole output block. So after the body the two input buffers hold what they held and the output buffer holds
  that payload of the two blocks, whatever it held before. This is stated once, for every float instance.
-/
import proofs.«121875_j23536420782575_1_alg».proof.Proof.Gen.KernelIdeal.Launch
import proofs.«121875_j23536420782575_1_alg».proof.Proof.Gen.KernelIdeal.Skeleton
import proofs.«121875_j23536420782575_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: that rectangle of the window's array, read off `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The first input's staging buffer holds its block at every point, whether or not the point fetched it: where it
    was not fetched the block index has not moved, and the body left the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the second input. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The three whole-block rectangles the body reads and writes through. -/
abbrev r4_a : Rect S1024x256 := Rect.unit (s := S1024x256) ![0, 0] S1024x256.size inb_S1024x256_S1024x256_0_0
abbrev r4_b : Rect S256x32 := Rect.unit (s := S256x32) ![0, 0] S256x32.size inb_S256x32_S256x32_0_0
abbrev r4_o : Rect S1024x32 := Rect.unit (s := S1024x32) ![0, 0] S1024x32.size inb_S1024x32_S1024x32_0_0

/-- What the body leaves in the output buffer, from the two input blocks: its one store, of the payload of the
    two loads, over the whole block. -/
def out4_2 (x0 : Vec F S1024x256 .f32) (x1 : Vec F S256x32 .f32) : Vec F S1024x32 .f32 :=
  View.canon [⟨r4_o, k4_pay1 (View.ld x0 r4_a) (View.ld x1 r4_b)⟩]

/-- That one store covers the output block. -/
theorem cover4_2 (p0 : Vec F S1024x32 .f32) (y : S1024x32.Idx) :
    ∃ pc ∈ ([⟨r4_o, p0⟩] : List (View.Piece (Elt F) S1024x32 .f32)), y ∈ pc.1.set :=
  View.cover_of_tiled [⟨r4_o, p0⟩] S1024x32.size (by rfl) y

set_option maxHeartbeats 1000000 in
/-- The body on three whole staging memrefs, the inputs at `x0`, `x1` and the output at anything, runs to a state
    with the inputs as they were and the output at `out4_2 x0 x1`. -/
theorem sound_kernel4 (c : Dev nD) (E : Set ℕ) (i : grid4.Coords)
    (arg1 : Memref sig .tc .vmem S1024x256 .f32) (harg1 : arg1.IsWhole) (arg2 : Memref sig .tc .vmem S256x32 .f32) (harg2 : arg2.IsWhole)
    (arg3 : Memref sig .tc .vmem S1024x32 .f32) (harg3 : arg3.IsWhole)
    (x0 : Vec F S1024x256 .f32) (x1 : Vec F S256x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The pipeline's proof data on core `c`: the arrays as the region finds them; after the body at point `t` each
    input buffer at its block and the output buffer at `out4_2` of the two blocks; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation4 (c : Dev nD) : BodyObligation (dat4 (F := F) V c) (defs₀ (F := F)) Variants.none () Set.univ := fun t => by
  rw [bigSep_W4, bigSep_W4]
  exact sound_body4 V c t

end Cert.KernelIdeal.Regions

end
-- ==== Proof.KIRegion3.lean ====
/-
  Region 3 of @main (custom_call 3, `cc3__decode_kernel`), at the contents `V` the region finds in the core's buffers.
  A point of the grid is handed one S1024x32 block and one S1024x32 block in its two input staging buffers and writes one
  S1024x1024 block: the body loads both inputs whole, computes the single payload `k3_pay1` of them, and stores it over
  the whole output block. So after the body the two input buffers hold what they held and the output buffer holds
  that payload of the two blocks, whatever it held before. This is stated once, for every float instance.
-/
import proofs.«121875_j23536420782575_1_alg».proof.Proof.Gen.KernelIdeal.Launch
import proofs.«121875_j23536420782575_1_alg».proof.Proof.Gen.KernelIdeal.Skeleton
import proofs.«121875_j23536420782575_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: that rectangle of the window's array, read off `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first input's staging buffer holds its block at every point, whether or not the point fetched it: where it
    was not fetched the block index has not moved, and the body left the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the second input. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The three whole-block rectangles the body reads and writes through. -/
abbrev r3_a : Rect S1024x32 := Rect.unit (s := S1024x32) ![0, 0] S1024x32.size inb_S1024x32_S1024x32_0_0
abbrev r3_b : Rect S1024x32 := Rect.unit (s := S1024x32) ![0, 0] S1024x32.size inb_S1024x32_S1024x32_0_0
abbrev r3_o : Rect S1024x1024 := Rect.unit (s := S1024x1024) ![0, 0] S1024x1024.size inb_S1024x1024_S1024x1024_0_0

/-- What the body leaves in the output buffer, from the two input blocks: its one store, of the payload of the
    two loads, over the whole block. -/
def out3_2 (x0 : Vec F S1024x32 .f32) (x1 : Vec F S1024x32 .f32) : Vec F S1024x1024 .f32 :=
  View.canon [⟨r3_o, k3_pay1 (View.ld x0 r3_a) (View.ld x1 r3_b)⟩]

/-- That one store covers the output block. -/
theorem cover3_2 (p0 : Vec F S1024x1024 .f32) (y : S1024x1024.Idx) :
    ∃ pc ∈ ([⟨r3_o, p0⟩] : List (View.Piece (Elt F) S1024x1024 .f32)), y ∈ pc.1.set :=
  View.cover_of_tiled [⟨r3_o, p0⟩] S1024x1024.size (by rfl) y

set_option maxHeartbeats 1000000 in
/-- The body on three whole staging memrefs, the inputs at `x0`, `x1` and the output at anything, runs to a state
    with the inputs as they were and the output at `out3_2 x0 x1`. -/
theorem sound_kernel3 (c : Dev nD) (E : Set ℕ) (i : grid3.Coords)
    (arg1 : Memref sig .tc .vmem S1024x32 .f32) (harg1 : arg1.IsWhole) (arg2 : Memref sig .tc .vmem S1024x32 .f32) (harg2 : arg2.IsWhole)
    (arg3 : Memref sig .tc .vmem S1024x1024 .f32) (harg3 : arg3.IsWhole)
    (x0 : Vec F S1024x32 .f32) (x1 : Vec F S1024x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__decode_kernel i arg1 harg1 arg2 harg2 arg3 harg3) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t` each
    input buffer at its block and the output buffer at `out3_2` of the two blocks; nothing owed.
    Both input windows read the same array, so each holds it at one half of the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => PosShare.left fullShare
    | ⟨1, _⟩ => PosShare.right fullShare
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation3 (c : Dev nD) : BodyObligation (dat3 (F := F) V c) (defs₀ (F := F)) Variants.none () Set.univ := fun t => by
  rw [bigSep_W3, bigSep_W3]
  exact sound_body3 V c t

end Cert.KernelIdeal.Regions

end
-- ==== Proof.KIShared3.lean ====
/-
  Region 3 reads ONE array through both of its input windows: the rows of z at the first grid coordinate through window
  0, the rows of z at the second through window 1. A core holds that array whole, at the full share, beside the output
  array. The pipeline's windows each hold their own array at their own share, so at the region's entry the full share of
  z is dealt in two halves, one per input window, and at its exit the two halves — still at the contents they were dealt
  at, since an input array is never written — are joined back into the full share.
-/
import proofs.«121875_j23536420782575_1_alg».proof.Proof.KIRegion3

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 3's three windows: z, z again, and the output. -/
theorem arrRef3_0 : Pipeline.arrRef spec3 0 = main_v81 := rfl
theorem arrRef3_1 : Pipeline.arrRef spec3 1 = main_v81 := rfl
theorem arrRef3_2 : Pipeline.arrRef spec3 2 = main_v82 := rfl

/-- So the distinct buffers behind them are two. -/
theorem arrImage3 : Finset.univ.image (Pipeline.arrRef spec3) = {main_v81, main_v82} := by decide

/-- The shares the windows hold their arrays at: the two halves for the inputs, all of it for the output. -/
theorem share3_0 (c : Dev nD) : (dat3 V c).share 0 = PosShare.left fullShare := rfl
theorem share3_1 (c : Dev nD) : (dat3 V c).share 1 = PosShare.right fullShare := rfl
theorem share3_2 (c : Dev nD) : (dat3 V c).share 2 = fullShare := rfl

/-- Region 3's windowed arrays at contents `G`, window by window. -/
theorem arrays3_eq (c : Dev nD) (G : (w : Fin cfg3.W) → Buf (Elt F) ((cfg3.win w).arr.view.loc (c : Thread nD τ))) :
    ((dat3 V c).arrays G : sProp 𝕄)
      = iprop((((c : Thread nD τ).loc main_v81) ↦{PosShare.left fullShare} G 0)
          ∗ (((c : Thread nD τ).loc main_v81) ↦{PosShare.right fullShare} G 1)
          ∗ (((c : Thread nD τ).loc main_v82) ↦{fullShare} G 2)) := by
  unfold Dat.arrays
  rw [bigSep_W3, share3_0, share3_1, share3_2]
  simp only [(arr_whole3 0).set_eq_univ, (arr_whole3 1).set_eq_univ, (arr_whole3 2).set_eq_univ]

/-- ENTRY: a core's unscoped buffers at contents `Vc` are region 3's arrays at the proof data's entry contents — z's
    full share dealt in two — and the unscoped rest. -/
theorem arrays3_of_unscopedBufs (c : Dev nD) (Vc : (b : Ref sig .tc) → Buf (Elt F) ((c : Thread nD τ).loc b))
    (hA : ∀ w, (dat3 V c).A w = Vc (Pipeline.arrRef spec3 w)) :
    (unscopedBufs c Vc : sProp 𝕄) ⊢ iprop((dat3 V c).arrays ((dat3 V c).arrAt · 0) ∗ Pipeline.unscopedRest spec3 c Vc) := by
  rw [Pipeline.unscopedBufs_split₀ cfgs 3 winFacts₀3.arr_unscoped c Vc, arrays3_eq]
  refine sep_mono ?_ .rfl
  unfold Pipeline.arrBufs
  rw [show Finset.univ.image (Pipeline.arrRef (cfgs 3).spec) = {main_v81, main_v82} from arrImage3,
    bigSep_insert (by decide), bigSep_singleton,
    show (dat3 V c).arrAt 0 0 = (dat3 V c).A 0 from rfl, show (dat3 V c).arrAt 1 0 = (dat3 V c).A 1 from rfl,
    show (dat3 V c).arrAt 2 0 = (dat3 V c).A 2 from rfl, hA 0, hA 1, hA 2]
  show iprop((((c : Thread nD τ).loc main_v81) ↦{fullShare} Vc main_v81) ∗ (((c : Thread nD τ).loc main_v82) ↦{fullShare} Vc main_v82)) ⊢ _
  iintro ⟨Hz, Ho⟩
  ihave H := (pointsTo_share (PosShare.mem_left_op_right fullShare)).1 $$ Hz
  icases H with ⟨Hl, Hr⟩
  isplitl [Hl]; · iexact Hl
  isplitl [Hr]; · iexact Hr
  iexact Ho

/-- EXIT: region 3's arrays at contents `G` and the unscoped rest at `Vc` are the core's unscoped buffers at any
    valuation `Vc'` that has the arrays at `G` and agrees with `Vc` off them: the two halves of z, at one contents,
    join. -/
theorem unscopedBufs_of_arrays3 (c : Dev nD) (Vc Vc' : (b : Ref sig .tc) → Buf (Elt F) ((c : Thread nD τ).loc b))
    (G : (w : Fin cfg3.W) → Buf (Elt F) ((cfg3.win w).arr.view.loc (c : Thread nD τ)))
    (hG : ∀ w, G w = Vc' (Pipeline.arrRef spec3 w))
    (hrest : ∀ b, b ∉ Finset.univ.image (Pipeline.arrRef spec3) → Vc' b = Vc b) :
    iprop((dat3 V c).arrays G ∗ Pipeline.unscopedRest spec3 c Vc) ⊢ (unscopedBufs c Vc' : sProp 𝕄) := by
  rw [Pipeline.unscopedBufs_split₀ cfgs 3 winFacts₀3.arr_unscoped c Vc', arrays3_eq, hG 0, hG 1, hG 2]
  refine sep_mono ?_ (Entails.of_eq ?_)
  · unfold Pipeline.arrBufs
    rw [show Finset.univ.image (Pipeline.arrRef (cfgs 3).spec) = {main_v81, main_v82} from arrImage3,
      bigSep_insert (by decide), bigSep_singleton]
    show _ ⊢ iprop((((c : Thread nD τ).loc main_v81) ↦{fullShare} Vc' main_v81) ∗ (((c : Thread nD τ).loc main_v82) ↦{fullShare} Vc' main_v82))
    iintro ⟨Hl, Hr, Ho⟩
    isplitl [Hl Hr]
    · iapply (pointsTo_share (PosShare.mem_left_op_right fullShare)).2
      isplitl [Hl]; · iexact Hl
      iexact Hr
    iexact Ho
  · unfold Pipeline.unscopedRest
    exact bigSep_congr fun b hb => by rw [hrest b (Finset.mem_sdiff.mp hb).2]

end Cert.KernelIdeal.Regions

end
-- ==== Proof.KIRun.lean ====
/-
  @main from the launch to the return. @main is thirteen items in a row: stretches of host operations and the five
  kernel regions. Between two items a core holds every unscoped buffer at a known valuation: the launch memory, then
  what each host stretch computes from the valuation before it, then, after a region, the same valuation with the
  region's output array replaced by what the pipeline's write-backs leave there. The run composes the items in order
  and ends with every unscoped buffer at the last valuation `W13` — the arguments among them, untouched by any item, and
  the three results. Stated once, for every float instance.
-/
import proofs.«121875_j23536420782575_1_alg».proof.Proof.KIRegion0
import proofs.«121875_j23536420782575_1_alg».proof.Proof.KIRegion1
import proofs.«121875_j23536420782575_1_alg».proof.Proof.KIRegion2
import proofs.«121875_j23536420782575_1_alg».proof.Proof.KIRegion4
import proofs.«121875_j23536420782575_1_alg».proof.Proof.KIShared3

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = W2 m c (Proc.devRef .tc (Pipeline.arrRef spec0 w)) :=
  (W2_arr m c w).symm
theorem hrest0 (c : Dev nD) : ∀ b, b ∉ Finset.univ.image (Pipeline.arrRef spec0) → W2 m c (Proc.devRef .tc b) = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b

/-- At region 1's exit: its arrays at what the pipeline leaves, every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
theorem hF1 (c : Dev nD) (w : Fin cfg1.W) : (dat1 (V4 m) c).arrAt w cfg1.N = W5 m c (Proc.devRef .tc (Pipeline.arrRef spec1 w)) :=
  (W5_arr m c w).symm
theorem hrest1 (c : Dev nD) : ∀ b, b ∉ Finset.univ.image (Pipeline.arrRef spec1) → W5 m c (Proc.devRef .tc b) = V4 m c b :=
  fun b hb => W5_of_ne m c b fun w e => hb (Finset.mem_image.mpr ⟨w, Finset.mem_univ _, e⟩)

abbrev W6 : Dev nD → Valuation τ sig (Elt F) := fun c => StableHlo.after hostOps2 (W5 m c)
abbrev W7 : Dev nD → Valuation τ sig (Elt F) := fun c => StableHlo.after hostOps2_1 (W6 m c)
abbrev V7 : (c : Dev nD) → (b : Ref sig .tc) → Buf (Elt F) ((c : Thread nD τ).loc b) := fun c b => W7 m c b

/-- At region 2's exit: its arrays at what the pipeline leaves, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem hF2 (c : Dev nD) (w : Fin cfg2.W) : (dat2 (V7 m) c).arrAt w cfg2.N = W8 m c (Proc.devRef .tc (Pipeline.arrRef spec2 w)) :=
  (W8_arr m c w).symm
theorem hrest2 (c : Dev nD) : ∀ b, b ∉ Finset.univ.image (Pipeline.arrRef spec2) → W8 m c (Proc.devRef .tc b) = V7 m c b :=
  fun b hb => W8_of_ne m c b fun w e => hb (Finset.mem_image.mpr ⟨w, Finset.mem_univ _, e⟩)

abbrev W9 : Dev nD → Valuation τ sig (Elt F) := fun c => StableHlo.after hostOps3 (W8 m c)
abbrev W10 : Dev nD → Valuation τ sig (Elt F) := fun c => StableHlo.after hostOps3_1 (W9 m c)
abbrev W11 : Dev nD → Valuation τ sig (Elt F) := fun c => StableHlo.after hostOps3_2 (W10 m c)
abbrev V11 : (c : Dev nD) → (b : Ref sig .tc) → Buf (Elt F) ((c : Thread nD τ).loc b) := fun c b => W11 m c b

/-- At region 3's exit: the output array at what the pipeline leaves, every other buffer — z among them, which the
    region only reads — as entered. -/
def W12 (c : Dev nD) : Valuation τ sig (Elt F) :=
  Function.update (W11 m c) (Proc.devRef .tc main_v82) ((dat3 (V11 m) c).arrAt 2 cfg3.N)
theorem W12_out (c : Dev nD) : W12 m c (Proc.devRef .tc main_v82) = (dat3 (V11 m) c).arrAt 2 cfg3.N := by
  unfold W12; exact Function.update_self _ _ _
theorem W12_of_ne (c : Dev nD) (b : Ref sig .tc) (hb : b ≠ main_v82) : W12 m c (Proc.devRef .tc b) = W11 m c (Proc.devRef .tc b) := by
  unfold W12; exact Function.update_of_ne (StableHlo.devRef_ne_of_ne hb) _ _
abbrev V12 : (c : Dev nD) → (b : Ref sig .tc) → Buf (Elt F) ((c : Thread nD τ).loc b) := fun c b => W12 m c b
/-- Each of region 3's arrays ends at what the pipeline leaves in it: an input array is never written. -/
theorem hF3 (c : Dev nD) (w : Fin cfg3.W) : (dat3 (V11 m) c).arrAt w cfg3.N = V12 m c (Pipeline.arrRef spec3 w) := by
  match w with
  | ⟨0, _⟩ => exact (((dat3 (V11 m) c).arrAt_in 0 rfl _).trans (A_eq3 (V11 m) c 0)).trans (W12_of_ne m c main_v81 (by decide)).symm
  | ⟨1, _⟩ => exact (((dat3 (V11 m) c).arrAt_in 1 rfl _).trans (A_eq3 (V11 m) c 1)).trans (W12_of_ne m c main_v81 (by decide)).symm
  | ⟨2, _⟩ => exact (W12_out m c).symm
theorem hrest3 (c : Dev nD) : ∀ b, b ∉ Finset.univ.image (Pipeline.arrRef spec3) → V12 m c b = V11 m c b :=
  fun b hb => W12_of_ne m c b fun e => hb (Finset.mem_image.mpr ⟨2, Finset.mem_univ _, e.symm⟩)

/-- At region 4's exit: its arrays at what the pipeline leaves, every other buffer as entered. -/
def W13 (c : Dev nD) : Valuation τ sig (Elt F) :=
  Pipeline.withArrays spec4 c (W12 m c) fun w => (dat4 (V12 m) c).arrAt w cfg4.N
theorem W13_arr (c : Dev nD) (w : Fin cfg4.W) :
    W13 m c (Proc.devRef .tc (Pipeline.arrRef spec4 w)) = (dat4 (V12 m) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) := by
  unfold W13; exact Pipeline.withArrays_of_ne spec4 c _ _ b hb
theorem hF4 (c : Dev nD) (w : Fin cfg4.W) : (dat4 (V12 m) c).arrAt w cfg4.N = W13 m c (Proc.devRef .tc (Pipeline.arrRef spec4 w)) :=
  (W13_arr m c w).symm
theorem hrest4 (c : Dev nD) : ∀ b, b ∉ Finset.univ.image (Pipeline.arrRef spec4) → W13 m c (Proc.devRef .tc b) = V12 m c b :=
  fun b hb => W13_of_ne m c b fun w e => hb (Finset.mem_image.mpr ⟨w, Finset.mem_univ _, e⟩)

/-! ## The proof data family and the thread state -/

abbrev admK : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) admK p) c
  | ⟨0, _⟩ => fun c => dat0 (V1 m) c
  | ⟨1, _⟩ => fun c => dat1 (V4 m) c
  | ⟨2, _⟩ => fun c => dat2 (V7 m) c
  | ⟨3, _⟩ => fun c => dat3 (V11 m) c
  | ⟨4, _⟩ => fun c => dat4 (V12 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of @main allocates a buffer. -/
theorem fresh0 : (hostOps0 : List (HloOp τ sig (Elt F))).Forall fun op => op.fresh = ∅ := by simp only [List.Forall]; repeat' constructor
theorem fresh1 : (hostOps1 : List (HloOp τ sig (Elt F))).Forall fun op => op.fresh = ∅ := by simp only [List.Forall]; repeat' constructor
theorem fresh1_1 : (hostOps1_1 : List (HloOp τ sig (Elt F))).Forall fun op => op.fresh = ∅ := by simp only [List.Forall]; repeat' constructor
theorem fresh2 : (hostOps2 : List (HloOp τ sig (Elt F))).Forall fun op => op.fresh = ∅ := by simp only [List.Forall]; repeat' constructor
theorem fresh2_1 : (hostOps2_1 : List (HloOp τ sig (Elt F))).Forall fun op => op.fresh = ∅ := by simp only [List.Forall]; repeat' constructor
theorem fresh3 : (hostOps3 : List (HloOp τ sig (Elt F))).Forall fun op => op.fresh = ∅ := by simp only [List.Forall]; repeat' constructor
theorem fresh3_1 : (hostOps3_1 : List (HloOp τ sig (Elt F))).Forall fun op => op.fresh = ∅ := by simp only [List.Forall]; repeat' constructor
theorem fresh3_2 : (hostOps3_2 : List (HloOp τ sig (Elt F))).Forall fun op => op.fresh = ∅ := by simp only [List.Forall]; repeat' constructor

/-- The last thread state without what the core owes: every unscoped buffer at `W13`, the generator register at some state. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the invariant
    and comes out; nothing is owed; the kernel has no semaphore of its own. -/
def reg0 : Pipeline.RegionSeg (pcfgs (F := F)) admK (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (V1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. Its arrays are
    split out of the unscoped buffers and put back at the exit contents; the generator register goes into the invariant
    and comes out; nothing is owed; the kernel has no semaphore of its own. -/
def reg1 : Pipeline.RegionSeg (pcfgs (F := F)) admK (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) admK (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (V4 m c) (fun b => W5 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are
    split out of the unscoped buffers and put back at the exit contents; the generator register goes into the invariant
    and comes out; nothing is owed; the kernel has no semaphore of its own. -/
def reg2 : Pipeline.RegionSeg (pcfgs (F := F)) admK (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) admK (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m) ((pdats m 2 c).share_full fun _ => rfl)
      (V7 m c) (fun b => W8 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W11`, left at `W12`. Both input windows read
    z, so its full share is dealt in two at entry and joined at exit; otherwise as the other regions. -/
def reg3 : Pipeline.RegionSeg (pcfgs (F := F)) admK (pdats m) () defs₀ 𝒱₀ L lv 3 where
  win := winFacts₀3
  block_pos := block_pos3
  stage_whole := stage_whole3
  K := PEmpty
  osem k := k.elim
  ho := Pipeline.OwnSemFacts.none _
  hbody c := (body_obligation3 (V11 m) c).loose
  hwaits := Pipeline.hwaits_of_owed_zero _ _ _ _ L lv 3 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec3 c (V11 m c)
  hentry c := by
    rw [Pipeline.ownSems0_none]
    have hsplit := arrays3_of_unscopedBufs (V11 m) c (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := unscopedBufs_of_arrays3 (V11 m) c (V11 m c) (V12 m c) ((dat3 (V11 m) c).arrAt · cfg3.N) (hF3 m c) (hrest3 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W12`, left at `W13`. Its arrays are
    split out of the unscoped buffers and put back at the exit contents; the generator register goes into the invariant
    and comes out; nothing is owed; the kernel has no semaphore of its own. -/
def reg4 : Pipeline.RegionSeg (pcfgs (F := F)) admK (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m) c).loose
  hwaits := Pipeline.hwaits_of_owed_zero _ _ _ _ L lv 4 fun _ _ => rfl
  pre c := iprop(StableHlo.held (c : Thread nD τ) (Pipeline.ucRefs τ sig) (W12 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V12 m c)
  hentry c := by
    rw [Pipeline.ownSems0_none]
    have hsplit := Pipeline.arrays_of_unscopedBufs (p := 4) (pcfgs (F := F)) admK (pdats m) launch4.win launch4.arr_whole c
      ((pdats m 4 c).share_full fun _ => rfl) (V12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admK (Ix := Unit) (Name := ℕ) (U := UR sig nD τ) (Lvl := ℕ)
      launch4.win launch4.arr_whole c (pdats m) ((pdats m 4 c).share_full fun _ => rfl)
      (V12 m c) (fun b => W13 m c b) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's thirteen items in order. -/
abbrev segs : List (Pipeline.Seg (pcfgs (F := F)) admK (pdats m) () defs₀ 𝒱₀ L lv) :=
  [ .host (hseg hostOps0 hostOps0_sub fresh0 (W0 m)),
    .region (reg0 m),
    .host (hseg hostOps1 hostOps1_sub fresh1 (W2 m)),
    .host (hseg hostOps1_1 hostOps1_1_sub fresh1_1 (W3 m)),
    .region (reg1 m),
    .host (hseg hostOps2 hostOps2_sub fresh2 (W5 m)),
    .host (hseg hostOps2_1 hostOps2_1_sub fresh2_1 (W6 m)),
    .region (reg2 m),
    .host (hseg hostOps3 hostOps3_sub fresh3 (W8 m)),
    .host (hseg hostOps3_1 hostOps3_1_sub fresh3_1 (W9 m)),
    .host (hseg hostOps3_2 hostOps3_2_sub fresh3_2 (W10 m)),
    .region (reg3 m),
    .region (reg4 m) ]
/-- @main is the run of those items. -/
theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    every final state has each unscoped buffer of each core at `W13`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) admK (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

end Cert.KernelIdeal.Regions

end
-- ==== Proof.KIKeep.lean ====
/-
  What no item of @main writes. A host stretch leaves every buffer it does not write as it was; a region leaves every
  buffer but its output array as it was. An argument is written by no stretch and is no region's output, so at the last
  valuation it still holds its launch contents.
-/
import proofs.«121875_j23536420782575_1_alg».proof.Proof.KIRun
import proofs.«121875_j23536420782575_1_alg».proof.Proof.Gen.KernelIdeal.Regions

set_option maxRecDepth 16384

noncomputable section

namespace Cert.KernelIdeal.Regions

open Cert.KernelIdeal
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Region 0 changes only its output array: any other buffer reads after it as before it — an input array because
    an input is never written, any other buffer because the region does not hold it. -/
theorem W2_keep (c : Dev nD) (r : Ref sig .tc) (hr : r ≠ main_v15) : W2 m c (Proc.devRef .tc r) = W1 m c (Proc.devRef .tc r) := by
  by_cases h0 : Pipeline.arrRef spec0 0 = r
  · subst h0; exact (W2_arr m c 0).trans (((dat0 (V1 m) c).arrAt_in 0 rfl _).trans (A_eq0 (V1 m) c 0))
  by_cases h1 : Pipeline.arrRef spec0 1 = r
  · subst h1; exact (W2_arr m c 1).trans (((dat0 (V1 m) c).arrAt_in 1 rfl _).trans (A_eq0 (V1 m) c 1))
  exact W2_of_ne m c r fun w => by
    match w with
    | ⟨0, _⟩ => exact h0
    | ⟨1, _⟩ => exact h1
    | ⟨2, _⟩ => exact fun e => hr e.symm

/-- Region 1 changes only its output array: any other buffer reads after it as before it — an input array because
    an input is never written, any other buffer because the region does not hold it. -/
theorem W5_keep (c : Dev nD) (r : Ref sig .tc) (hr : r ≠ main_v36) : W5 m c (Proc.devRef .tc r) = W4 m c (Proc.devRef .tc r) := by
  by_cases h0 : Pipeline.arrRef spec1 0 = r
  · subst h0; exact (W5_arr m c 0).trans (((dat1 (V4 m) c).arrAt_in 0 rfl _).trans (A_eq1 (V4 m) c 0))
  by_cases h1 : Pipeline.arrRef spec1 1 = r
  · subst h1; exact (W5_arr m c 1).trans (((dat1 (V4 m) c).arrAt_in 1 rfl _).trans (A_eq1 (V4 m) c 1))
  exact W5_of_ne m c r fun w => by
    match w with
    | ⟨0, _⟩ => exact h0
    | ⟨1, _⟩ => exact h1
    | ⟨2, _⟩ => exact fun e => hr e.symm

/-- Region 2 changes only its output array: any other buffer reads after it as before it — an input array because
    an input is never written, any other buffer because the region does not hold it. -/
theorem W8_keep (c : Dev nD) (r : Ref sig .tc) (hr : r ≠ main_v57) : W8 m c (Proc.devRef .tc r) = W7 m c (Proc.devRef .tc r) := by
  by_cases h0 : Pipeline.arrRef spec2 0 = r
  · subst h0; exact (W8_arr m c 0).trans (((dat2 (V7 m) c).arrAt_in 0 rfl _).trans (A_eq2 (V7 m) c 0))
  by_cases h1 : Pipeline.arrRef spec2 1 = r
  · subst h1; exact (W8_arr m c 1).trans (((dat2 (V7 m) c).arrAt_in 1 rfl _).trans (A_eq2 (V7 m) c 1))
  exact W8_of_ne m c r fun w => by
    match w with
    | ⟨0, _⟩ => exact h0
    | ⟨1, _⟩ => exact h1
    | ⟨2, _⟩ => exact fun e => hr e.symm

/-- Region 4 changes only its output array: any other buffer reads after it as before it — an input array because
    an input is never written, any other buffer because the region does not hold it. -/
theorem W13_keep (c : Dev nD) (r : Ref sig .tc) (hr : r ≠ main_v83) : W13 m c (Proc.devRef .tc r) = W12 m c (Proc.devRef .tc r) := by
  by_cases h0 : Pipeline.arrRef spec4 0 = r
  · subst h0; exact (W13_arr m c 0).trans (((dat4 (V12 m) c).arrAt_in 0 rfl _).trans (A_eq4 (V12 m) c 0))
  by_cases h1 : Pipeline.arrRef spec4 1 = r
  · subst h1; exact (W13_arr m c 1).trans (((dat4 (V12 m) c).arrAt_in 1 rfl _).trans (A_eq4 (V12 m) c 1))
  exact W13_of_ne m c r fun w => by
    match w with
    | ⟨0, _⟩ => exact h0
    | ⟨1, _⟩ => exact h1
    | ⟨2, _⟩ => exact fun e => hr e.symm

/-- A buffer that no host stretch writes and that is no region's output ends as launched. -/
theorem W13_unwritten (c : Dev nD) (r : Ref sig .tc)
    (h0 : r ∉ Gen.hostOps0_W) (h1 : r ∉ Gen.hostOps1_W) (h11 : r ∉ Gen.hostOps1_1_W) (h2 : r ∉ Gen.hostOps2_W) (h21 : r ∉ Gen.hostOps2_1_W)
    (h3 : r ∉ Gen.hostOps3_W) (h31 : r ∉ Gen.hostOps3_1_W) (h32 : r ∉ Gen.hostOps3_2_W)
    (hr : r ∉ ([main_v15, main_v36, main_v57, main_v82, main_v83] : List (Ref sig .tc))) :
    W13 m c (Proc.devRef .tc r) = m ((c : Thread nD τ).loc r) := by
  have e15 : r ≠ main_v15 := fun e => hr (by rw [e]; decide)
  have e36 : r ≠ main_v36 := fun e => hr (by rw [e]; decide)
  have e57 : r ≠ main_v57 := fun e => hr (by rw [e]; decide)
  have e82 : r ≠ main_v82 := fun e => hr (by rw [e]; decide)
  have e83 : r ≠ main_v83 := fun e => hr (by rw [e]; decide)
  calc W13 m c (Proc.devRef .tc r)
    _ = W12 m c (Proc.devRef .tc r) := W13_keep m c r e83
    _ = W11 m c (Proc.devRef .tc r) := W12_of_ne m c r e82
    _ = W10 m c (Proc.devRef .tc r) := StableHlo.after_of_writes_sub Gen.hostOps3_2 _ Gen.hostOps3_2_writes h32
    _ = W9 m c (Proc.devRef .tc r) := StableHlo.after_of_writes_sub Gen.hostOps3_1 _ Gen.hostOps3_1_writes h31
    _ = W8 m c (Proc.devRef .tc r) := StableHlo.after_of_writes_sub Gen.hostOps3 _ Gen.hostOps3_writes h3
    _ = W7 m c (Proc.devRef .tc r) := W8_keep m c r e57
    _ = W6 m c (Proc.devRef .tc r) := StableHlo.after_of_writes_sub Gen.hostOps2_1 _ Gen.hostOps2_1_writes h21
    _ = W5 m c (Proc.devRef .tc r) := StableHlo.after_of_writes_sub Gen.hostOps2 _ Gen.hostOps2_writes h2
    _ = W4 m c (Proc.devRef .tc r) := W5_keep m c r e36
    _ = W3 m c (Proc.devRef .tc r) := StableHlo.after_of_writes_sub Gen.hostOps1_1 _ Gen.hostOps1_1_writes h11
    _ = W2 m c (Proc.devRef .tc r) := StableHlo.after_of_writes_sub Gen.hostOps1 _ Gen.hostOps1_writes h1
    _ = W1 m c (Proc.devRef .tc r) := W2_keep m c r e15
    _ = W0 m c (Proc.devRef .tc r) := StableHlo.after_of_writes_sub Gen.hostOps0 _ Gen.hostOps0_writes h0
    _ = m ((c : Thread nD τ).loc r) := rfl

/-! The eleven arguments. -/
theorem W13_main_arg0 (c : Dev nD) : W13 m c (Proc.devRef .tc main_arg0) = m ((c : Thread nD τ).loc main_arg0) :=
  W13_unwritten m c main_arg0 (by decide) (by decide) (by decide) (by decide) (by decide) (by decide) (by decide) (by decide) (by decide)
theorem W13_main_arg1 (c : Dev nD) : W13 m c (Proc.devRef .tc main_arg1) = m ((c : Thread nD τ).loc main_arg1) :=
  W13_unwritten m c main_arg1 (by decide) (by decide) (by decide) (by decide) (by decide) (by decide) (by decide) (by decide) (by decide)
theorem W13_main_arg2 (c : Dev nD) : W13 m c (Proc.devRef .tc main_arg2) = m ((c : Thread nD τ).loc main_arg2) :=
  W13_unwritten m c main_arg2 (by decide) (by decide) (by decide) (by decide) (by decide) (by decide) (by decide) (by decide) (by decide)
theorem W13_main_arg3 (c : Dev nD) : W13 m c (Proc.devRef .tc main_arg3) = m ((c : Thread nD τ).loc main_arg3) :=
  W13_unwritten m c main_arg3 (by decide) (by decide) (by decide) (by decide) (by decide) (by decide) (by decide) (by decide) (by decide)
theorem W13_main_arg4 (c : Dev nD) : W13 m c (Proc.devRef .tc main_arg4) = m ((c : Thread nD τ).loc main_arg4) :=
  W13_unwritten m c main_arg4 (by decide) (by decide) (by decide) (by decide) (by decide) (by decide) (by decide) (by decide) (by decide)
theorem W13_main_arg5 (c : Dev nD) : W13 m c (Proc.devRef .tc main_arg5) = m ((c : Thread nD τ).loc main_arg5) :=
  W13_unwritten m c main_arg5 (by decide) (by decide) (by decide) (by decide) (by decide) (by decide) (by decide) (by decide) (by decide)
theorem W13_main_arg6 (c : Dev nD) : W13 m c (Proc.devRef .tc main_arg6) = m ((c : Thread nD τ).loc main_arg6) :=
  W13_unwritten m c main_arg6 (by decide) (by decide) (by decide) (by decide) (by decide) (by decide) (by decide) (by decide) (by decide)
theorem W13_main_arg7 (c : Dev nD) : W13 m c (Proc.devRef .tc main_arg7) = m ((c : Thread nD τ).loc main_arg7) :=
  W13_unwritten m c main_arg7 (by decide) (by decide) (by decide) (by decide) (by decide) (by decide) (by decide) (by decide) (by decide)
theorem W13_main_arg8 (c : Dev nD) : W13 m c (Proc.devRef .tc main_arg8) = m ((c : Thread nD τ).loc main_arg8) :=
  W13_unwritten m c main_arg8 (by decide) (by decide) (by decide) (by decide) (by decide) (by decide) (by decide) (by decide) (by decide)
theorem W13_main_arg9 (c : Dev nD) : W13 m c (Proc.devRef .tc main_arg9) = m ((c : Thread nD τ).loc main_arg9) :=
  W13_unwritten m c main_arg9 (by decide) (by decide) (by decide) (by decide) (by decide) (by decide) (by decide) (by decide) (by decide)
theorem W13_main_arg10 (c : Dev nD) : W13 m c (Proc.devRef .tc main_arg10) = m ((c : Thread nD τ).loc main_arg10) :=
  W13_unwritten m c main_arg10 (by decide) (by decide) (by decide) (by decide) (by decide) (by decide) (by decide) (by decide) (by decide)

end Cert.KernelIdeal.Regions

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«121875_j23536420782575_1_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«121875_j23536420782575_1_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«121875_j23536420782575_1_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.LibProductRows.lean ====
/-
  Matrix products and linear layers on a block of rows, as whole-array functions on the extended reals.

  * A matrix unit's product of two operands narrowed to a shorter float format, accumulated into zero, is the plain
    product `mm` of the operands: narrowing is the identity on extended reals.
  * An entry of a product depends on one row of the left operand and one column of the right: a block of rows of a
    taller array computes the entries of the whole array's product at those rows (`mm_block`), and the same for a
    product plus a 1 x N bias row (`lin_block`).
  * The host's product plus a bias broadcast in two steps is the linear layer `lin`, and a linear layer is the product
    with the row added.
-/
import Idealize.ShloMosaic.Lib.ValueIdx
import Idealize.ShloMosaic.Lib.Pipeline.Value
import Idealize.ShloMosaic.PureOps.Ideal.Laws
import proofs.«121875_j23536420782575_1_alg».proof.Proof.LibRowLayers

noncomputable section

open scoped BigOperators

namespace Cert.Lib.ProductRows

open Idealize.ShloMosaic Idealize.ShloMosaic.ValueIdx Cert.Lib.BiasDot Cert.Lib.Dense Cert.Lib.RowLayers

variable {m M K N : Nat}

/-- The product into zero of two narrowed operands is the plain product of the operands. -/
theorem narrowMatmul_eq_mm (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32)
    (hb0 hb1 : FTy.bf16.bits < FTy.f32.bits) :
    FloatOps.matmul d none (truncf .bf16 x0 hb0) (truncf .bf16 x1 hb1) (constant ⟨2, ![M, N]⟩ .f32 0x00000000#32)
      = mm x0 x1 := by
  subst hd
  funext i
  obtain ⟨p, q, rfl⟩ : ∃ (p : Fin M) (q : Fin N), i = ix2 p q := ⟨i 0, i 1, eq_ix2 i⟩
  rw [Cert.Lib.PlainDot.matmul_zero_apply]
  rfl

/-- A block of rows of a product: entry `j` of the block's product is entry `i` of the array's when the block's row
    `j 0` is the array's row `i 0` and the right operands agree on the column. -/
theorem mm_block (x0 : (⟨2, ![m, K]⟩ : Shape).Idx → EReal) (x1 : (⟨2, ![K, N]⟩ : Shape).Idx → EReal)
    (A : (⟨2, ![M, K]⟩ : Shape).Idx → EReal) (W : (⟨2, ![K, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1))) :
    mm x0 x1 j = mm A W i :=
  Finset.sum_congr rfl fun k _ => by rw [h0 k, h1 k]

/-- The same for a product plus a 1 x N bias row. -/
theorem lin_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    lin x0 x1 (rowVec x2) j = lin A W (rowVec R) i := by
  show (∑ k : Fin K, x0 (ix2 (j 0) k) * x1 (ix2 k (j 1))) + x2 (ix2 (0 : Fin 1) (j 1))
    = (∑ k : Fin K, A (ix2 (i 0) k) * W (ix2 k (i 1))) + R (ix2 (0 : Fin 1) (i 1))
  rw [h2]
  exact congrArg (fun z => z + R (ix2 (0 : Fin 1) (i 1))) (Finset.sum_congr rfl fun k _ => by rw [h0 k, h1 k])

/-- The host's product plus a bias vector broadcast to a row and then down the rows is the linear layer. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  rw [host_addRow, host_mm d hd]
  rfl

end Cert.Lib.ProductRows

end
-- ==== Proof.KIValue0.lean ====
/-
  Region 0 of @main as one function of the two arrays it finds.

  The region runs over eight row blocks. At each it computes, from 1024 rows of the 8192 x 256 operand and the whole
  256 x 256 weight, the product of the two narrowed to a shorter float format and accumulated into zero, and writes it
  over the same 1024 rows of the result array. On the extended reals narrowing is the identity, so the block is the
  plain product of those rows with the weight; an entry of a product needs one row of the left operand and one column
  of the right, so the block is the whole arrays' product read at those rows; and the eight blocks cover the result
  (row r lies in block r / 1024). Hence the result array ends as the product of the two arrays.
-/
import proofs.«121875_j23536420782575_1_alg».proof.Proof.KIRegion0
import proofs.«121875_j23536420782575_1_alg».proof.Proof.LibProductRows
import Idealize.ShloMosaic.Lib.Pipeline.Value

set_option maxRecDepth 16384

noncomputable section

open scoped BigOperators

namespace Cert.KernelIdeal.RegionValue

open Cert.KernelIdeal Cert.KernelIdeal.Gen Cert.KernelIdeal.Regions
open Idealize.ShloMosaic Idealize.ShloMosaic.TcCoe Idealize.ShloMosaic.ValueIdx Idealize.SL.Sem
open Idealize.ShloMosaic.Pipeline (Dat)
open Cert.Lib.Dense Cert.Lib.ProductRows

variable (V : (c : Dev nD) → (b : Ref sig .tc) → Buf (Elt Ideal) ((c : Thread nD τ).loc b))

/-- The zero offsets of a whole-block rectangle, as a constant function. -/
theorem zeros0 : (![0, 0] : Fin 2 → Nat) = fun _ => 0 := funext fun a => by fin_cases a <;> rfl

/-- The body's payload is the plain product of its two loaded blocks. -/
theorem pay0_eq (x0 : Vec Ideal S1024x256 .f32) (x1 : Vec Ideal S256x256 .f32) :
    k0_pay1 x0 x1 = mm (M := 1024) (K := 256) (N := 256) x0 x1 := by
  unfold k0_pay1
  exact narrowMatmul_eq_mm dot_S1024x256_S256x256_S1024x256_1_0_0_1_n_n rfl x0 x1 _ _

/-- What the body leaves in the output block: loads and the store are whole-block, so it is that product. -/
theorem out0_eq (x0 : Vec Ideal S1024x256 .f32) (x1 : Vec Ideal S256x256 .f32) :
    out0_2 x0 x1 = mm (M := 1024) (K := 256) (N := 256) x0 x1 := by
  unfold out0_2
  rw [View.canon_unit_zero zeros0]
  simp only [View.ld_unit_zero (S := S1024x256) zeros0, View.ld_unit_zero (S := S256x256) zeros0]
  exact pay0_eq x0 x1

/-- An entry of the output block is the entry of the whole arrays' product at the same row and column, when the
    block's rows are the array's and the weights agree. -/
theorem point0 (x0 : Vec Ideal S1024x256 .f32) (x1 : Vec Ideal S256x256 .f32)
    (A : S8192x256.Idx → EReal) (W : S256x256.Idx → EReal) (j : S1024x256.Idx) (i : S8192x256.Idx)
    (h0 : ∀ k : Fin 256, x0 (ix2 (j 0) k) = A (ix2 (i 0) k))
    (h1 : ∀ k : Fin 256, x1 (ix2 k (j 1)) = W (ix2 k (i 1))) :
    out0_2 x0 x1 j = mm (M := 8192) (K := 256) (N := 256) A W i := by
  rw [out0_eq]
  exact mm_block x0 x1 A W j i h0 h1

/-- The block indices over the grid: the operand's and the result's row block is the point, every other index is 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The operand's block at point `t` is rows `1024 t … 1024 t + 1023` of the operand. -/
theorem iblk0_0_apply (c : Dev nD) (t : Fin cfg0.N) (y : S1024x256.Idx) (i : S8192x256.Idx)
    (h0 : (i 0).val = t.val * 1024 + (y 0).val) (h1 : (i 1).val = (y 1).val) :
    (iblk0 V c 0 t : Vec Ideal S1024x256 .f32) y = (V c main_arg0 : S8192x256.Idx → EReal) i := by
  obtain ⟨e0, e1, -⟩ := idx_facts0 t
  unfold iblk0
  rw [View.read_apply]
  show V c main_arg0 _ = V c main_arg0 i
  congr 1
  funext a
  apply Fin.ext
  match a with
  | ⟨0, _⟩ => show win0_0.index t 0 * 1024 + 1 * (y 0).val = (i 0).val; rw [e0, h0]; omega
  | ⟨1, _⟩ => show win0_0.index t 1 * 256 + 1 * (y 1).val = (i 1).val; rw [e1, h1]; omega

/-- The weight's block at every point is the whole weight. -/
theorem iblk0_1_apply (c : Dev nD) (t : Fin cfg0.N) (y : S256x256.Idx) (i : S256x256.Idx)
    (h0 : (i 0).val = (y 0).val) (h1 : (i 1).val = (y 1).val) :
    (iblk0 V c 1 t : Vec Ideal S256x256 .f32) y = (V c main_arg4 : S256x256.Idx → EReal) i := by
  obtain ⟨-, -, e2, e3, -⟩ := idx_facts0 t
  unfold iblk0
  rw [View.read_apply]
  show V c main_arg4 _ = V c main_arg4 i
  congr 1
  funext a
  apply Fin.ext
  match a with
  | ⟨0, _⟩ => show win0_1.index t 0 * 256 + 1 * (y 0).val = (i 0).val; rw [e2, h0]; omega
  | ⟨1, _⟩ => show win0_1.index t 1 * 256 + 1 * (y 1).val = (i 1).val; rw [e3, h1]; omega

/-- What point `t` writes back is block `t` of the product of the two arrays. -/
theorem flushed0_eq (c : Dev nD) (t : Fin cfg0.N) :
    (dat0 (F := Ideal) V c).flushed 2 t
      = ((cfg0.win 2).blk t).view.read (Elt Ideal)
          (mm (M := 8192) (K := 256) (N := 256) (V c main_arg0) (V c main_arg4)) := by
  show (cfg0.win 2).cut (grid0.coords t) ((dat0 V c).after 2 t) = _
  rw [after0_2]
  obtain ⟨-, -, -, -, e4, e5⟩ := idx_facts0 t
  funext j
  rw [View.read_apply]
  refine point0 _ _ _ _ _ _ (fun k => ?_) (fun k => ?_)
  · refine iblk0_0_apply V c t _ _ ?_ ?_
    · show win0_2.index t 0 * 1024 + 1 * (j 0).val = t.val * 1024 + (j 0).val
      rw [e4]; omega
    · rfl
  · refine iblk0_1_apply V c t _ _ ?_ ?_
    · rfl
    · show win0_2.index t 1 * 256 + 1 * (j 1).val = (j 1).val
      rw [e5]; omega

/-- An index of the result array is in point `t`'s block iff each coordinate is in the block's range on its axis. -/
theorem mem_blk0 (t : Fin cfg0.N) (i : S8192x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v15).slice (win0_2.rect t)).set ↔ _
  rw [View.set_slice_whole, Rect.mem_set_unit]
  exact Iff.rfl

/-- Every index of the result array is in some point's block: row `r` in that of point `r / 1024`. -/
theorem cover0 (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  have hN : grid0.N = 8 := N_0
  have ht : (i 0).val / 1024 < grid0.N := by rw [hN]; omega
  obtain ⟨-, -, -, -, e4, e5⟩ := idx_facts0 ⟨(i 0).val / 1024, ht⟩
  refine ⟨⟨(i 0).val / 1024, ht⟩, flush0_2 _, ?_⟩
  rw [mem_blk0]
  intro a
  match a with
  | ⟨0, _⟩ =>
    show win0_2.index ⟨(i 0).val / 1024, ht⟩ 0 * 1024 ≤ (i 0).val
      ∧ (i 0).val < win0_2.index ⟨(i 0).val / 1024, ht⟩ 0 * 1024 + 1024
    rw [e4]; show (i 0).val / 1024 * 1024 ≤ (i 0).val ∧ (i 0).val < (i 0).val / 1024 * 1024 + 1024; omega
  | ⟨1, _⟩ =>
    show win0_2.index ⟨(i 0).val / 1024, ht⟩ 1 * 256 ≤ (i 1).val
      ∧ (i 1).val < win0_2.index ⟨(i 0).val / 1024, ht⟩ 1 * 256 + 256
    rw [e5]; omega

/-- The result array after the region: the product of the two arrays the region finds. -/
theorem final0 (c : Dev nD) :
    (dat0 (F := Ideal) V c).arrAt 2 cfg0.N
      = mm (M := 8192) (K := 256) (N := 256) (V c main_arg0) (V c main_arg4) :=
  (dat0 (F := Ideal) V c).arrAt_eq_of_cover 2 _ (fun t _ => flushed0_eq V c t) cover0

end Cert.KernelIdeal.RegionValue

end
-- ==== Proof.KIValue1.lean ====
/-
  Region 1 of @main as one function of the two arrays it finds.

  The region runs over eight row blocks. At each it computes, from 1024 rows of the 8192 x 256 operand and the whole
  256 x 256 weight, the product of the two narrowed to a shorter float format and accumulated into zero, and writes it
  over the same 1024 rows of the result array. On the extended reals narrowing is the identity, so the block is the
  plain product of those rows with the weight; an entry of a product needs one row of the left operand and one column
  of the right, so the block is the whole arrays' product read at those rows; and the eight blocks cover the result
  (row r lies in block r / 1024). Hence the result array ends as the product of the two arrays.
-/
import proofs.«121875_j23536420782575_1_alg».proof.Proof.KIRegion1
import proofs.«121875_j23536420782575_1_alg».proof.Proof.LibProductRows
import Idealize.ShloMosaic.Lib.Pipeline.Value

set_option maxRecDepth 16384

noncomputable section

open scoped BigOperators

namespace Cert.KernelIdeal.RegionValue

open Cert.KernelIdeal Cert.KernelIdeal.Gen Cert.KernelIdeal.Regions
open Idealize.ShloMosaic Idealize.ShloMosaic.TcCoe Idealize.ShloMosaic.ValueIdx Idealize.SL.Sem
open Idealize.ShloMosaic.Pipeline (Dat)
open Cert.Lib.Dense Cert.Lib.ProductRows

variable (V : (c : Dev nD) → (b : Ref sig .tc) → Buf (Elt Ideal) ((c : Thread nD τ).loc b))

/-- The zero offsets of a whole-block rectangle, as a constant function. -/
theorem zeros1 : (![0, 0] : Fin 2 → Nat) = fun _ => 0 := funext fun a => by fin_cases a <;> rfl

/-- The body's payload is the plain product of its two loaded blocks (the cast of the first block to its own shape is the identity). -/
theorem pay1_eq (x0 : Vec Ideal S1024x256 .f32) (x1 : Vec Ideal S256x256 .f32) :
    k1_pay1 x0 x1 = mm (M := 1024) (K := 256) (N := 256) x0 x1 := by
  unfold k1_pay1
  rw [shapeCast_self]
  exact narrowMatmul_eq_mm dot_S1024x256_S256x256_S1024x256_1_0_0_1_n_n rfl x0 x1 _ _

/-- What the body leaves in the output block: loads and the store are whole-block, so it is that product. -/
theorem out1_eq (x0 : Vec Ideal S1024x256 .f32) (x1 : Vec Ideal S256x256 .f32) :
    out1_2 x0 x1 = mm (M := 1024) (K := 256) (N := 256) x0 x1 := by
  unfold out1_2
  rw [View.canon_unit_zero zeros1]
  simp only [View.ld_unit_zero (S := S1024x256) zeros1, View.ld_unit_zero (S := S256x256) zeros1]
  exact pay1_eq x0 x1

/-- An entry of the output block is the entry of the whole arrays' product at the same row and column, when the
    block's rows are the array's and the weights agree. -/
theorem point1 (x0 : Vec Ideal S1024x256 .f32) (x1 : Vec Ideal S256x256 .f32)
    (A : S8192x256.Idx → EReal) (W : S256x256.Idx → EReal) (j : S1024x256.Idx) (i : S8192x256.Idx)
    (h0 : ∀ k : Fin 256, x0 (ix2 (j 0) k) = A (ix2 (i 0) k))
    (h1 : ∀ k : Fin 256, x1 (ix2 k (j 1)) = W (ix2 k (i 1))) :
    out1_2 x0 x1 j = mm (M := 8192) (K := 256) (N := 256) A W i := by
  rw [out1_eq]
  exact mm_block x0 x1 A W j i h0 h1

/-- The block indices over the grid: the operand's and the result's row block is the point, every other index is 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The operand's block at point `t` is rows `1024 t … 1024 t + 1023` of the operand. -/
theorem iblk1_0_apply (c : Dev nD) (t : Fin cfg1.N) (y : S1024x256.Idx) (i : S8192x256.Idx)
    (h0 : (i 0).val = t.val * 1024 + (y 0).val) (h1 : (i 1).val = (y 1).val) :
    (iblk1 V c 0 t : Vec Ideal S1024x256 .f32) y = (V c main_v35 : S8192x256.Idx → EReal) i := by
  obtain ⟨e0, e1, -⟩ := idx_facts1 t
  unfold iblk1
  rw [View.read_apply]
  show V c main_v35 _ = V c main_v35 i
  congr 1
  funext a
  apply Fin.ext
  match a with
  | ⟨0, _⟩ => show win1_0.index t 0 * 1024 + 1 * (y 0).val = (i 0).val; rw [e0, h0]; omega
  | ⟨1, _⟩ => show win1_0.index t 1 * 256 + 1 * (y 1).val = (i 1).val; rw [e1, h1]; omega

/-- The weight's block at every point is the whole weight. -/
theorem iblk1_1_apply (c : Dev nD) (t : Fin cfg1.N) (y : S256x256.Idx) (i : S256x256.Idx)
    (h0 : (i 0).val = (y 0).val) (h1 : (i 1).val = (y 1).val) :
    (iblk1 V c 1 t : Vec Ideal S256x256 .f32) y = (V c main_arg6 : S256x256.Idx → EReal) i := by
  obtain ⟨-, -, e2, e3, -⟩ := idx_facts1 t
  unfold iblk1
  rw [View.read_apply]
  show V c main_arg6 _ = V c main_arg6 i
  congr 1
  funext a
  apply Fin.ext
  match a with
  | ⟨0, _⟩ => show win1_1.index t 0 * 256 + 1 * (y 0).val = (i 0).val; rw [e2, h0]; omega
  | ⟨1, _⟩ => show win1_1.index t 1 * 256 + 1 * (y 1).val = (i 1).val; rw [e3, h1]; omega

/-- What point `t` writes back is block `t` of the product of the two arrays. -/
theorem flushed1_eq (c : Dev nD) (t : Fin cfg1.N) :
    (dat1 (F := Ideal) V c).flushed 2 t
      = ((cfg1.win 2).blk t).view.read (Elt Ideal)
          (mm (M := 8192) (K := 256) (N := 256) (V c main_v35) (V c main_arg6)) := by
  show (cfg1.win 2).cut (grid1.coords t) ((dat1 V c).after 2 t) = _
  rw [after1_2]
  obtain ⟨-, -, -, -, e4, e5⟩ := idx_facts1 t
  funext j
  rw [View.read_apply]
  refine point1 _ _ _ _ _ _ (fun k => ?_) (fun k => ?_)
  · refine iblk1_0_apply V c t _ _ ?_ ?_
    · show win1_2.index t 0 * 1024 + 1 * (j 0).val = t.val * 1024 + (j 0).val
      rw [e4]; omega
    · rfl
  · refine iblk1_1_apply V c t _ _ ?_ ?_
    · rfl
    · show win1_2.index t 1 * 256 + 1 * (j 1).val = (j 1).val
      rw [e5]; omega

/-- An index of the result array is in point `t`'s block iff each coordinate is in the block's range on its axis. -/
theorem mem_blk1 (t : Fin cfg1.N) (i : S8192x256.Idx) :
    i ∈ ((cfg1.win 2).blk t).view.set ↔ ∀ a : Fin 2, win1_2.index t a * S1024x256.size a ≤ (i a).val
      ∧ (i a).val < win1_2.index t a * S1024x256.size a + S1024x256.size a := by
  show i ∈ ((View.whole main_v36).slice (win1_2.rect t)).set ↔ _
  rw [View.set_slice_whole, Rect.mem_set_unit]
  exact Iff.rfl

/-- Every index of the result array is in some point's block: row `r` in that of point `r / 1024`. -/
theorem cover1 (i : S8192x256.Idx) :
    ∃ t : Fin cfg1.N, (cfg1.win 2).flush t = true ∧ i ∈ ((cfg1.win 2).blk t).view.set := by
  have hi0 : (i 0).val < 8192 := (i 0).isLt
  have hi1 : (i 1).val < 256 := (i 1).isLt
  have hN : grid1.N = 8 := N_1
  have ht : (i 0).val / 1024 < grid1.N := by rw [hN]; omega
  obtain ⟨-, -, -, -, e4, e5⟩ := idx_facts1 ⟨(i 0).val / 1024, ht⟩
  refine ⟨⟨(i 0).val / 1024, ht⟩, flush1_2 _, ?_⟩
  rw [mem_blk1]
  intro a
  match a with
  | ⟨0, _⟩ =>
    show win1_2.index ⟨(i 0).val / 1024, ht⟩ 0 * 1024 ≤ (i 0).val
      ∧ (i 0).val < win1_2.index ⟨(i 0).val / 1024, ht⟩ 0 * 1024 + 1024
    rw [e4]; show (i 0).val / 1024 * 1024 ≤ (i 0).val ∧ (i 0).val < (i 0).val / 1024 * 1024 + 1024; omega
  | ⟨1, _⟩ =>
    show win1_2.index ⟨(i 0).val / 1024, ht⟩ 1 * 256 ≤ (i 1).val
      ∧ (i 1).val < win1_2.index ⟨(i 0).val / 1024, ht⟩ 1 * 256 + 256
    rw [e5]; omega

/-- The result array after the region: the product of the two arrays the region finds. -/
theorem final1 (c : Dev nD) :
    (dat1 (F := Ideal) V c).arrAt 2 cfg1.N
      = mm (M := 8192) (K := 256) (N := 256) (V c main_v35) (V c main_arg6) :=
  (dat1 (F := Ideal) V c).arrAt_eq_of_cover 2 _ (fun t _ => flushed1_eq V c t) cover1

end Cert.KernelIdeal.RegionValue

end
-- ==== Proof.KIValue2.lean ====
/-
  Region 2 of @main as one function of the two arrays it finds.

  The region runs over eight row blocks. At each it computes, from 1024 rows of the 8192 x 256 operand and the whole
  256 x 32 weight, the product of the two narrowed to a shorter float format and accumulated into zero, and writes it
  over the same 1024 rows of the result array. On the extended reals narrowing is the identity, so the block is the
  plain product of those rows with the weight; an entry of a product needs one row of the left operand and one column
  of the right, so the block is the whole arrays' product read at those rows; and the eight blocks cover the result
  (row r lies in block r / 1024). Hence the result array ends as the product of the two arrays.
-/
import proofs.«121875_j23536420782575_1_alg».proof.Proof.KIRegion2
import proofs.«121875_j23536420782575_1_alg».proof.Proof.LibProductRows
import Idealize.ShloMosaic.Lib.Pipeline.Value

set_option maxRecDepth 16384

noncomputable section

open scoped BigOperators

namespace Cert.KernelIdeal.RegionValue

open Cert.KernelIdeal Cert.KernelIdeal.Gen Cert.KernelIdeal.Regions
open Idealize.ShloMosaic Idealize.ShloMosaic.TcCoe Idealize.ShloMosaic.ValueIdx Idealize.SL.Sem
open Idealize.ShloMosaic.Pipeline (Dat)
open Cert.Lib.Dense Cert.Lib.ProductRows

variable (V : (c : Dev nD) → (b : Ref sig .tc) → Buf (Elt Ideal) ((c : Thread nD τ).loc b))

/-- The zero offsets of a whole-block rectangle, as a constant function. -/
theorem zeros2 : (![0, 0] : Fin 2 → Nat) = fun _ => 0 := funext fun a => by fin_cases a <;> rfl

/-- The body's payload is the plain product of its two loaded blocks (the cast of the first block to its own shape is the identity). -/
theorem pay2_eq (x0 : Vec Ideal S1024x256 .f32) (x1 : Vec Ideal S256x32 .f32) :
    k2_pay1 x0 x1 = mm (M := 1024) (K := 256) (N := 32) x0 x1 := by
  unfold k2_pay1
  rw [shapeCast_self]
  exact narrowMatmul_eq_mm dot_S1024x256_S256x32_S1024x32_1_0_0_1_n_n rfl x0 x1 _ _

/-- What the body leaves in the output block: loads and the store are whole-block, so it is that product. -/
theorem out2_eq (x0 : Vec Ideal S1024x256 .f32) (x1 : Vec Ideal S256x32 .f32) :
    out2_2 x0 x1 = mm (M := 1024) (K := 256) (N := 32) x0 x1 := by
  unfold out2_2
  rw [View.canon_unit_zero zeros2]
  simp only [View.ld_unit_zero (S := S1024x256) zeros2, View.ld_unit_zero (S := S256x32) zeros2]
  exact pay2_eq x0 x1

/-- An entry of the output block is the entry of the whole arrays' product at the same row and column, when the
    block's rows are the array's and the weights agree. -/
theorem point2 (x0 : Vec Ideal S1024x256 .f32) (x1 : Vec Ideal S256x32 .f32)
    (A : S8192x256.Idx → EReal) (W : S256x32.Idx → EReal) (j : S1024x32.Idx) (i : S8192x32.Idx)
    (h0 : ∀ k : Fin 256, x0 (ix2 (j 0) k) = A (ix2 (i 0) k))
    (h1 : ∀ k : Fin 256, x1 (ix2 k (j 1)) = W (ix2 k (i 1))) :
    out2_2 x0 x1 j = mm (M := 8192) (K := 256) (N := 32) A W i := by
  rw [out2_eq]
  exact mm_block x0 x1 A W j i h0 h1

/-- The block indices over the grid: the operand's and the result's row block is the point, every other index is 0. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The operand's block at point `t` is rows `1024 t … 1024 t + 1023` of the operand. -/
theorem iblk2_0_apply (c : Dev nD) (t : Fin cfg2.N) (y : S1024x256.Idx) (i : S8192x256.Idx)
    (h0 : (i 0).val = t.val * 1024 + (y 0).val) (h1 : (i 1).val = (y 1).val) :
    (iblk2 V c 0 t : Vec Ideal S1024x256 .f32) y = (V c main_v35 : S8192x256.Idx → EReal) i := by
  obtain ⟨e0, e1, -⟩ := idx_facts2 t
  unfold iblk2
  rw [View.read_apply]
  show V c main_v35 _ = V c main_v35 i
  congr 1
  funext a
  apply Fin.ext
  match a with
  | ⟨0, _⟩ => show win2_0.index t 0 * 1024 + 1 * (y 0).val = (i 0).val; rw [e0, h0]; omega
  | ⟨1, _⟩ => show win2_0.index t 1 * 256 + 1 * (y 1).val = (i 1).val; rw [e1, h1]; omega

/-- The weight's block at every point is the whole weight. -/
theorem iblk2_1_apply (c : Dev nD) (t : Fin cfg2.N) (y : S256x32.Idx) (i : S256x32.Idx)
    (h0 : (i 0).val = (y 0).val) (h1 : (i 1).val = (y 1).val) :
    (iblk2 V c 1 t : Vec Ideal S256x32 .f32) y = (V c main_arg8 : S256x32.Idx → EReal) i := by
  obtain ⟨-, -, e2, e3, -⟩ := idx_facts2 t
  unfold iblk2
  rw [View.read_apply]
  show V c main_arg8 _ = V c main_arg8 i
  congr 1
  funext a
  apply Fin.ext
  match a with
  | ⟨0, _⟩ => show win2_1.index t 0 * 256 + 1 * (y 0).val = (i 0).val; rw [e2, h0]; omega
  | ⟨1, _⟩ => show win2_1.index t 1 * 32 + 1 * (y 1).val = (i 1).val; rw [e3, h1]; omega

/-- What point `t` writes back is block `t` of the product of the two arrays. -/
theorem flushed2_eq (c : Dev nD) (t : Fin cfg2.N) :
    (dat2 (F := Ideal) V c).flushed 2 t
      = ((cfg2.win 2).blk t).view.read (Elt Ideal)
          (mm (M := 8192) (K := 256) (N := 32) (V c main_v35) (V c main_arg8)) := by
  show (cfg2.win 2).cut (grid2.coords t) ((dat2 V c).after 2 t) = _
  rw [after2_2]
  obtain ⟨-, -, -, -, e4, e5⟩ := idx_facts2 t
  funext j
  rw [View.read_apply]
  refine point2 _ _ _ _ _ _ (fun k => ?_) (fun k => ?_)
  · refine iblk2_0_apply V c t _ _ ?_ ?_
    · show win2_2.index t 0 * 1024 + 1 * (j 0).val = t.val * 1024 + (j 0).val
      rw [e4]; omega
    · rfl
  · refine iblk2_1_apply V c t _ _ ?_ ?_
    · rfl
    · show win2_2.index t 1 * 32 + 1 * (j 1).val = (j 1).val
      rw [e5]; omega

/-- An index of the result array is in point `t`'s block iff each coordinate is in the block's range on its axis. -/
theorem mem_blk2 (t : Fin cfg2.N) (i : S8192x32.Idx) :
    i ∈ ((cfg2.win 2).blk t).view.set ↔ ∀ a : Fin 2, win2_2.index t a * S1024x32.size a ≤ (i a).val
      ∧ (i a).val < win2_2.index t a * S1024x32.size a + S1024x32.size a := by
  show i ∈ ((View.whole main_v57).slice (win2_2.rect t)).set ↔ _
  rw [View.set_slice_whole, Rect.mem_set_unit]
  exact Iff.rfl

/-- Every index of the result array is in some point's block: row `r` in that of point `r / 1024`. -/
theorem cover2 (i : S8192x32.Idx) :
    ∃ t : Fin cfg2.N, (cfg2.win 2).flush t = true ∧ i ∈ ((cfg2.win 2).blk t).view.set := by
  have hi0 : (i 0).val < 8192 := (i 0).isLt
  have hi1 : (i 1).val < 32 := (i 1).isLt
  have hN : grid2.N = 8 := N_2
  have ht : (i 0).val / 1024 < grid2.N := by rw [hN]; omega
  obtain ⟨-, -, -, -, e4, e5⟩ := idx_facts2 ⟨(i 0).val / 1024, ht⟩
  refine ⟨⟨(i 0).val / 1024, ht⟩, flush2_2 _, ?_⟩
  rw [mem_blk2]
  intro a
  match a with
  | ⟨0, _⟩ =>
    show win2_2.index ⟨(i 0).val / 1024, ht⟩ 0 * 1024 ≤ (i 0).val
      ∧ (i 0).val < win2_2.index ⟨(i 0).val / 1024, ht⟩ 0 * 1024 + 1024
    rw [e4]; show (i 0).val / 1024 * 1024 ≤ (i 0).val ∧ (i 0).val < (i 0).val / 1024 * 1024 + 1024; omega
  | ⟨1, _⟩ =>
    show win2_2.index ⟨(i 0).val / 1024, ht⟩ 1 * 32 ≤ (i 1).val
      ∧ (i 1).val < win2_2.index ⟨(i 0).val / 1024, ht⟩ 1 * 32 + 32
    rw [e5]; omega

/-- The result array after the region: the product of the two arrays the region finds. -/
theorem final2 (c : Dev nD) :
    (dat2 (F := Ideal) V c).arrAt 2 cfg2.N
      = mm (M := 8192) (K := 256) (N := 32) (V c main_v35) (V c main_arg8) :=
  (dat2 (F := Ideal) V c).arrAt_eq_of_cover 2 _ (fun t _ => flushed2_eq V c t) cover2

end Cert.KernelIdeal.RegionValue

end
-- ==== Proof.KITwin.lean ====
/-
  The kernel's program against a host-only program. At the ideal values each dense region leaves in its output array the
  product of the two arrays it read, which is what ONE host operation — a `dot_general` of those two buffers into the
  output buffer — would leave, every other buffer untouched. So up to the decoder the buffers hold what a line of host
  operations alone computes from the launch memory: the program's own stretches with each region replaced by that one
  operation. The decoder's output is then one function of z, and the last region's one more product.
-/
import proofs.«121875_j23536420782575_1_alg».proof.Proof.KIKeep
import proofs.«121875_j23536420782575_1_alg».proof.Proof.KIValue0
import proofs.«121875_j23536420782575_1_alg».proof.Proof.KIValue1
import proofs.«121875_j23536420782575_1_alg».proof.Proof.KIValue2
import proofs.«121875_j23536420782575_1_alg».proof.Proof.Gen.ReferenceIdeal

set_option maxRecDepth 16384

noncomputable section

namespace Cert.KernelIdeal.Regions

open Cert.KernelIdeal
open Idealize.ShloMosaic Idealize.ShloMosaic.TcCoe Idealize.ShloMosaic.StableHlo
open Idealize.SL Idealize.SL.Sem
open Idealize.ShloMosaic.Pipeline (Dat)

variable (m : (ℓ : Loc nD τ sig) → Buf (Elt Ideal) ℓ)

/-- The three dense regions before the decoder, each as the one host operation that computes its product. -/
abbrev twin0 : HloOp τ sig (Elt Ideal) :=
  binary main_arg0 main_arg4 main_v15 ((fun l r => Host.dotGeneral (F := Ideal) (φ₁ := .f32) (φ₂ := .f32) Cert.ReferenceIdeal.dot_S8192x256_S256x256_S8192x256_1_0_0_1_n_n none l r) : (⟨S8192x256, .f32⟩ : BufTy).Contents (Elt Ideal) → (⟨S256x256, .f32⟩ : BufTy).Contents (Elt Ideal) → (⟨S8192x256, .f32⟩ : BufTy).Contents (Elt Ideal))
abbrev twin1 : HloOp τ sig (Elt Ideal) :=
  binary main_v35 main_arg6 main_v36 ((fun l r => Host.dotGeneral (F := Ideal) (φ₁ := .f32) (φ₂ := .f32) Cert.ReferenceIdeal.dot_S8192x256_S256x256_S8192x256_1_0_0_1_n_n none l r) : (⟨S8192x256, .f32⟩ : BufTy).Contents (Elt Ideal) → (⟨S256x256, .f32⟩ : BufTy).Contents (Elt Ideal) → (⟨S8192x256, .f32⟩ : BufTy).Contents (Elt Ideal))
abbrev twin2 : HloOp τ sig (Elt Ideal) :=
  binary main_v35 main_arg8 main_v57 ((fun l r => Host.dotGeneral (F := Ideal) (φ₁ := .f32) (φ₂ := .f32) Cert.ReferenceIdeal.dot_S8192x256_S256x32_S8192x32_1_0_0_1_n_n none l r) : (⟨S8192x256, .f32⟩ : BufTy).Contents (Elt Ideal) → (⟨S256x32, .f32⟩ : BufTy).Contents (Elt Ideal) → (⟨S8192x32, .f32⟩ : BufTy).Contents (Elt Ideal))

/-- Off its output array region 0 changes nothing, at any device buffer. -/
theorem W2_other (c : Dev nD) (b : DevRef τ sig) (hb : b ≠ Proc.devRef .tc main_v15) : W2 m c b = W1 m c b := by
  by_cases h : ∃ w, Proc.devRef .tc (Pipeline.arrRef spec0 w) = b
  · obtain ⟨w, rfl⟩ := h
    exact W2_keep m c (Pipeline.arrRef spec0 w) fun e => hb (congrArg _ e)
  · unfold W2 Pipeline.withArrays; rw [dif_neg h]
theorem W5_other (c : Dev nD) (b : DevRef τ sig) (hb : b ≠ Proc.devRef .tc main_v36) : W5 m c b = W4 m c b := by
  by_cases h : ∃ w, Proc.devRef .tc (Pipeline.arrRef spec1 w) = b
  · obtain ⟨w, rfl⟩ := h
    exact W5_keep m c (Pipeline.arrRef spec1 w) fun e => hb (congrArg _ e)
  · unfold W5 Pipeline.withArrays; rw [dif_neg h]
theorem W8_other (c : Dev nD) (b : DevRef τ sig) (hb : b ≠ Proc.devRef .tc main_v57) : W8 m c b = W7 m c b := by
  by_cases h : ∃ w, Proc.devRef .tc (Pipeline.arrRef spec2 w) = b
  · obtain ⟨w, rfl⟩ := h
    exact W8_keep m c (Pipeline.arrRef spec2 w) fun e => hb (congrArg _ e)
  · unfold W8 Pipeline.withArrays; rw [dif_neg h]

/-- Region 0 leaves the buffers as its one host operation would. -/
theorem W2_twin (c : Dev nD) : W2 m c = after [twin0] (W1 m c) := by
  show W2 m c = (twin0).result (W1 m c)
  unfold twin0
  funext b
  by_cases hb : b = Proc.devRef .tc main_v15
  · subst hb
    rw [binary_result]
    exact (W2_arr m c 2).trans ((RegionValue.final0 (V1 m) c).trans (Cert.Lib.Dense.host_mm _ rfl _ _).symm)
  · rw [HloOp.result_of_not_mem _ _ (by rw [binary_writes]; exact fun h => hb (Finset.mem_singleton.mp h))]
    exact W2_other m c b hb
theorem W5_twin (c : Dev nD) : W5 m c = after [twin1] (W4 m c) := by
  show W5 m c = (twin1).result (W4 m c)
  unfold twin1
  funext b
  by_cases hb : b = Proc.devRef .tc main_v36
  · subst hb
    rw [binary_result]
    exact (W5_arr m c 2).trans ((RegionValue.final1 (V4 m) c).trans (Cert.Lib.Dense.host_mm _ rfl _ _).symm)
  · rw [HloOp.result_of_not_mem _ _ (by rw [binary_writes]; exact fun h => hb (Finset.mem_singleton.mp h))]
    exact W5_other m c b hb
theorem W8_twin (c : Dev nD) : W8 m c = after [twin2] (W7 m c) := by
  show W8 m c = (twin2).result (W7 m c)
  unfold twin2
  funext b
  by_cases hb : b = Proc.devRef .tc main_v57
  · subst hb
    rw [binary_result]
    exact (W8_arr m c 2).trans ((RegionValue.final2 (V7 m) c).trans (Cert.Lib.Dense.host_mm _ rfl _ _).symm)
  · rw [HloOp.result_of_not_mem _ _ (by rw [binary_writes]; exact fun h => hb (Finset.mem_singleton.mp h))]
    exact W8_other m c b hb

/-- The buffers before the decoder: the launch memory run through the host stretches and the three products. -/
theorem W11_eq (c : Dev nD) :
    W11 m c = after Gen.hostOps3_2 (after Gen.hostOps3_1 (after Gen.hostOps3 (after [twin2] (after Gen.hostOps2_1 (after Gen.hostOps2
      (after [twin1] (after Gen.hostOps1_1 (after Gen.hostOps1 (after [twin0] (after Gen.hostOps0 (W0 m c))))))))))) := by
  have e2 := W2_twin m c
  have e5 := W5_twin m c
  have e8 := W8_twin m c
  simp only [W11, W10, W9, e8, W7, W6, e5, W4, W3, e2, W1]

end Cert.KernelIdeal.Regions

end
-- ==== Proof.LibMatmulRows.lean ====
/-
  A matrix product whose right operand is given by rows.

  When the right operand of a `tpu.matmul` into the zero accumulator is the transpose of an `N × K` array `r`, the entry
  at row `p`, column `q` is, at the ideal values, the inner product of row `p` of the left operand with row `q` of `r`:
  the sum over `k` of `l (p, k) · r (q, k)`.
-/
import proofs.«121875_j23536420782575_1_alg».proof.Proof.LibPlainDot
import Idealize.ShloMosaic.Lib.ValueLayout

noncomputable section

open scoped BigOperators

namespace Cert.Lib.MatmulRows

open Idealize.ShloMosaic Idealize.ShloMosaic.ValueIdx

variable {M K N : Nat}

/-- The product with a transposed right operand, at entry `(p, q)`: the inner product of two rows. -/
theorem matmul_transposed_apply {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![N, K]⟩ φ₂)
    (ht : (⟨2, ![N, K]⟩ : Shape).Transposes [1, 0] ⟨2, ![K, N]⟩) (p : Fin M) (q : Fin N) :
    FloatOps.matmul D prec l (transpose ⟨2, ![K, N]⟩ [1, 0] r ht) (constant ⟨2, ![M, N]⟩ .f32 0x00000000#32) (ix2 p q)
      = ∑ k : Fin K, l (ix2 p k) * r (ix2 q k) := by
  subst hD
  rw [Cert.Lib.PlainDot.matmul_zero_apply]
  exact Finset.sum_congr rfl fun k _ => by rw [transpose_ix2_apply]

end Cert.Lib.MatmulRows

end
-- ==== Proof.KIValue3.lean ====
/-
  Region 3 of @main as one function of the array it finds.

  The region runs over an 8 x 8 grid of 1024 x 1024 tiles of the 8192 x 8192 result. Both of its input windows read the
  same 8192 x 32 array z: at the point with coordinates (a, b) the first is handed rows 1024 a … of z and the second rows
  1024 b … of z. The body narrows both blocks to a shorter float format, transposes the second, multiplies them into a
  zero accumulator and applies the logistic function to every entry. On the extended reals narrowing is the identity and
  the product with a transposed right operand is, entry by entry, the inner product of a row of the first block with a
  row of the second. So entry (p, q) of the tile is the logistic function of the inner product of rows 1024 a + p and
  1024 b + q of z, which is the entry of the tile's place in the result; the 64 tiles cover the result (entry (r, s)
  lies in the tile of point (r / 1024, s / 1024)). Hence the result array ends, entry (r, s), as the logistic function
  of the inner product of rows r and s of z.
-/
import proofs.«121875_j23536420782575_1_alg».proof.Proof.KIRegion3
import proofs.«121875_j23536420782575_1_alg».proof.Proof.LibMatmulRows
import Idealize.ShloMosaic.Lib.Pipeline.Value

set_option maxRecDepth 16384

noncomputable section

open scoped BigOperators

namespace Cert.KernelIdeal.RegionValue

open Cert.KernelIdeal Cert.KernelIdeal.Gen Cert.KernelIdeal.Regions
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The logistic function of the inner products of the rows of an 8192 x 32 array: entry `(r, s)` is
    `logistic (∑ k, Z (r, k) · Z (s, k))`. -/
def logisticGram (Z : S8192x32.Idx → EReal) : S8192x8192.Idx → EReal :=
  fun i => Ideal.logistic (∑ k : Fin 32, Z (ix2 (i 0) k) * Z (ix2 (i 1) k))

theorem logisticGram_apply (Z : S8192x32.Idx → EReal) (i : S8192x8192.Idx) :
    logisticGram Z i = Ideal.logistic (∑ k : Fin 32, Z (ix2 (i 0) k) * Z (ix2 (i 1) k)) := rfl

/-- The zero offsets of a whole-block rectangle, as a constant function. -/
theorem zeros3 : (![0, 0] : Fin 2 → Nat) = fun _ => 0 := funext fun a => by fin_cases a <;> rfl

/-- The body's payload at entry `(p, q)`: the logistic function of the inner product of row `p` of the first block
    with row `q` of the second (the casts of a block to its own shape are the identity). -/
theorem pay3_apply (x0 x1 : Vec Ideal S1024x32 .f32) (p q : Fin 1024) :
    k3_pay1 x0 x1 (ix2 p q) = Ideal.logistic (∑ k : Fin 32, x0 (ix2 p k) * x1 (ix2 q k)) := by
  unfold k3_pay1
  rw [shapeCast_self, shapeCast_self]
  exact congrArg Ideal.logistic (Cert.Lib.MatmulRows.matmul_transposed_apply dot_S1024x32_S32x1024_S1024x1024_1_0_0_1_n_n rfl none
    (truncf .bf16 x0 bitsLt_bf16_f32) (truncf .bf16 x1 bitsLt_bf16_f32) transposes_S1024x32_p1_0_S32x1024 p q)

/-- What the body leaves in the output tile, at an entry: loads and the store are whole-block, so it is the payload. -/
theorem out3_apply (x0 x1 : Vec Ideal S1024x32 .f32) (p q : Fin 1024) :
    out3_2 x0 x1 (ix2 p q) = Ideal.logistic (∑ k : Fin 32, x0 (ix2 p k) * x1 (ix2 q k)) := by
  unfold out3_2
  rw [View.canon_unit_zero zeros3]
  simp only [View.ld_unit_zero (S := S1024x32) zeros3]
  exact pay3_apply x0 x1 p q

/-- An entry of the output tile is the logistic function of the inner product of two rows of `Z`, when the rows of the
    first block are rows of `Z` and so are the rows of the second. -/
theorem point3 (x0 x1 : Vec Ideal S1024x32 .f32) (Z : S8192x32.Idx → EReal) (j : S1024x1024.Idx) (i : S8192x8192.Idx)
    (h0 : ∀ k : Fin 32, x0 (ix2 (j 0) k) = Z (ix2 (i 0) k))
    (h1 : ∀ k : Fin 32, x1 (ix2 (j 1) k) = Z (ix2 (i 1) k)) :
    out3_2 x0 x1 j = Ideal.logistic (∑ k : Fin 32, Z (ix2 (i 0) k) * Z (ix2 (i 1) k)) := by
  obtain ⟨p, q, rfl⟩ : ∃ (p : Fin 1024) (q : Fin 1024), j = ix2 p q := ⟨j 0, j 1, eq_ix2 j⟩
  rw [out3_apply]
  exact congrArg Ideal.logistic (Finset.sum_congr rfl fun k _ => congrArg₂ (· * ·) (h0 k) (h1 k))

/-- The block indices over the grid: point `t` has coordinates `(t / 8, t % 8)`; the first window's row block is the
    first coordinate, the second window's the second, the result's tile is both; the column index of an input is 0. -/
theorem idx_facts3 : ∀ t : Fin cfg3.N,
    win3_0.index t (0 : Fin 2) = t.val / 8 ∧ win3_0.index t (1 : Fin 2) = 0
    ∧ win3_1.index t (0 : Fin 2) = t.val % 8 ∧ win3_1.index t (1 : Fin 2) = 0
    ∧ win3_2.index t (0 : Fin 2) = t.val / 8 ∧ win3_2.index t (1 : Fin 2) = t.val % 8 :=
  (by decide +kernel : ∀ t : Fin grid3.N, _)

/-- The first window's block at point `t` is rows `1024 (t / 8) …` of `z`. -/
theorem iblk3_0_apply (c : Dev nD) (t : Fin cfg3.N) (y : S1024x32.Idx) (i : S8192x32.Idx)
    (h0 : (i 0).val = t.val / 8 * 1024 + (y 0).val) (h1 : (i 1).val = (y 1).val) :
    (iblk3 V c 0 t : Vec Ideal S1024x32 .f32) y = (V c main_v81 : S8192x32.Idx → EReal) i := by
  obtain ⟨e0, e1, -⟩ := idx_facts3 t
  unfold iblk3
  rw [View.read_apply]
  show V c main_v81 _ = V c main_v81 i
  congr 1
  funext a
  apply Fin.ext
  match a with
  | ⟨0, _⟩ => show win3_0.index t 0 * 1024 + 1 * (y 0).val = (i 0).val; rw [e0, h0]; omega
  | ⟨1, _⟩ => show win3_0.index t 1 * 32 + 1 * (y 1).val = (i 1).val; rw [e1, h1]; omega

/-- The second window's block at point `t` is rows `1024 (t % 8) …` of `z`. -/
theorem iblk3_1_apply (c : Dev nD) (t : Fin cfg3.N) (y : S1024x32.Idx) (i : S8192x32.Idx)
    (h0 : (i 0).val = t.val % 8 * 1024 + (y 0).val) (h1 : (i 1).val = (y 1).val) :
    (iblk3 V c 1 t : Vec Ideal S1024x32 .f32) y = (V c main_v81 : S8192x32.Idx → EReal) i := by
  obtain ⟨-, -, e2, e3, -⟩ := idx_facts3 t
  unfold iblk3
  rw [View.read_apply]
  show V c main_v81 _ = V c main_v81 i
  congr 1
  funext a
  apply Fin.ext
  match a with
  | ⟨0, _⟩ => show win3_1.index t 0 * 1024 + 1 * (y 0).val = (i 0).val; rw [e2, h0]; omega
  | ⟨1, _⟩ => show win3_1.index t 1 * 32 + 1 * (y 1).val = (i 1).val; rw [e3, h1]; omega

/-- What point `t` writes back is tile `t` of the array of logistic functions of inner products of rows of `z`. -/
theorem flushed3_eq (c : Dev nD) (t : Fin cfg3.N) :
    (dat3 (F := Ideal) V c).flushed 2 t
      = ((cfg3.win 2).blk t).view.read (Elt Ideal)
          (logisticGram (V c main_v81)) := by
  show (cfg3.win 2).cut (grid3.coords t) ((dat3 V c).after 2 t) = _
  rw [after3_2]
  obtain ⟨-, -, -, -, e4, e5⟩ := idx_facts3 t
  funext j
  rw [View.read_apply, logisticGram_apply]
  refine point3 _ _ _ _ _ (fun k => ?_) (fun k => ?_)
  · refine iblk3_0_apply V c t _ _ ?_ ?_
    · show win3_2.index t 0 * 1024 + 1 * (j 0).val = t.val / 8 * 1024 + (j 0).val
      rw [e4]; omega
    · rfl
  · refine iblk3_1_apply V c t _ _ ?_ ?_
    · show win3_2.index t 1 * 1024 + 1 * (j 1).val = t.val % 8 * 1024 + (j 1).val
      rw [e5]; omega
    · rfl

/-- An index of the result array is in point `t`'s tile iff each coordinate is in the tile's range on its axis. -/
theorem mem_blk3 (t : Fin cfg3.N) (i : S8192x8192.Idx) :
    i ∈ ((cfg3.win 2).blk t).view.set ↔ ∀ a : Fin 2, win3_2.index t a * S1024x1024.size a ≤ (i a).val
      ∧ (i a).val < win3_2.index t a * S1024x1024.size a + S1024x1024.size a := by
  show i ∈ ((View.whole main_v82).slice (win3_2.rect t)).set ↔ _
  rw [View.set_slice_whole, Rect.mem_set_unit]
  exact Iff.rfl

/-- Every index of the result array is in some point's tile: entry `(r, s)` in that of the point with coordinates
    `(r / 1024, s / 1024)`, which is point `8 (r / 1024) + s / 1024`. -/
theorem cover3 (i : S8192x8192.Idx) :
    ∃ t : Fin cfg3.N, (cfg3.win 2).flush t = true ∧ i ∈ ((cfg3.win 2).blk t).view.set := by
  have hi0 : (i 0).val < 8192 := (i 0).isLt
  have hi1 : (i 1).val < 8192 := (i 1).isLt
  have hN : grid3.N = 64 := N_3
  have ht : (i 0).val / 1024 * 8 + (i 1).val / 1024 < grid3.N := by rw [hN]; omega
  obtain ⟨-, -, -, -, e4, e5⟩ := idx_facts3 ⟨(i 0).val / 1024 * 8 + (i 1).val / 1024, ht⟩
  refine ⟨⟨(i 0).val / 1024 * 8 + (i 1).val / 1024, ht⟩, flush3_2 _, ?_⟩
  rw [mem_blk3]
  intro a
  match a with
  | ⟨0, _⟩ =>
    show win3_2.index ⟨(i 0).val / 1024 * 8 + (i 1).val / 1024, ht⟩ 0 * 1024 ≤ (i 0).val
      ∧ (i 0).val < win3_2.index ⟨(i 0).val / 1024 * 8 + (i 1).val / 1024, ht⟩ 0 * 1024 + 1024
    rw [e4]
    show ((i 0).val / 1024 * 8 + (i 1).val / 1024) / 8 * 1024 ≤ (i 0).val
      ∧ (i 0).val < ((i 0).val / 1024 * 8 + (i 1).val / 1024) / 8 * 1024 + 1024
    omega
  | ⟨1, _⟩ =>
    show win3_2.index ⟨(i 0).val / 1024 * 8 + (i 1).val / 1024, ht⟩ 1 * 1024 ≤ (i 1).val
      ∧ (i 1).val < win3_2.index ⟨(i 0).val / 1024 * 8 + (i 1).val / 1024, ht⟩ 1 * 1024 + 1024
    rw [e5]
    show ((i 0).val / 1024 * 8 + (i 1).val / 1024) % 8 * 1024 ≤ (i 1).val
      ∧ (i 1).val < ((i 0).val / 1024 * 8 + (i 1).val / 1024) % 8 * 1024 + 1024
    omega

/-- The result array after the region: entry `(r, s)` is the logistic function of the inner product of rows `r` and
    `s` of the array `z` the region finds. -/
theorem final3 (c : Dev nD) :
    (dat3 (F := Ideal) V c).arrAt 2 cfg3.N
      = (logisticGram (V c main_v81)) :=
  (dat3 (F := Ideal) V c).arrAt_eq_of_cover 2 _ (fun t _ => flushed3_eq V c t) cover3

end Cert.KernelIdeal.RegionValue

end
-- ==== Proof.KIValue4.lean ====
/-
  Region 4 of @main as one function of the two arrays it finds.

  The region runs over eight row blocks. At each it computes, from 1024 rows of the 8192 x 256 operand and the whole
  256 x 32 weight, the product of the two narrowed to a shorter float format and accumulated into zero, and writes it
  over the same 1024 rows of the result array. On the extended reals narrowing is the identity, so the block is the
  plain product of those rows with the weight; an entry of a product needs one row of the left operand and one column
  of the right, so the block is the whole arrays' product read at those rows; and the eight blocks cover the result
  (row r lies in block r / 1024). Hence the result array ends as the product of the two arrays.
-/
import proofs.«121875_j23536420782575_1_alg».proof.Proof.KIRegion4
import proofs.«121875_j23536420782575_1_alg».proof.Proof.LibProductRows
import Idealize.ShloMosaic.Lib.Pipeline.Value

set_option maxRecDepth 16384

noncomputable section

open scoped BigOperators

namespace Cert.KernelIdeal.RegionValue

open Cert.KernelIdeal Cert.KernelIdeal.Gen Cert.KernelIdeal.Regions
open Idealize.ShloMosaic Idealize.ShloMosaic.TcCoe Idealize.ShloMosaic.ValueIdx Idealize.SL.Sem
open Idealize.ShloMosaic.Pipeline (Dat)
open Cert.Lib.Dense Cert.Lib.ProductRows

variable (V : (c : Dev nD) → (b : Ref sig .tc) → Buf (Elt Ideal) ((c : Thread nD τ).loc b))

/-- The zero offsets of a whole-block rectangle, as a constant function. -/
theorem zeros4 : (![0, 0] : Fin 2 → Nat) = fun _ => 0 := funext fun a => by fin_cases a <;> rfl

/-- The body's payload is the plain product of its two loaded blocks. -/
theorem pay4_eq (x0 : Vec Ideal S1024x256 .f32) (x1 : Vec Ideal S256x32 .f32) :
    k4_pay1 x0 x1 = mm (M := 1024) (K := 256) (N := 32) x0 x1 := by
  unfold k4_pay1
  exact narrowMatmul_eq_mm dot_S1024x256_S256x32_S1024x32_1_0_0_1_n_n rfl x0 x1 _ _

/-- What the body leaves in the output block: loads and the store are whole-block, so it is that product. -/
theorem out4_eq (x0 : Vec Ideal S1024x256 .f32) (x1 : Vec Ideal S256x32 .f32) :
    out4_2 x0 x1 = mm (M := 1024) (K := 256) (N := 32) x0 x1 := by
  unfold out4_2
  rw [View.canon_unit_zero zeros4]
  simp only [View.ld_unit_zero (S := S1024x256) zeros4, View.ld_unit_zero (S := S256x32) zeros4]
  exact pay4_eq x0 x1

/-- An entry of the output block is the entry of the whole arrays' product at the same row and column, when the
    block's rows are the array's and the weights agree. -/
theorem point4 (x0 : Vec Ideal S1024x256 .f32) (x1 : Vec Ideal S256x32 .f32)
    (A : S8192x256.Idx → EReal) (W : S256x32.Idx → EReal) (j : S1024x32.Idx) (i : S8192x32.Idx)
    (h0 : ∀ k : Fin 256, x0 (ix2 (j 0) k) = A (ix2 (i 0) k))
    (h1 : ∀ k : Fin 256, x1 (ix2 k (j 1)) = W (ix2 k (i 1))) :
    out4_2 x0 x1 j = mm (M := 8192) (K := 256) (N := 32) A W i := by
  rw [out4_eq]
  exact mm_block x0 x1 A W j i h0 h1

/-- The block indices over the grid: the operand's and the result's row block is the point, every other index is 0. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The operand's block at point `t` is rows `1024 t … 1024 t + 1023` of the operand. -/
theorem iblk4_0_apply (c : Dev nD) (t : Fin cfg4.N) (y : S1024x256.Idx) (i : S8192x256.Idx)
    (h0 : (i 0).val = t.val * 1024 + (y 0).val) (h1 : (i 1).val = (y 1).val) :
    (iblk4 V c 0 t : Vec Ideal S1024x256 .f32) y = (V c main_arg0 : S8192x256.Idx → EReal) i := by
  obtain ⟨e0, e1, -⟩ := idx_facts4 t
  unfold iblk4
  rw [View.read_apply]
  show V c main_arg0 _ = V c main_arg0 i
  congr 1
  funext a
  apply Fin.ext
  match a with
  | ⟨0, _⟩ => show win4_0.index t 0 * 1024 + 1 * (y 0).val = (i 0).val; rw [e0, h0]; omega
  | ⟨1, _⟩ => show win4_0.index t 1 * 256 + 1 * (y 1).val = (i 1).val; rw [e1, h1]; omega

/-- The weight's block at every point is the whole weight. -/
theorem iblk4_1_apply (c : Dev nD) (t : Fin cfg4.N) (y : S256x32.Idx) (i : S256x32.Idx)
    (h0 : (i 0).val = (y 0).val) (h1 : (i 1).val = (y 1).val) :
    (iblk4 V c 1 t : Vec Ideal S256x32 .f32) y = (V c main_arg10 : S256x32.Idx → EReal) i := by
  obtain ⟨-, -, e2, e3, -⟩ := idx_facts4 t
  unfold iblk4
  rw [View.read_apply]
  show V c main_arg10 _ = V c main_arg10 i
  congr 1
  funext a
  apply Fin.ext
  match a with
  | ⟨0, _⟩ => show win4_1.index t 0 * 256 + 1 * (y 0).val = (i 0).val; rw [e2, h0]; omega
  | ⟨1, _⟩ => show win4_1.index t 1 * 32 + 1 * (y 1).val = (i 1).val; rw [e3, h1]; omega

/-- What point `t` writes back is block `t` of the product of the two arrays. -/
theorem flushed4_eq (c : Dev nD) (t : Fin cfg4.N) :
    (dat4 (F := Ideal) V c).flushed 2 t
      = ((cfg4.win 2).blk t).view.read (Elt Ideal)
          (mm (M := 8192) (K := 256) (N := 32) (V c main_arg0) (V c main_arg10)) := by
  show (cfg4.win 2).cut (grid4.coords t) ((dat4 V c).after 2 t) = _
  rw [after4_2]
  obtain ⟨-, -, -, -, e4, e5⟩ := idx_facts4 t
  funext j
  rw [View.read_apply]
  refine point4 _ _ _ _ _ _ (fun k => ?_) (fun k => ?_)
  · refine iblk4_0_apply V c t _ _ ?_ ?_
    · show win4_2.index t 0 * 1024 + 1 * (j 0).val = t.val * 1024 + (j 0).val
      rw [e4]; omega
    · rfl
  · refine iblk4_1_apply V c t _ _ ?_ ?_
    · rfl
    · show win4_2.index t 1 * 32 + 1 * (j 1).val = (j 1).val
      rw [e5]; omega

/-- An index of the result array is in point `t`'s block iff each coordinate is in the block's range on its axis. -/
theorem mem_blk4 (t : Fin cfg4.N) (i : S8192x32.Idx) :
    i ∈ ((cfg4.win 2).blk t).view.set ↔ ∀ a : Fin 2, win4_2.index t a * S1024x32.size a ≤ (i a).val
      ∧ (i a).val < win4_2.index t a * S1024x32.size a + S1024x32.size a := by
  show i ∈ ((View.whole main_v83).slice (win4_2.rect t)).set ↔ _
  rw [View.set_slice_whole, Rect.mem_set_unit]
  exact Iff.rfl

/-- Every index of the result array is in some point's block: row `r` in that of point `r / 1024`. -/
theorem cover4 (i : S8192x32.Idx) :
    ∃ t : Fin cfg4.N, (cfg4.win 2).flush t = true ∧ i ∈ ((cfg4.win 2).blk t).view.set := by
  have hi0 : (i 0).val < 8192 := (i 0).isLt
  have hi1 : (i 1).val < 32 := (i 1).isLt
  have hN : grid4.N = 8 := N_4
  have ht : (i 0).val / 1024 < grid4.N := by rw [hN]; omega
  obtain ⟨-, -, -, -, e4, e5⟩ := idx_facts4 ⟨(i 0).val / 1024, ht⟩
  refine ⟨⟨(i 0).val / 1024, ht⟩, flush4_2 _, ?_⟩
  rw [mem_blk4]
  intro a
  match a with
  | ⟨0, _⟩ =>
    show win4_2.index ⟨(i 0).val / 1024, ht⟩ 0 * 1024 ≤ (i 0).val
      ∧ (i 0).val < win4_2.index ⟨(i 0).val / 1024, ht⟩ 0 * 1024 + 1024
    rw [e4]; show (i 0).val / 1024 * 1024 ≤ (i 0).val ∧ (i 0).val < (i 0).val / 1024 * 1024 + 1024; omega
  | ⟨1, _⟩ =>
    show win4_2.index ⟨(i 0).val / 1024, ht⟩ 1 * 32 ≤ (i 1).val
      ∧ (i 1).val < win4_2.index ⟨(i 0).val / 1024, ht⟩ 1 * 32 + 32
    rw [e5]; omega

/-- The result array after the region: the product of the two arrays the region finds. -/
theorem final4 (c : Dev nD) :
    (dat4 (F := Ideal) V c).arrAt 2 cfg4.N
      = mm (M := 8192) (K := 256) (N := 32) (V c main_arg0) (V c main_arg10) :=
  (dat4 (F := Ideal) V c).arrAt_eq_of_cover 2 _ (fun t _ => flushed4_eq V c t) cover4

end Cert.KernelIdeal.RegionValue

end
-- ==== Proof.KIDecode.lean ====
/-
  The decoder as the host spells it. The host computes sigmoid(z zᵀ) in six steps: transpose z, take the product, negate,
  exponentiate, add one, divide one by the sum. On the extended reals the logistic function IS 1 / (1 + e^(−x)), with the
  same division, so at entry (p, q) those six steps give the logistic of the inner product of rows p and q of z — at
  every extended real, the infinities included.
-/
import proofs.«121875_j23536420782575_1_alg».proof.Proof.Gen.ReferenceIdeal
import proofs.«121875_j23536420782575_1_alg».proof.Proof.LibPlainDot
import Idealize.ShloMosaic.Lib.ValueLayout
import Idealize.ShloMosaic.PureOps.Ideal.Laws

set_option maxRecDepth 16384

noncomputable section

open scoped BigOperators

namespace Cert.Decode

open Idealize.ShloMosaic Idealize.ShloMosaic.ValueIdx

/-- The word of 1.0 denotes 1. -/
theorem one_word : Ideal.ofBits .f32 0x3F800000#32 = 1 := by
  simp [Ideal.ofBits, Ideal.ieee, -EReal.coe_mul]; norm_num

/-- The host's six steps from z to the reconstructed adjacency, as one function of z. -/
def decF (Z : FVec Ideal Cert.ReferenceIdeal.S8192x32 .f32) : FVec Ideal Cert.ReferenceIdeal.S8192x8192 .f32 :=
  Host.divf (broadcastInDim Cert.ReferenceIdeal.S8192x8192 ![] Cert.ReferenceIdeal.Facts₀.bcast_S_S8192x8192 (constant Cert.ReferenceIdeal.S_ .f32 0x3F800000#32))
    (addf (broadcastInDim Cert.ReferenceIdeal.S8192x8192 ![] Cert.ReferenceIdeal.Facts₀.bcast_S_S8192x8192 (constant Cert.ReferenceIdeal.S_ .f32 0x3F800000#32))
      (Host.exp (Host.negf (Host.dotGeneral Cert.ReferenceIdeal.dot_S8192x32_S32x8192_S8192x8192_1_0_0_1_n_n none Z
        (transpose Cert.ReferenceIdeal.S32x8192 [1, 0] Z Cert.ReferenceIdeal.Facts₀.transposes_S8192x32_S32x8192_1_0)))))

/-- The product of z with its transpose, at entry (p, q): the inner product of rows p and q. -/
theorem gram_apply (Z : FVec Ideal Cert.ReferenceIdeal.S8192x32 .f32) (p q : Fin 8192) :
    Host.dotGeneral Cert.ReferenceIdeal.dot_S8192x32_S32x8192_S8192x8192_1_0_0_1_n_n none Z
        (transpose Cert.ReferenceIdeal.S32x8192 [1, 0] Z Cert.ReferenceIdeal.Facts₀.transposes_S8192x32_S32x8192_1_0) (ix2 p q)
      = ∑ k : Fin 32, Z (ix2 p k) * Z (ix2 q k) := by
  refine (Cert.Lib.PlainDot.dotGeneral_apply (M := 8192) (K := 32) (N := 8192) none _ Z _ p q).trans ?_
  exact Finset.sum_congr rfl fun k _ => by rw [transpose_ix2_apply]

/-- The six steps at an entry: the logistic of the inner product of two rows of z. -/
theorem decF_apply (Z : FVec Ideal Cert.ReferenceIdeal.S8192x32 .f32) (i : Cert.ReferenceIdeal.S8192x8192.Idx) :
    decF Z i = Ideal.logistic (∑ k : Fin 32, Z (ix2 (i 0) k) * Z (ix2 (i 1) k)) := by
  obtain ⟨p, q, rfl⟩ : ∃ (p : Fin 8192) (q : Fin 8192), i = ix2 p q := ⟨i 0, i 1, eq_ix2 i⟩
  show FloatOps.hostDivf (Ideal.ofBits .f32 0x3F800000#32 : Ideal .f32)
      (FloatOps.addf (Ideal.ofBits .f32 0x3F800000#32 : Ideal .f32)
        (FloatOps.hostUnary .exp (FloatOps.hostNegf
          (Host.dotGeneral Cert.ReferenceIdeal.dot_S8192x32_S32x8192_S8192x8192_1_0_0_1_n_n none Z
            (transpose Cert.ReferenceIdeal.S32x8192 [1, 0] Z Cert.ReferenceIdeal.Facts₀.transposes_S8192x32_S32x8192_1_0) (ix2 p q))))) = _
  rw [gram_apply, one_word]
  rfl

end Cert.Decode

end
-- ==== Proof.LibTyped.lean ====
/-
  The contents of a typed reference, transported to its buffer's type and back.

  A value of an outlined function is held at a typed reference: its contents are carried to the buffer's own
  type (`toBuf`) when written and back (`ofBuf`) when read, both along the reference's type equation. Carried
  there and back — a result written by one operation and read by the next — they are unchanged. Stated for any
  typed reference, so a rewriting pass can drop every such pair without computing a buffer's type.
-/
import Idealize.ShloMosaic.Lib.StableHlo

namespace Cert.Lib.Typed

open Idealize.ShloMosaic Idealize.ShloMosaic.StableHlo

variable {sig : RefSig} {Val : EltTy → Type} {T : BufTy}

/-- Written to the buffer's type and read back at the value's type: unchanged. -/
theorem ofBuf_toBuf (x : TRef sig T) (v : T.Contents Val) : x.ofBuf (x.toBuf v) = v := by
  obtain ⟨r, h, h1, h2⟩ := x
  subst h
  rfl

/-- Read at the value's type and written back to the buffer's type: unchanged. -/
theorem toBuf_ofBuf (x : TRef sig T) (v : x.ref.ty.Contents Val) : x.toBuf (x.ofBuf v) = v := by
  obtain ⟨r, h, h1, h2⟩ := x
  subst h
  rfl

end Cert.Lib.Typed
-- ==== Proof.KIFinal.lean ====
/-
  The three results against the reference's. With each region before the decoder replaced by its one product operation the
  kernel's program is, operation for operation, the reference's own line of host operations, so z — read off that line
  at the launch memory — is the reference's composed term of the arguments, once the arguments' agreement is rewritten.
  The reconstructed adjacency is the decoder's function of z on both sides, and the projected features one product.
-/
import proofs.«121875_j23536420782575_1_alg».proof.Proof.KITwin
import proofs.«121875_j23536420782575_1_alg».proof.Proof.KIValue3
import proofs.«121875_j23536420782575_1_alg».proof.Proof.KIValue4
import proofs.«121875_j23536420782575_1_alg».proof.Proof.KIDecode
import proofs.«121875_j23536420782575_1_alg».proof.Proof.LibTyped
import proofs.«121875_j23536420782575_1_alg».proof.Proof.Gen.ReferenceIdeal.Run

set_option maxRecDepth 16384

noncomputable section

open scoped BigOperators

namespace Cert.KernelIdeal.Regions

open Cert.KernelIdeal
open Idealize.ShloMosaic Idealize.ShloMosaic.TcCoe Idealize.ShloMosaic.StableHlo Idealize.ShloMosaic.ValueIdx
open Idealize.SL Idealize.SL.Sem
open Idealize.ShloMosaic.Pipeline (Dat)

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-! A value of the outlined positive part is read at its operand's buffer and written at its result's buffer through
    the buffer's type equation. At a literal buffer the two types are one, so the transport is the identity. -/
section Transports
theorem ofBuf_v34 (p1 : main_v34.ty = (⟨S8192x256, .f32⟩ : BufTy)) (p2 p3) (v : main_v34.ty.Contents (Elt Ideal)) :
    (TRef.of main_v34 p1 p2 p3).ofBuf v = v := cast_eq _ _
theorem toBuf_v35 (p1 : main_v35.ty = (⟨S8192x256, .f32⟩ : BufTy)) (p2 p3) (v : (⟨S8192x256, .f32⟩ : BufTy).Contents (Elt Ideal)) :
    (TRef.of main_v35 p1 p2 p3).toBuf v = v := cast_eq _ _
theorem ofBuf_v55 (p1 : main_v55.ty = (⟨S8192x256, .f32⟩ : BufTy)) (p2 p3) (v : main_v55.ty.Contents (Elt Ideal)) :
    (TRef.of main_v55 p1 p2 p3).ofBuf v = v := cast_eq _ _
theorem toBuf_v56 (p1 : main_v56.ty = (⟨S8192x256, .f32⟩ : BufTy)) (p2 p3) (v : (⟨S8192x256, .f32⟩ : BufTy).Contents (Elt Ideal)) :
    (TRef.of main_v56 p1 p2 p3).toBuf v = v := cast_eq _ _
theorem ofBuf_v76 (p1 : main_v76.ty = (⟨S8192x32, .f32⟩ : BufTy)) (p2 p3) (v : main_v76.ty.Contents (Elt Ideal)) :
    (TRef.of main_v76 p1 p2 p3).ofBuf v = v := cast_eq _ _
theorem toBuf_v77 (p1 : main_v77.ty = (⟨S8192x32, .f32⟩ : BufTy)) (p2 p3) (v : (⟨S8192x32, .f32⟩ : BufTy).Contents (Elt Ideal)) :
    (TRef.of main_v77 p1 p2 p3).toBuf v = v := cast_eq _ _
end Transports

/-- z survives the last two regions: neither writes it. -/
theorem W13_z (c : Dev nD) : W13 m c (Proc.devRef .tc main_v81) = W11 m c (Proc.devRef .tc main_v81) :=
  (W13_keep m c main_v81 (by decide)).trans (W12_of_ne m c main_v81 (by decide))

set_option maxHeartbeats 60000000 in
/-- z is the reference's z, when the two memories agree on the ten arguments it depends on: read off the line of host
    operations, with the identity transports of the three outlined positive parts dropped, it is the same composition of
    the same operations of the same arguments. -/
theorem z_eq (c : Dev nD) (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9)) :
    W11 m c (Proc.devRef .tc main_v81) = Cert.ReferenceIdeal.Value.res_main_v81 m' c := by
  refine (congrFun (W11_eq m c) _).trans ?_
  unfold Cert.ReferenceIdeal.Value.res_main_v81
  rw [h0, h1, h2, h3, h4, h5, h6, h7, h8, h9]
  after_results_simp
  simp only [Cert.Lib.Typed.ofBuf_toBuf, ofBuf_v34, toBuf_v35, ofBuf_v55, toBuf_v56, ofBuf_v76, toBuf_v77]
  try rfl

/-- The reconstructed adjacency is the reference's, given that z is. -/
theorem adj_eq (c : Dev nD) (hz : W11 m c (Proc.devRef .tc main_v81) = Cert.ReferenceIdeal.Value.res_main_v81 m' c) :
    W13 m c (Proc.devRef .tc main_v82) = Cert.ReferenceIdeal.Value.res_main_v89 m' c := by
  refine (W13_keep m c main_v82 (by decide)).trans ((W12_out m c).trans ((RegionValue.final3 (V11 m) c).trans ?_))
  refine (congrArg RegionValue.logisticGram hz).trans ?_
  refine (funext fun i => (RegionValue.logisticGram_apply _ i).trans (Cert.Decode.decF_apply (Cert.ReferenceIdeal.Value.res_main_v81 m' c) i).symm).trans ?_
  unfold Cert.Decode.decF Cert.ReferenceIdeal.Value.res_main_v89 Cert.ReferenceIdeal.Value.res_main_v81
  rfl

/-- The projected features are the reference's product. -/
theorem seq_eq (c : Dev nD) (h0 : m' ((c.tc : Thread Cert.ReferenceIdeal.nD Cert.ReferenceIdeal.τ).loc Cert.ReferenceIdeal.main_arg0) = m ((c.tc : Thread nD τ).loc main_arg0)) (h10 : m' ((c.tc : Thread Cert.ReferenceIdeal.nD Cert.ReferenceIdeal.τ).loc Cert.ReferenceIdeal.main_arg10) = m ((c.tc : Thread nD τ).loc main_arg10)) :
    W13 m c (Proc.devRef .tc main_v83)
      = Host.dotGeneral (F := Ideal) (φ₁ := .f32) (φ₂ := .f32) Cert.ReferenceIdeal.dot_S8192x256_S256x32_S8192x32_1_0_0_1_n_n none
          (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg10)) := by
  rw [h0, h10]
  refine (W13_arr m c 2).trans ((RegionValue.final4 (V12 m) c).trans ?_)
  rw [show V12 m c main_arg0 = m ((c.tc : Thread nD τ).loc main_arg0) from (W13_keep m c main_arg0 (by decide)).symm.trans (W13_main_arg0 m c),
    show V12 m c main_arg10 = m ((c.tc : Thread nD τ).loc main_arg10) from (W13_keep m c main_arg10 (by decide)).symm.trans (W13_main_arg10 m c)]
  exact (Cert.Lib.Dense.host_mm _ rfl _ _).symm

end Cert.KernelIdeal.Regions

end
-- ==== Proof.lean ====
/-
  A graph autoencoder's forward pass: three graph-convolution layers (a dense product, each row scaled by its node's
  out-degree^(-1/2), gathered along the edges' sources, summed into the edges' destinations, scaled by in-degree^(-1/2),
  a bias, a positive part), z = mean[:, :32] + noise * exp(log_std), the reconstructed adjacency sigmoid(z zᵀ), and one
  more dense product of the features. The kernel computes the four dense products and the decoder in five tiled regions
  with operands narrowed to a shorter float format and accumulated in the wider one; every other step is the same line
  of host operations in both programs.

  On the extended reals narrowing a float is the identity and a product accumulated into zero is the plain product, so a
  region working on 1024 rows at a time leaves, block by block, the rows of the whole arrays' product: an entry of a
  product depends on one row of the left operand and one column of the right. The decoder's tile (i, j) holds the logistic
  of the inner products of rows 1024 i … of z with rows 1024 j … of z, and the logistic function is 1 / (1 + e^(-x)) with
  the host's own division, at the infinities too. Hence each region leaves exactly what the reference's corresponding
  host operations leave, the two programs then apply the same operations to equal arrays, and the three results agree
  entry by entry. No step uses that the inputs are finite: the two sides are the same sums of the same products.

  The frames: @main is thirteen items in a row, host stretches and the five regions; each region's body loads its two
  input blocks, stores one payload over its output block and touches nothing else, so the run ends, nothing faults, and
  every buffer that no item writes — the eleven arguments among them — ends as launched. The decoder reads one array, z,
  through both of its input windows; the core's full share of z is dealt to the two windows in halves on entry and
  joined on exit.
-/
import proofs.«121875_j23536420782575_1_alg».proof.Defs
import proofs.«121875_j23536420782575_1_alg».proof.Proof.Gen.Kernel
import proofs.«121875_j23536420782575_1_alg».proof.Proof.Gen.KernelIdeal
import proofs.«121875_j23536420782575_1_alg».proof.Proof.Gen.ReferenceIdeal
import proofs.«121875_j23536420782575_1_alg».proof.Proof.Gen.ReferenceIdeal.Run
import proofs.«121875_j23536420782575_1_alg».proof.Proof.Gen.Pre_finite_inputs
import proofs.«121875_j23536420782575_1_alg».proof.Proof.KKeep
import proofs.«121875_j23536420782575_1_alg».proof.Proof.KIFinal
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to the end without a fault and leaves its arguments as launched. -/
theorem frame_k : Cert.frame_Kernel := fun m ρ _ =>
  (θ_run (Cert.Kernel.defs (F := Bits)) _ _).mono (fun r h c => ⟨
      (h c _ (Cert.Kernel.Regions.mem_uc Cert.Kernel.main_arg0 (by decide))).trans (Cert.Kernel.Regions.W13_main_arg0 m c),
      (h c _ (Cert.Kernel.Regions.mem_uc Cert.Kernel.main_arg1 (by decide))).trans (Cert.Kernel.Regions.W13_main_arg1 m c),
      (h c _ (Cert.Kernel.Regions.mem_uc Cert.Kernel.main_arg2 (by decide))).trans (Cert.Kernel.Regions.W13_main_arg2 m c),
      (h c _ (Cert.Kernel.Regions.mem_uc Cert.Kernel.main_arg3 (by decide))).trans (Cert.Kernel.Regions.W13_main_arg3 m c),
      (h c _ (Cert.Kernel.Regions.mem_uc Cert.Kernel.main_arg4 (by decide))).trans (Cert.Kernel.Regions.W13_main_arg4 m c),
      (h c _ (Cert.Kernel.Regions.mem_uc Cert.Kernel.main_arg5 (by decide))).trans (Cert.Kernel.Regions.W13_main_arg5 m c),
      (h c _ (Cert.Kernel.Regions.mem_uc Cert.Kernel.main_arg6 (by decide))).trans (Cert.Kernel.Regions.W13_main_arg6 m c),
      (h c _ (Cert.Kernel.Regions.mem_uc Cert.Kernel.main_arg7 (by decide))).trans (Cert.Kernel.Regions.W13_main_arg7 m c),
      (h c _ (Cert.Kernel.Regions.mem_uc Cert.Kernel.main_arg8 (by decide))).trans (Cert.Kernel.Regions.W13_main_arg8 m c),
      (h c _ (Cert.Kernel.Regions.mem_uc Cert.Kernel.main_arg9 (by decide))).trans (Cert.Kernel.Regions.W13_main_arg9 m c),
      (h c _ (Cert.Kernel.Regions.mem_uc Cert.Kernel.main_arg10 (by decide))).trans (Cert.Kernel.Regions.W13_main_arg10 m c)⟩)
    (Cert.Kernel.Regions.run_all (F := Bits) m ρ)

/-- So does the idealized kernel. -/
theorem frame_ki : Cert.frame_KernelIdeal := fun m ρ _ =>
  (θ_run (Cert.KernelIdeal.defs (F := Ideal)) _ _).mono (fun r h c => ⟨
      (h c _ (Cert.KernelIdeal.Regions.mem_uc Cert.KernelIdeal.main_arg0 (by decide))).trans (Cert.KernelIdeal.Regions.W13_main_arg0 m c),
      (h c _ (Cert.KernelIdeal.Regions.mem_uc Cert.KernelIdeal.main_arg1 (by decide))).trans (Cert.KernelIdeal.Regions.W13_main_arg1 m c),
      (h c _ (Cert.KernelIdeal.Regions.mem_uc Cert.KernelIdeal.main_arg2 (by decide))).trans (Cert.KernelIdeal.Regions.W13_main_arg2 m c),
      (h c _ (Cert.KernelIdeal.Regions.mem_uc Cert.KernelIdeal.main_arg3 (by decide))).trans (Cert.KernelIdeal.Regions.W13_main_arg3 m c),
      (h c _ (Cert.KernelIdeal.Regions.mem_uc Cert.KernelIdeal.main_arg4 (by decide))).trans (Cert.KernelIdeal.Regions.W13_main_arg4 m c),
      (h c _ (Cert.KernelIdeal.Regions.mem_uc Cert.KernelIdeal.main_arg5 (by decide))).trans (Cert.KernelIdeal.Regions.W13_main_arg5 m c),
      (h c _ (Cert.KernelIdeal.Regions.mem_uc Cert.KernelIdeal.main_arg6 (by decide))).trans (Cert.KernelIdeal.Regions.W13_main_arg6 m c),
      (h c _ (Cert.KernelIdeal.Regions.mem_uc Cert.KernelIdeal.main_arg7 (by decide))).trans (Cert.KernelIdeal.Regions.W13_main_arg7 m c),
      (h c _ (Cert.KernelIdeal.Regions.mem_uc Cert.KernelIdeal.main_arg8 (by decide))).trans (Cert.KernelIdeal.Regions.W13_main_arg8 m c),
      (h c _ (Cert.KernelIdeal.Regions.mem_uc Cert.KernelIdeal.main_arg9 (by decide))).trans (Cert.KernelIdeal.Regions.W13_main_arg9 m c),
      (h c _ (Cert.KernelIdeal.Regions.mem_uc Cert.KernelIdeal.main_arg10 (by decide))).trans (Cert.KernelIdeal.Regions.W13_main_arg10 m c)⟩)
    (Cert.KernelIdeal.Regions.run_all (F := Ideal) m ρ)

/-- The reference is a line of host operations: it runs to the end and writes no argument. -/
theorem frame_ri : Cert.frame_ReferenceIdeal := fun m ρ _ =>
  (θ_run (Cert.ReferenceIdeal.defs (F := Ideal)) _ _).mono (fun _ h c => (h c).2.2.2) (Cert.ReferenceIdeal.Value.run (F := Ideal) m ρ)

/-- The idealization rewrote no operation: the idealized kernel is the kernel's own text read on the extended reals. -/
theorem preserves : Cert.preserves_Kernel_KernelIdeal := trivial

/-- From memories agreeing on the arguments both programs run to the end with the same three results: the
    reconstructed adjacency, z, and the projected features. -/
theorem algebraic : Cert.algebraic_KernelIdeal_ReferenceIdeal := by
  intro m ρ m' ρ' _ hagree
  refine ⟨fun c => Cert.KernelIdeal.Regions.W13 m c (Proc.devRef .tc Cert.KernelIdeal.main_v82),
    fun c => Cert.KernelIdeal.Regions.W13 m c (Proc.devRef .tc Cert.KernelIdeal.main_v81),
    fun c => Cert.KernelIdeal.Regions.W13 m c (Proc.devRef .tc Cert.KernelIdeal.main_v83), ?_, ?_⟩
  · exact (θ_run (Cert.KernelIdeal.defs (F := Ideal)) _ _).mono (fun r h c => ⟨
      h c _ (Cert.KernelIdeal.Regions.mem_uc Cert.KernelIdeal.main_v82 (by decide)),
      h c _ (Cert.KernelIdeal.Regions.mem_uc Cert.KernelIdeal.main_v81 (by decide)),
      h c _ (Cert.KernelIdeal.Regions.mem_uc Cert.KernelIdeal.main_v83 (by decide)),
      (h c _ (Cert.KernelIdeal.Regions.mem_uc Cert.KernelIdeal.main_arg0 (by decide))).trans (Cert.KernelIdeal.Regions.W13_main_arg0 m c),
      (h c _ (Cert.KernelIdeal.Regions.mem_uc Cert.KernelIdeal.main_arg1 (by decide))).trans (Cert.KernelIdeal.Regions.W13_main_arg1 m c),
      (h c _ (Cert.KernelIdeal.Regions.mem_uc Cert.KernelIdeal.main_arg2 (by decide))).trans (Cert.KernelIdeal.Regions.W13_main_arg2 m c),
      (h c _ (Cert.KernelIdeal.Regions.mem_uc Cert.KernelIdeal.main_arg3 (by decide))).trans (Cert.KernelIdeal.Regions.W13_main_arg3 m c),
      (h c _ (Cert.KernelIdeal.Regions.mem_uc Cert.KernelIdeal.main_arg4 (by decide))).trans (Cert.KernelIdeal.Regions.W13_main_arg4 m c),
      (h c _ (Cert.KernelIdeal.Regions.mem_uc Cert.KernelIdeal.main_arg5 (by decide))).trans (Cert.KernelIdeal.Regions.W13_main_arg5 m c),
      (h c _ (Cert.KernelIdeal.Regions.mem_uc Cert.KernelIdeal.main_arg6 (by decide))).trans (Cert.KernelIdeal.Regions.W13_main_arg6 m c),
      (h c _ (Cert.KernelIdeal.Regions.mem_uc Cert.KernelIdeal.main_arg7 (by decide))).trans (Cert.KernelIdeal.Regions.W13_main_arg7 m c),
      (h c _ (Cert.KernelIdeal.Regions.mem_uc Cert.KernelIdeal.main_arg8 (by decide))).trans (Cert.KernelIdeal.Regions.W13_main_arg8 m c),
      (h c _ (Cert.KernelIdeal.Regions.mem_uc Cert.KernelIdeal.main_arg9 (by decide))).trans (Cert.KernelIdeal.Regions.W13_main_arg9 m c),
      (h c _ (Cert.KernelIdeal.Regions.mem_uc Cert.KernelIdeal.main_arg10 (by decide))).trans (Cert.KernelIdeal.Regions.W13_main_arg10 m c)⟩)
      (Cert.KernelIdeal.Regions.run_all (F := Ideal) m ρ)
  · refine (θ_run (Cert.ReferenceIdeal.defs (F := Ideal)) _ _).mono (fun r h c => ?_) (Cert.ReferenceIdeal.Value.run (F := Ideal) m' ρ')
    obtain ⟨a0, a1, a2, a3, a4, a5, a6, a7, a8, a9, a10⟩ := hagree c
    have hz := Cert.KernelIdeal.Regions.z_eq m m' c a0 a1 a2 a3 a4 a5 a6 a7 a8 a9
    obtain ⟨r89, r81, r90, rest⟩ := h c
    exact ⟨r89.trans (Cert.KernelIdeal.Regions.adj_eq m m' c hz).symm, r81.trans ((Cert.KernelIdeal.Regions.W13_z m c).trans hz).symm,
      r90.trans (Cert.KernelIdeal.Regions.seq_eq m m' c a0 a10).symm, rest⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
